-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x16x128 : Shape := ⟨3, ![65536, 16, 128]⟩
abbrev S120x128 : Shape := ⟨2, ![120, 128]⟩
abbrev S128 : Shape := ⟨1, ![128]⟩
abbrev S128x128 : Shape := ⟨2, ![128, 128]⟩
abbrev S_ : Shape := ⟨0, ![]⟩

class Facts : Prop where
  bcast_S_S65536x16x128 : S_.BroadcastsInDim S65536x16x128 (![] : Fin 0 → Fin S65536x16x128.rank)
  reducesTo_S65536x16x128_S_d0_1_2 : S65536x16x128.ReducesTo [0, 1, 2] S_
  h_S_ : 0 < S_.numel
  bcast_S_S120x128 : S_.BroadcastsInDim S120x128 (![] : Fin 0 → Fin S120x128.rank)
  reducesTo_S120x128_S_d0_1 : S120x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S65536x16x128 .f32) (main_arg1 : FVec F S120x128 .f32) (main_arg2 : FVec F S128 .f32) (main_arg3 : FVec F S128x128 .f32) (main_arg4 : FVec F S128 .f32) : IVec S_ 1 :=
  let main_v0 : FVec F S65536x16x128 .f32 := Host.absf main_arg0
  let main_cst : FVec F S_ .f32 := constant S_ .f32 0x7F800000#32
  let main_v1 : FVec F S65536x16x128 .f32 := broadcastInDim S65536x16x128 ![] bcast_S_S65536x16x128 main_cst
  let main_v2 : IVec S65536x16x128 1 := cmpf .olt main_v0 main_v1
  let main_c : IVec S_ 1 := constantI S_ 1 1#1
  let main_v3 : IVec S_ 1 := (fun x v => Host.reduce IntOp.andi x v reducesTo_S65536x16x128_S_d0_1_2 h_S_) main_v2 main_c
  let main_v4 : FVec F S120x128 .f32 := Host.absf main_arg1
  let main_cst_0 : FVec F S_ .f32 := constant S_ .f32 0x7F800000#32
  let main_v5 : FVec F S120x128 .f32 := broadcastInDim S120x128 ![] bcast_S_S120x128 main_cst_0
  let main_v6 : IVec S120x128 1 := cmpf .olt main_v4 main_v5
  let main_c_1 : IVec S_ 1 := constantI S_ 1 1#1
  let main_v7 : IVec S_ 1 := (fun x v => Host.reduce IntOp.andi x v reducesTo_S120x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S65536x16x128 : Shape := ⟨3, ![65536, 16, 128]⟩
abbrev S120x128 : Shape := ⟨2, ![120, 128]⟩
abbrev S128 : Shape := ⟨1, ![128]⟩
abbrev S128x128 : Shape := ⟨2, ![128, 128]⟩
abbrev S120 : Shape := ⟨1, ![120]⟩
abbrev S_ : Shape := ⟨0, ![]⟩
abbrev S16x16x128 : Shape := ⟨3, ![16, 16, 128]⟩
abbrev S120x1 : Shape := ⟨2, ![120, 1]⟩
abbrev S120x2 : Shape := ⟨2, ![120, 2]⟩
abbrev S1x128 : Shape := ⟨2, ![1, 128]⟩
abbrev S65536x128 : Shape := ⟨2, ![65536, 128]⟩
abbrev S1024x16x128 : Shape := ⟨3, ![1024, 16, 128]⟩
abbrev S1024x128 : Shape := ⟨2, ![1024, 128]⟩
abbrev S1024x16 : Shape := ⟨2, ![1024, 16]⟩
abbrev S1024x16x1 : Shape := ⟨3, ![1024, 16, 1]⟩
abbrev S1024x1x128 : Shape := ⟨3, ![1024, 1, 128]⟩
abbrev S1x16x128 : Shape := ⟨3, ![1, 16, 128]⟩
abbrev S16x128 : Shape := ⟨2, ![16, 128]⟩

abbrev nBuf : Space → Nat
  | .hbm => 26
  | .vmem => 8
  | .smem => 0
  | _ => 0

abbrev bufTy : (tb : Table) → Fin (tcTables nBuf tb) → BufTy
  | .hbm, ⟨0, _⟩ => ⟨S65536x16x128, .f32⟩
  | .hbm, ⟨1, _⟩ => ⟨S120x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S120, .i32⟩
  | .hbm, ⟨6, _⟩ => ⟨S120, .i1⟩
  | .hbm, ⟨7, _⟩ => ⟨S120, .i32⟩
  | .hbm, ⟨8, _⟩ => ⟨S120, .i1⟩
  | .hbm, ⟨9, _⟩ => ⟨S_, .f32⟩
  | .hbm, ⟨10, _⟩ => ⟨S16x16x128, .f32⟩
  | .hbm, ⟨11, _⟩ => ⟨S_, .i32⟩
  | .hbm, ⟨12, _⟩ => ⟨S120, .i32⟩
  | .hbm, ⟨13, _⟩ => ⟨S120, .i32⟩
  | .hbm, ⟨14, _⟩ => ⟨S120, .i32⟩
  | .hbm, ⟨15, _⟩ => ⟨S_, .i32⟩
  | .hbm, ⟨16, _⟩ => ⟨S120, .i32⟩
  | .hbm, ⟨17, _⟩ => ⟨S120, .i32⟩
  | .hbm, ⟨18, _⟩ => ⟨S120, .i32⟩
  | .hbm, ⟨19, _⟩ => ⟨S120x1, .i32⟩
  | .hbm, ⟨20, _⟩ => ⟨S120x1, .i32⟩
  | .hbm, ⟨21, _⟩ => ⟨S120x2, .i32⟩
  | .hbm, ⟨22, _⟩ => ⟨S16x16x128, .f32⟩
  | .hbm, ⟨23, _⟩ => ⟨S1x128, .f32⟩
  | .hbm, ⟨24, _⟩ => ⟨S1x128, .f32⟩
  | .hbm, ⟨25, _⟩ => ⟨S65536x128, .f32⟩
  | .local _ .vmem, ⟨0, _⟩ => ⟨S1024x16x128, .f32⟩
  | .local _ .vmem, ⟨1, _⟩ => ⟨S1024x16x128, .f32⟩
  | .local _ .vmem, ⟨2, _⟩ => ⟨S16x16x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | _, _ => ⟨S65536x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_cst : Ref sig .tc := ⟨.hbm, 9, rfl⟩
abbrev main_v0 : Ref sig .tc := ⟨.hbm, 10, rfl⟩
abbrev main_c_3 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_4 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S16x16x128 : S_.BroadcastsInDim S16x16x128 (![] : Fin 0 → Fin S16x16x128.rank)
  bcast_S_S120 : S_.BroadcastsInDim S120 (![] : Fin 0 → Fin S120.rank)
  bcast_S120_S120x1_0 : S120.BroadcastsInDim S120x1 (![0] : Fin 1 → Fin S120x1.rank)
  concatenates_S120x1_S120x1_S120x2_d1 : Shape.Concatenates [S120x1, S120x1] S120x2 1
  shapeCasts_S128_S1x128 : S128.ShapeCasts S1x128
  inb_S1024x16x128_S1024x16x128_0_0_0 : ∀ a, (![0, 0, 0] : Fin 3 → Nat) a + S1024x16x128.size a ≤ S1024x16x128.size a
  h_S1024x16x128 : 0 < S1024x16x128.numel
  reduces_S1024x16x128_S1024x16 : S1024x16x128.Reduces [2] S1024x16
  shapeCasts_S1024x16_S1024x16x1 : S1024x16.ShapeCasts S1024x16x1
  broadcasts_S1024x16x1_S1024x16x128 : S1024x16x1.Broadcasts S1024x16x128
  slices_S1024x16x128_o0_0_0_S1024x1x128 : S1024x16x128.Slices ![0, 0, 0] S1024x1x128
  shapeCasts_S1024x1x128_S1024x128 : S1024x1x128.ShapeCasts S1024x128
  shapeCasts_S1024x128_S1024x1x128 : S1024x128.ShapeCasts S1024x1x128
  broadcasts_S1024x1x128_S1024x16x128 : S1024x1x128.Broadcasts S1024x16x128
  inb_S16x16x128_S1x16x128_0_0_0 : ∀ a, (![0, 0, 0] : Fin 3 → Nat) a + S1x16x128.size a ≤ S16x16x128.size a
  h_S1x16x128 : 0 < S1x16x128.numel
  shapeCasts_S1x16x128_S16x128 : S1x16x128.ShapeCasts S16x128
  slices_S1024x16x128_o0_1_0_S1024x1x128 : S1024x16x128.Slices ![0, 1, 0] S1024x1x128
  inb_S16x16x128_S1x16x128_1_0_0 : ∀ a, (![1, 0, 0] : Fin 3 → Nat) a + S1x16x128.size a ≤ S16x16x128.size a
  slices_S1024x16x128_o0_2_0_S1024x1x128 : S1024x16x128.Slices ![0, 2, 0] S1024x1x128
  inb_S16x16x128_S1x16x128_2_0_0 : ∀ a, (![2, 0, 0] : Fin 3 → Nat) a + S1x16x128.size a ≤ S16x16x128.size a
  slices_S1024x16x128_o0_3_0_S1024x1x128 : S1024x16x128.Slices ![0, 3, 0] S1024x1x128
  inb_S16x16x128_S1x16x128_3_0_0 : ∀ a, (![3, 0, 0] : Fin 3 → Nat) a + S1x16x128.size a ≤ S16x16x128.size a
  slices_S1024x16x128_o0_4_0_S1024x1x128 : S1024x16x128.Slices ![0, 4, 0] S1024x1x128
  inb_S16x16x128_S1x16x128_4_0_0 : ∀ a, (![4, 0, 0] : Fin 3 → Nat) a + S1x16x128.size a ≤ S16x16x128.size a
  slices_S1024x16x128_o0_5_0_S1024x1x128 : S1024x16x128.Slices ![0, 5, 0] S1024x1x128
  inb_S16x16x128_S1x16x128_5_0_0 : ∀ a, (![5, 0, 0] : Fin 3 → Nat) a + S1x16x128.size a ≤ S16x16x128.size a
  slices_S1024x16x128_o0_6_0_S1024x1x128 : S1024x16x128.Slices ![0, 6, 0] S1024x1x128
  inb_S16x16x128_S1x16x128_6_0_0 : ∀ a, (![6, 0, 0] : Fin 3 → Nat) a + S1x16x128.size a ≤ S16x16x128.size a
  slices_S1024x16x128_o0_7_0_S1024x1x128 : S1024x16x128.Slices ![0, 7, 0] S1024x1x128
  inb_S16x16x128_S1x16x128_7_0_0 : ∀ a, (![7, 0, 0] : Fin 3 → Nat) a + S1x16x128.size a ≤ S16x16x128.size a
  slices_S1024x16x128_o0_8_0_S1024x1x128 : S1024x16x128.Slices ![0, 8, 0] S1024x1x128
  inb_S16x16x128_S1x16x128_8_0_0 : ∀ a, (![8, 0, 0] : Fin 3 → Nat) a + S1x16x128.size a ≤ S16x16x128.size a
  slices_S1024x16x128_o0_9_0_S1024x1x128 : S1024x16x128.Slices ![0, 9, 0] S1024x1x128
  inb_S16x16x128_S1x16x128_9_0_0 : ∀ a, (![9, 0, 0] : Fin 3 → Nat) a + S1x16x128.size a ≤ S16x16x128.size a
  slices_S1024x16x128_o0_10_0_S1024x1x128 : S1024x16x128.Slices ![0, 10, 0] S1024x1x128
  inb_S16x16x128_S1x16x128_10_0_0 : ∀ a, (![10, 0, 0] : Fin 3 → Nat) a + S1x16x128.size a ≤ S16x16x128.size a
  slices_S1024x16x128_o0_11_0_S1024x1x128 : S1024x16x128.Slices ![0, 11, 0] S1024x1x128
  inb_S16x16x128_S1x16x128_11_0_0 : ∀ a, (![11, 0, 0] : Fin 3 → Nat) a + S1x16x128.size a ≤ S16x16x128.size a
  slices_S1024x16x128_o0_12_0_S1024x1x128 : S1024x16x128.Slices ![0, 12, 0] S1024x1x128
  inb_S16x16x128_S1x16x128_12_0_0 : ∀ a, (![12, 0, 0] : Fin 3 → Nat) a + S1x16x128.size a ≤ S16x16x128.size a
  slices_S1024x16x128_o0_13_0_S1024x1x128 : S1024x16x128.Slices ![0, 13, 0] S1024x1x128
  inb_S16x16x128_S1x16x128_13_0_0 : ∀ a, (![13, 0, 0] : Fin 3 → Nat) a + S1x16x128.size a ≤ S16x16x128.size a
  slices_S1024x16x128_o0_14_0_S1024x1x128 : S1024x16x128.Slices ![0, 14, 0] S1024x1x128
  inb_S16x16x128_S1x16x128_14_0_0 : ∀ a, (![14, 0, 0] : Fin 3 → Nat) a + S1x16x128.size a ≤ S16x16x128.size a
  slices_S1024x16x128_o0_15_0_S1024x1x128 : S1024x16x128.Slices ![0, 15, 0] S1024x1x128
  inb_S16x16x128_S1x16x128_15_0_0 : ∀ a, (![15, 0, 0] : Fin 3 → Nat) a + S1x16x128.size a ≤ S16x16x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  inb_S1024x128_S1024x128_0_0 : ∀ a, (![0, 0] : Fin 2 → Nat) a + S1024x128.size a ≤ S1024x128.size a
  h_S1024x128 : 0 < S1024x128.numel
  scatter_S16x16x128_S120x2_S120x128_1_01_01_1_wf : ScatterDims.WF S16x16x128 S120x2 S120x128 [1] [0, 1] [0, 1] 1
  dot_S1024x16_S16x128_S1024x128_1_0_0_1_n_n_wf : DotDims.WF S1024x16 S16x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16x128.size a ≤ S65536x16x128.size a
  hwx0_0 : ∀ i : grid0.Coords, EltTy.bits .f32 = 32 ∨ (Rect.block (s := S65536x16x128) S1024x16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16x128.size a ≤ S16x16x128.size a
  hwx0_1 : ∀ i : grid0.Coords, EltTy.bits .f32 = 32 ∨ (Rect.block (s := S16x16x128) S16x16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S65536x128.size a
  hwx0_5 : ∀ i : grid0.Coords, EltTy.bits .f32 = 32 ∨ (Rect.block (s := S65536x128) S1024x128.size (cc0_transform_5 i) (hinb0_5 i)).WholeWords (EltTy.packing .f32)

variable [Facts₀]

def scatter_S16x16x128_S120x2_S120x128_1_01_01_1 : ScatterDims S16x16x128 S120x2 S120x128 where
  updateWindowDims := [1]
  insertedWindowDims := [0, 1]
  scatterDimsToOperandDims := [0, 1]
  indexVectorDim := 1
  wf := scatter_S16x16x128_S120x2_S120x128_1_01_01_1_wf
def dot_S1024x16_S16x128_S1024x128_1_0_0_1_n_n : DotDims S1024x16 S16x128 S1024x128 where
  lhsContracting := [1]
  rhsContracting := [0]
  lhsNonContracting := [0]
  rhsNonContracting := [1]
  lhsBatch := []
  rhsBatch := []
  wf := dot_S1024x16_S16x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1024x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S16x16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x16x128 : Shape := ⟨3, ![65536, 16, 128]⟩
abbrev S120x128 : Shape := ⟨2, ![120, 128]⟩
abbrev S128 : Shape := ⟨1, ![128]⟩
abbrev S128x128 : Shape := ⟨2, ![128, 128]⟩
abbrev S_ : Shape := ⟨0, ![]⟩
abbrev S65536x16 : Shape := ⟨2, ![65536, 16]⟩
abbrev S65536x16x1 : Shape := ⟨3, ![65536, 16, 1]⟩
abbrev S65536x16x16 : Shape := ⟨3, ![65536, 16, 16]⟩
abbrev S16x16 : Shape := ⟨2, ![16, 16]⟩
abbrev S256 : Shape := ⟨1, ![256]⟩
abbrev S120 : Shape := ⟨1, ![120]⟩
abbrev S256x1 : Shape := ⟨2, ![256, 1]⟩
abbrev S120x1 : Shape := ⟨2, ![120, 1]⟩
abbrev S120x2 : Shape := ⟨2, ![120, 2]⟩
abbrev S65536x120 : Shape := ⟨2, ![65536, 120]⟩
abbrev S65536x128 : Shape := ⟨2, ![65536, 128]⟩
abbrev S1x128 : Shape := ⟨2, ![1, 128]⟩

abbrev nBuf : Space → Nat
  | .hbm => 162
  | .vmem => 0
  | .smem => 0
  | _ => 0

abbrev hbmTy0_0 (i : Nat) : BufTy := match i % 128 with
  | 0 => ⟨S65536x16x128, .f32⟩
  | 1 => ⟨S120x128, .f32⟩
  | 2 => ⟨S128, .f32⟩
  | 3 => ⟨S128x128, .f32⟩
  | 4 => ⟨S128, .f32⟩
  | 5 => ⟨S65536x16x128, .f32⟩
  | 6 => ⟨S_, .f32⟩
  | 7 => ⟨S65536x16, .f32⟩
  | 8 => ⟨S65536x16x1, .f32⟩
  | 9 => ⟨S65536x16x1, .f32⟩
  | 10 => ⟨S_, .f32⟩
  | 11 => ⟨S65536x16x1, .f32⟩
  | 12 => ⟨S65536x16x1, .f32⟩
  | 13 => ⟨S65536x16x128, .f32⟩
  | 14 => ⟨S65536x16x128, .f32⟩
  | 15 => ⟨S65536x16x16, .f32⟩
  | 16 => ⟨S_, .f32⟩
  | 17 => ⟨S16x16, .f32⟩
  | 18 => ⟨S16x16, .i32⟩
  | 19 => ⟨S_, .i32⟩
  | 20 => ⟨S16x16, .i32⟩
  | 21 => ⟨S16x16, .i32⟩
  | 22 => ⟨S16x16, .i32⟩
  | 23 => ⟨S16x16, .i1⟩
  | 24 => ⟨S_, .f32⟩
  | 25 => ⟨S16x16, .f32⟩
  | 26 => ⟨S16x16, .f32⟩
  | 27 => ⟨S_, .f32⟩
  | 28 => ⟨S16x16, .f32⟩
  | 29 => ⟨S16x16, .i1⟩
  | 30 => ⟨S256, .i1⟩
  | 31 => ⟨S256, .i32⟩
  | 32 => ⟨S_, .i32⟩
  | 33 => ⟨S_, .i32⟩
  | 34 => ⟨S256, .i32⟩
  | 35 => ⟨S_, .i32⟩
  | 36 => ⟨S120, .i32⟩
  | 37 => ⟨S_, .i32⟩
  | 38 => ⟨S_, .i32⟩
  | 39 => ⟨S256, .i32⟩
  | 40 => ⟨S256, .i32⟩
  | 41 => ⟨S_, .i32⟩
  | 42 => ⟨S256, .i32⟩
  | 43 => ⟨S256, .i1⟩
  | 44 => ⟨S_, .i32⟩
  | 45 => ⟨S256, .i32⟩
  | 46 => ⟨S256, .i32⟩
  | 47 => ⟨S256, .i32⟩
  | 48 => ⟨S256x1, .i32⟩
  | 49 => ⟨S_, .i32⟩
  | 50 => ⟨S256, .i32⟩
  | 51 => ⟨S120, .i32⟩
  | 52 => ⟨S_, .i32⟩
  | 53 => ⟨S_, .i32⟩
  | 54 => ⟨S120, .i32⟩
  | 55 => ⟨S_, .i32⟩
  | 56 => ⟨S120, .i32⟩
  | 57 => ⟨S120, .i32⟩
  | 58 => ⟨S120, .i32⟩
  | 59 => ⟨S_, .i32⟩
  | 60 => ⟨S120, .i32⟩
  | 61 => ⟨S120, .i1⟩
  | 62 => ⟨S120, .i32⟩
  | 63 => ⟨S120, .i32⟩
  | 64 => ⟨S_, .i32⟩
  | 65 => ⟨S120, .i32⟩
  | 66 => ⟨S120, .i1⟩
  | 67 => ⟨S120, .i1⟩
  | 68 => ⟨S_, .i32⟩
  | 69 => ⟨S120, .i32⟩
  | 70 => ⟨S120, .i32⟩
  | 71 => ⟨S120, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S120, .i32⟩
  | 79 => ⟨S120, .i32⟩
  | 80 => ⟨S_, .i32⟩
  | 81 => ⟨S120, .i32⟩
  | 82 => ⟨S120, .i1⟩
  | 83 => ⟨S_, .i32⟩
  | 84 => ⟨S120, .i32⟩
  | 85 => ⟨S120, .i1⟩
  | 86 => ⟨S_, .i32⟩
  | 87 => ⟨S_, .i1⟩
  | 88 => ⟨S120, .i1⟩
  | 89 => ⟨S120, .i1⟩
  | 90 => ⟨S120, .i1⟩
  | 91 => ⟨S120, .i32⟩
  | 92 => ⟨S120, .i32⟩
  | 93 => ⟨S120, .i32⟩
  | 94 => ⟨S_, .i32⟩
  | 95 => ⟨S120, .i32⟩
  | 96 => ⟨S120, .i32⟩
  | 97 => ⟨S120, .i32⟩
  | 98 => ⟨S_, .i32⟩
  | 99 => ⟨S120, .i32⟩
  | 100 => ⟨S120, .i1⟩
  | 101 => ⟨S120, .i32⟩
  | 102 => ⟨S120, .i32⟩
  | 103 => ⟨S_, .i32⟩
  | 104 => ⟨S120, .i32⟩
  | 105 => ⟨S120, .i1⟩
  | 106 => ⟨S120, .i1⟩
  | 107 => ⟨S_, .i32⟩
  | 108 => ⟨S120, .i32⟩
  | 109 => ⟨S120, .i32⟩
  | 110 => ⟨S120, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S120, .i32⟩
  | 118 => ⟨S120, .i32⟩
  | 119 => ⟨S_, .i32⟩
  | 120 => ⟨S120, .i32⟩
  | 121 => ⟨S120, .i1⟩
  | 122 => ⟨S_, .i32⟩
  | 123 => ⟨S120, .i32⟩
  | 124 => ⟨S120, .i1⟩
  | 125 => ⟨S_, .i32⟩
  | 126 => ⟨S_, .i1⟩
  | 127 => ⟨S120, .i1⟩
  | _ => ⟨S65536x16x128, .f32⟩

abbrev hbmTy0_1 (i : Nat) : BufTy := match i % 128 with
  | 0 => ⟨S120, .i1⟩
  | 1 => ⟨S120, .i1⟩
  | 2 => ⟨S120, .i32⟩
  | 3 => ⟨S120, .i32⟩
  | 4 => ⟨S120, .i32⟩
  | 5 => ⟨S_, .i32⟩
  | 6 => ⟨S120, .i32⟩
  | 7 => ⟨S120, .i1⟩
  | 8 => ⟨S_, .i32⟩
  | 9 => ⟨S120, .i32⟩
  | 10 => ⟨S120, .i32⟩
  | 11 => ⟨S120, .i32⟩
  | 12 => ⟨S_, .i32⟩
  | 13 => ⟨S120, .i32⟩
  | 14 => ⟨S120, .i1⟩
  | 15 => ⟨S_, .i32⟩
  | 16 => ⟨S120, .i32⟩
  | 17 => ⟨S120, .i32⟩
  | 18 => ⟨S120, .i32⟩
  | 19 => ⟨S120x1, .i32⟩
  | 20 => ⟨S120x1, .i32⟩
  | 21 => ⟨S120x2, .i32⟩
  | 22 => ⟨S65536x120, .f32⟩
  | 23 => ⟨S65536x128, .f32⟩
  | 24 => ⟨S1x128, .f32⟩
  | 25 => ⟨S65536x128, .f32⟩
  | 26 => ⟨S65536x128, .f32⟩
  | 27 => ⟨S_, .f32⟩
  | 28 => ⟨S65536x128, .f32⟩
  | 29 => ⟨S65536x128, .f32⟩
  | 30 => ⟨S65536x128, .f32⟩
  | 31 => ⟨S1x128, .f32⟩
  | 32 => ⟨S65536x128, .f32⟩
  | 33 => ⟨S65536x128, .f32⟩
  | _ => ⟨S65536x16x128, .f32⟩

abbrev hbmTy (i : Nat) : BufTy := match i / 128 with
  | 0 => hbmTy0_0 i
  | 1 => hbmTy0_1 i
  | _ => ⟨S65536x16x128, .f32⟩

abbrev bufTy : (tb : Table) → Fin (tcTables nBuf tb) → BufTy
  | .hbm, ⟨i, _⟩ => hbmTy i
  | _, _ => ⟨S65536x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_call1_v0 : Ref sig .tc := ⟨.hbm, 18, rfl⟩
abbrev main_call1_c : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_cst : Ref sig .tc := ⟨.hbm, 24, rfl⟩
abbrev main_call1_v5 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_call2_v0 : Ref sig .tc := ⟨.hbm, 30, rfl⟩
abbrev main_call2_v1 : Ref sig .tc := ⟨.hbm, 31, rfl⟩
abbrev main_call2_call0_c : Ref sig .tc := ⟨.hbm, 32, rfl⟩
abbrev main_call2_call0_v0 : Ref sig .tc := ⟨.hbm, 33, rfl⟩
abbrev main_v10 : Ref sig .tc := ⟨.hbm, 34, rfl⟩
abbrev main_c : Ref sig .tc := ⟨.hbm, 35, rfl⟩
abbrev main_v11 : Ref sig .tc := ⟨.hbm, 36, rfl⟩
abbrev main_c_2 : Ref sig .tc := ⟨.hbm, 37, rfl⟩
abbrev main_call3_v0 : Ref sig .tc := ⟨.hbm, 38, rfl⟩
abbrev main_call3_v1 : Ref sig .tc := ⟨.hbm, 39, rfl⟩
abbrev main_v12 : Ref sig .tc := ⟨.hbm, 40, rfl⟩
abbrev main_c_3 : Ref sig .tc := ⟨.hbm, 41, rfl⟩
abbrev main_v13 : Ref sig .tc := ⟨.hbm, 42, rfl⟩
abbrev main_v14 : Ref sig .tc := ⟨.hbm, 43, rfl⟩
abbrev main_c_4 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_c_5 : Ref sig .tc := ⟨.hbm, 49, rfl⟩
abbrev main_v19 : Ref sig .tc := ⟨.hbm, 50, rfl⟩
abbrev main_v20 : Ref sig .tc := ⟨.hbm, 51, rfl⟩
abbrev main_call4_call0_c : Ref sig .tc := ⟨.hbm, 52, rfl⟩
abbrev main_call4_call0_v0 : Ref sig .tc := ⟨.hbm, 53, rfl⟩
abbrev main_v21 : Ref sig .tc := ⟨.hbm, 54, rfl⟩
abbrev main_c_6 : Ref sig .tc := ⟨.hbm, 55, rfl⟩
abbrev main_call5_v0 : Ref sig .tc := ⟨.hbm, 56, rfl⟩
abbrev main_call5_v1 : Ref sig .tc := ⟨.hbm, 57, rfl⟩
abbrev main_call5_v2 : Ref sig .tc := ⟨.hbm, 58, rfl⟩
abbrev main_call5_v3 : Ref sig .tc := ⟨.hbm, 59, rfl⟩
abbrev main_call5_v4 : Ref sig .tc := ⟨.hbm, 60, rfl⟩
abbrev main_call5_v5 : Ref sig .tc := ⟨.hbm, 61, rfl⟩
abbrev main_call5_v6 : Ref sig .tc := ⟨.hbm, 62, rfl⟩
abbrev main_call5_v7 : Ref sig .tc := ⟨.hbm, 63, rfl⟩
abbrev main_call5_c : Ref sig .tc := ⟨.hbm, 64, rfl⟩
abbrev main_call5_v8 : Ref sig .tc := ⟨.hbm, 65, rfl⟩
abbrev main_call5_v9 : Ref sig .tc := ⟨.hbm, 66, rfl⟩
abbrev main_call5_v10 : Ref sig .tc := ⟨.hbm, 67, rfl⟩
abbrev main_call5_c_0 : Ref sig .tc := ⟨.hbm, 68, rfl⟩
abbrev main_call5_v11 : Ref sig .tc := ⟨.hbm, 69, rfl⟩
abbrev main_call5_v12 : Ref sig .tc := ⟨.hbm, 70, rfl⟩
abbrev main_v22 : Ref sig .tc := ⟨.hbm, 71, rfl⟩
abbrev main_c_7 : Ref sig .tc := ⟨.hbm, 72, rfl⟩
abbrev main_call6_v0 : Ref sig .tc := ⟨.hbm, 73, rfl⟩
abbrev main_call6_c : Ref sig .tc := ⟨.hbm, 74, rfl⟩
abbrev main_call6_v1 : Ref sig .tc := ⟨.hbm, 75, rfl⟩
abbrev main_call6_c_0 : Ref sig .tc := ⟨.hbm, 76, rfl⟩
abbrev main_call6_v2 : Ref sig .tc := ⟨.hbm, 77, rfl⟩
abbrev main_call6_v3 : Ref sig .tc := ⟨.hbm, 78, rfl⟩
abbrev main_call6_v4 : Ref sig .tc := ⟨.hbm, 79, rfl⟩
abbrev main_call6_c_1 : Ref sig .tc := ⟨.hbm, 80, rfl⟩
abbrev main_call6_v5 : Ref sig .tc := ⟨.hbm, 81, rfl⟩
abbrev main_call6_v6 : Ref sig .tc := ⟨.hbm, 82, rfl⟩
abbrev main_call6_c_2 : Ref sig .tc := ⟨.hbm, 83, rfl⟩
abbrev main_call6_v7 : Ref sig .tc := ⟨.hbm, 84, rfl⟩
abbrev main_call6_v8 : Ref sig .tc := ⟨.hbm, 85, rfl⟩
abbrev main_call6_c_3 : Ref sig .tc := ⟨.hbm, 86, rfl⟩
abbrev main_call6_v9 : Ref sig .tc := ⟨.hbm, 87, rfl⟩
abbrev main_call6_v10 : Ref sig .tc := ⟨.hbm, 88, rfl⟩
abbrev main_call6_v11 : Ref sig .tc := ⟨.hbm, 89, rfl⟩
abbrev main_call6_v12 : Ref sig .tc := ⟨.hbm, 90, rfl⟩
abbrev main_call6_v13 : Ref sig .tc := ⟨.hbm, 91, rfl⟩
abbrev main_call6_v14 : Ref sig .tc := ⟨.hbm, 92, rfl⟩
abbrev main_v23 : Ref sig .tc := ⟨.hbm, 93, rfl⟩
abbrev main_c_8 : Ref sig .tc := ⟨.hbm, 94, rfl⟩
abbrev main_call7_v0 : Ref sig .tc := ⟨.hbm, 95, rfl⟩
abbrev main_call7_v1 : Ref sig .tc := ⟨.hbm, 96, rfl⟩
abbrev main_call7_v2 : Ref sig .tc := ⟨.hbm, 97, rfl⟩
abbrev main_call7_v3 : Ref sig .tc := ⟨.hbm, 98, rfl⟩
abbrev main_call7_v4 : Ref sig .tc := ⟨.hbm, 99, rfl⟩
abbrev main_call7_v5 : Ref sig .tc := ⟨.hbm, 100, rfl⟩
abbrev main_call7_v6 : Ref sig .tc := ⟨.hbm, 101, rfl⟩
abbrev main_call7_v7 : Ref sig .tc := ⟨.hbm, 102, rfl⟩
abbrev main_call7_c : Ref sig .tc := ⟨.hbm, 103, rfl⟩
abbrev main_call7_v8 : Ref sig .tc := ⟨.hbm, 104, rfl⟩
abbrev main_call7_v9 : Ref sig .tc := ⟨.hbm, 105, rfl⟩
abbrev main_call7_v10 : Ref sig .tc := ⟨.hbm, 106, rfl⟩
abbrev main_call7_c_0 : Ref sig .tc := ⟨.hbm, 107, rfl⟩
abbrev main_call7_v11 : Ref sig .tc := ⟨.hbm, 108, rfl⟩
abbrev main_call7_v12 : Ref sig .tc := ⟨.hbm, 109, rfl⟩
abbrev main_v24 : Ref sig .tc := ⟨.hbm, 110, rfl⟩
abbrev main_c_9 : Ref sig .tc := ⟨.hbm, 111, rfl⟩
abbrev main_call8_v0 : Ref sig .tc := ⟨.hbm, 112, rfl⟩
abbrev main_call8_c : Ref sig .tc := ⟨.hbm, 113, rfl⟩
abbrev main_call8_v1 : Ref sig .tc := ⟨.hbm, 114, rfl⟩
abbrev main_call8_c_0 : Ref sig .tc := ⟨.hbm, 115, rfl⟩
abbrev main_call8_v2 : Ref sig .tc := ⟨.hbm, 116, rfl⟩
abbrev main_call8_v3 : Ref sig .tc := ⟨.hbm, 117, rfl⟩
abbrev main_call8_v4 : Ref sig .tc := ⟨.hbm, 118, rfl⟩
abbrev main_call8_c_1 : Ref sig .tc := ⟨.hbm, 119, rfl⟩
abbrev main_call8_v5 : Ref sig .tc := ⟨.hbm, 120, rfl⟩
abbrev main_call8_v6 : Ref sig .tc := ⟨.hbm, 121, rfl⟩
abbrev main_call8_c_2 : Ref sig .tc := ⟨.hbm, 122, rfl⟩
abbrev main_call8_v7 : Ref sig .tc := ⟨.hbm, 123, rfl⟩
abbrev main_call8_v8 : Ref sig .tc := ⟨.hbm, 124, rfl⟩
abbrev main_call8_c_3 : Ref sig .tc := ⟨.hbm, 125, rfl⟩
abbrev main_call8_v9 : Ref sig .tc := ⟨.hbm, 126, rfl⟩
abbrev main_call8_v10 : Ref sig .tc := ⟨.hbm, 127, rfl⟩
abbrev main_call8_v11 : Ref sig .tc := ⟨.hbm, 128, rfl⟩
abbrev main_call8_v12 : Ref sig .tc := ⟨.hbm, 129, rfl⟩
abbrev main_call8_v13 : Ref sig .tc := ⟨.hbm, 130, rfl⟩
abbrev main_call8_v14 : Ref sig .tc := ⟨.hbm, 131, rfl⟩
abbrev main_v25 : Ref sig .tc := ⟨.hbm, 132, rfl⟩
abbrev main_c_10 : Ref sig .tc := ⟨.hbm, 133, rfl⟩
abbrev main_v26 : Ref sig .tc := ⟨.hbm, 134, rfl⟩
abbrev main_v27 : Ref sig .tc := ⟨.hbm, 135, rfl⟩
abbrev main_c_11 : Ref sig .tc := ⟨.hbm, 136, rfl⟩
abbrev main_v28 : Ref sig .tc := ⟨.hbm, 137, rfl⟩
abbrev main_v29 : Ref sig .tc := ⟨.hbm, 138, rfl⟩
abbrev main_v30 : Ref sig .tc := ⟨.hbm, 139, rfl⟩
abbrev main_c_12 : Ref sig .tc := ⟨.hbm, 140, rfl⟩
abbrev main_v31 : Ref sig .tc := ⟨.hbm, 141, rfl⟩
abbrev main_v32 : Ref sig .tc := ⟨.hbm, 142, rfl⟩
abbrev main_c_13 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_v42 : Ref sig .tc := ⟨.hbm, 153, rfl⟩
abbrev main_v43 : Ref sig .tc := ⟨.hbm, 154, rfl⟩
abbrev main_call9_cst : Ref sig .tc := ⟨.hbm, 155, rfl⟩
abbrev main_call9_v0 : Ref sig .tc := ⟨.hbm, 156, rfl⟩
abbrev main_v44 : Ref sig .tc := ⟨.hbm, 157, rfl⟩
abbrev main_v45 : Ref sig .tc := ⟨.hbm, 158, rfl⟩
abbrev main_v46 : Ref sig .tc := ⟨.hbm, 159, rfl⟩
abbrev main_v47 : Ref sig .tc := ⟨.hbm, 160, rfl⟩
abbrev main_v48 : Ref sig .tc := ⟨.hbm, 161, rfl⟩

abbrev nD : Nat := 1
abbrev τ : Topo := Topo.v7x

variable {F : FTy → Type} [FloatOps F]

class Facts₀ : Prop where
  reducesTo_S65536x16x128_S65536x16_d2 : S65536x16x128.ReducesTo [2] S65536x16
  h_S_ : 0 < S_.numel
  bcast_S65536x16_S65536x16x1_0_1 : S65536x16.BroadcastsInDim S65536x16x1 (![0, 1] : Fin 2 → Fin S65536x16x1.rank)
  bcast_S_S65536x16x1 : S_.BroadcastsInDim S65536x16x1 (![] : Fin 0 → Fin S65536x16x1.rank)
  bcast_S65536x16x1_S65536x16x128_0_1_2 : S65536x16x1.BroadcastsInDim S65536x16x128 (![0, 1, 2] : Fin 3 → Fin S65536x16x128.rank)
  bcast_S_S16x16 : S_.BroadcastsInDim S16x16 (![] : Fin 0 → Fin S16x16.rank)
  shapeCasts_S16x16_S256 : S16x16.ShapeCasts S256
  natLt_1_32 : 1 < 32
  bcast_S_S_ : S_.BroadcastsInDim S_ (![] : Fin 0 → Fin S_.rank)
  reduceWindows_S256_S256_w256s1p255_0 : S256.ReduceWindows (![256] : Fin 1 → Nat) ![1] ![255] ![0] S256
  bcast_S_S120 : S_.BroadcastsInDim S120 (![] : Fin 0 → Fin S120.rank)
  bcast_S_S256 : S_.BroadcastsInDim S256 (![] : Fin 0 → Fin S256.rank)
  bcast_S256_S256x1_0 : S256.BroadcastsInDim S256x1 (![0] : Fin 1 → Fin S256x1.rank)
  reduceWindows_S120_S120_w120s1p119_0 : S120.ReduceWindows (![120] : Fin 1 → Nat) ![1] ![119] ![0] S120
  bcast_S120_S120x1_0 : S120.BroadcastsInDim S120x1 (![0] : Fin 1 → Fin S120x1.rank)
  concatenates_S120x1_S120x1_S120x2_d1 : Shape.Concatenates [S120x1, S120x1] S120x2 1
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  dot_S65536x16x128_S65536x16x128_S65536x16x16_2_2_1_1_0_0_wf : DotDims.WF S65536x16x128 S65536x16x128 S65536x16x16 [2] [2] [1] [1] [0] [0]
  scatter_S120_S256x1_S256_n_0_0_1_wf : ScatterDims.WF S120 S256x1 S256 [] [0] [0] 1
  gather_S65536x16x16_S120x2_S65536x120_0_12_n_n_12_1_6553611_wf : GatherDims.WF S65536x16x16 S120x2 S65536x120 [0] [1, 2] [] [1, 2] [] 1 ![65536, 1, 1]
  dot_S65536x120_S120x128_S65536x128_1_0_0_1_n_n_wf : DotDims.WF S65536x120 S120x128 S65536x128 [1] [0] [0] [1] [] []
  dot_S65536x128_S128x128_S65536x128_1_0_0_1_n_n_wf : DotDims.WF S65536x128 S128x128 S65536x128 [1] [0] [0] [1] [] []

variable [Facts₀]

def dot_S65536x16x128_S65536x16x128_S65536x16x16_2_2_1_1_0_0 : DotDims S65536x16x128 S65536x16x128 S65536x16x16 where
  lhsContracting := [2]
  rhsContracting := [2]
  lhsNonContracting := [1]
  rhsNonContracting := [1]
  lhsBatch := [0]
  rhsBatch := [0]
  wf := dot_S65536x16x128_S65536x16x128_S65536x16x16_2_2_1_1_0_0_wf
def scatter_S120_S256x1_S256_n_0_0_1 : ScatterDims S120 S256x1 S256 where
  updateWindowDims := []
  insertedWindowDims := [0]
  scatterDimsToOperandDims := [0]
  indexVectorDim := 1
  wf := scatter_S120_S256x1_S256_n_0_0_1_wf
def gather_S65536x16x16_S120x2_S65536x120_0_12_n_n_12_1_6553611 : GatherDims S65536x16x16 S120x2 S65536x120 where
  offsetDims := [0]
  collapsedSliceDims := [1, 2]
  operandBatchingDims := []
  startIndicesBatchingDims := []
  startIndexMap := [1, 2]
  indexVectorDim := 1
  sliceSizes := ![65536, 1, 1]
  wf := gather_S65536x16x16_S120x2_S65536x120_0_12_n_n_12_1_6553611_wf
def dot_S65536x120_S120x128_S65536x128_1_0_0_1_n_n : DotDims S65536x120 S120x128 S65536x128 where
  lhsContracting := [1]
  rhsContracting := [0]
  lhsNonContracting := [0]
  rhsNonContracting := [1]
  lhsBatch := []
  rhsBatch := []
  wf := dot_S65536x120_S120x128_S65536x128_1_0_0_1_n_n_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf

class Facts : Prop extends Facts₀ where

variable [Facts]
-- ==== Proof.Pairs.lean ====
/-
  The 120 unordered pairs of 16 tokens, in row-major order of the strict upper triangle:
  pair `p` is `(row p, col p)` with `row p < col p`. Both programs address the Gram matrix of a
  batch element through this enumeration — one by a table of constants, the other by computing
  the positions of the nonzero entries of the strict-upper-triangle mask — and the first layer's
  weight row `p` belongs to pair `p`.
-/
import Idealize.ShloMosaic.Lib.ValueIdx

noncomputable section

open Idealize.ShloMosaic

namespace Cert.Pairs

/-- The first token of each pair, pair by pair. -/
def rowL : List Nat := [0, 0, 0, 0, 0, 0, 0, 0, 0, 0, 0, 0, 0, 0, 0, 1, 1, 1, 1, 1, 1, 1, 1, 1, 1, 1, 1, 1, 1, 2, 2, 2, 2, 2, 2, 2, 2, 2, 2, 2, 2, 2, 3, 3, 3, 3, 3, 3, 3, 3, 3, 3, 3, 3, 4, 4, 4, 4, 4, 4, 4, 4, 4, 4, 4, 5, 5, 5, 5, 5, 5, 5, 5, 5, 5, 6, 6, 6, 6, 6, 6, 6, 6, 6, 7, 7, 7, 7, 7, 7, 7, 7, 8, 8, 8, 8, 8, 8, 8, 9, 9, 9, 9, 9, 9, 10, 10, 10, 10, 10, 11, 11, 11, 11, 12, 12, 12, 13, 13, 14]
/-- The second token of each pair, pair by pair. -/
def colL : List Nat := [1, 2, 3, 4, 5, 6, 7, 8, 9, 10, 11, 12, 13, 14, 15, 2, 3, 4, 5, 6, 7, 8, 9, 10, 11, 12, 13, 14, 15, 3, 4, 5, 6, 7, 8, 9, 10, 11, 12, 13, 14, 15, 4, 5, 6, 7, 8, 9, 10, 11, 12, 13, 14, 15, 5, 6, 7, 8, 9, 10, 11, 12, 13, 14, 15, 6, 7, 8, 9, 10, 11, 12, 13, 14, 15, 7, 8, 9, 10, 11, 12, 13, 14, 15, 8, 9, 10, 11, 12, 13, 14, 15, 9, 10, 11, 12, 13, 14, 15, 10, 11, 12, 13, 14, 15, 11, 12, 13, 14, 15, 12, 13, 14, 15, 13, 14, 15, 14, 15, 15]

/-- The first token of pair `p`. -/
def row (p : Fin 120) : Fin 16 := ⟨rowL.getD p.val 0 % 16, Nat.mod_lt _ (by decide)⟩
/-- The second token of pair `p`. -/
def col (p : Fin 120) : Fin 16 := ⟨colL.getD p.val 0 % 16, Nat.mod_lt _ (by decide)⟩

/-- The position of the pair `(i, j)`, `i < j`, in the enumeration: the pairs of the rows before `i`
    number `15 + 14 + … + (16 - i)`, and `j - i - 1` pairs of row `i` come before it. (Junk when `j ≤ i`.) -/
def pos (i j : Fin 16) : Fin 120 := ⟨(i.val * (31 - i.val) / 2 + (j.val - i.val - 1)) % 120, Nat.mod_lt _ (by decide)⟩

theorem row_lt_col : ∀ p : Fin 120, row p < col p := by decide
theorem pos_pair : ∀ p : Fin 120, pos (row p) (col p) = p := by decide
theorem pair_pos : ∀ i j : Fin 16, i < j → row (pos i j) = i ∧ col (pos i j) = j := by decide

/-- The enumeration is injective. -/
theorem pair_injective : Function.Injective fun p : Fin 120 => (row p, col p) := by
  intro p q h
  have h1 : row p = row q := congrArg Prod.fst h
  have h2 : col p = col q := congrArg Prod.snd h
  rw [← pos_pair p, ← pos_pair q, h1, h2]

/-- A pair of tokens is enumerated exactly when it is strictly increasing. -/
theorem mem_range_iff (i j : Fin 16) : (∃ p : Fin 120, (row p, col p) = (i, j)) ↔ i < j := by
  constructor
  · rintro ⟨p, hp⟩
    have h1 : row p = i := congrArg Prod.fst hp
    have h2 : col p = j := congrArg Prod.snd hp
    rw [← h1, ← h2]; exact row_lt_col p
  · intro h
    exact ⟨pos i j, by rw [(pair_pos i j h).1, (pair_pos i j h).2]⟩

/-- The index table both programs gather and scatter through: entry `(p, 0)` is the first token of pair `p`
    and entry `(p, 1)` the second, as 32-bit integers. -/
def table : IVec (⟨2, ![120, 2]⟩ : Shape) 32 := fun k =>
  BitVec.ofNat 32 (if (k 1).val = 0 then rowL.getD (k 0).val 0 else colL.getD (k 0).val 0)

end Cert.Pairs

end
-- ==== Proof.Spec.lean ====
/-
  What both programs compute for ONE batch element, over the extended reals.
  A batch element is sixteen token vectors of 128 features, `x k d`. Each token vector is divided by its
  Euclidean norm clipped below at the 32-bit pattern of 1e-12 (`unit`); `gram x i j` is the inner product of the
  normalised tokens `i` and `j`. The first layer's pre-activation is written in two ways: over the 120 strictly
  increasing pairs, pair `p` weighted by row `p` of the weight matrix (`prePairs`), and over all 256 ordered
  pairs against a 16 × 16 × 128 weight array (`preFull`). When that array holds row `p` at the position of pair `p`
  and zero elsewhere the two agree (`preFull_eq_prePairs`): the products with zero vanish — in the extended reals
  `a * 0 = 0` for every `a`, infinite ones included — and the remaining terms are the same terms in another order,
  and addition of extended reals is commutative and associative. No finiteness is needed. `head` is the rest of the
  network: bias, rectifier, the second layer and its bias.
-/
import Idealize.ShloMosaic.PureOps.Ideal
import proofs.«181531_j20555713478745_2_alg».proof.Proof.Pairs

noncomputable section

open scoped BigOperators

namespace Cert.Spec

open Idealize.ShloMosaic

/-- The norm's lower clip: the extended real the 32-bit pattern of 1e-12 denotes. -/
def eps : EReal := Ideal.ofBits .f32 0x2B8CBCCC#32

/-- Token `k`'s feature `d` after normalisation: the feature over the token's clipped norm. -/
def unit (x : Fin 16 → Fin 128 → EReal) (k : Fin 16) (d : Fin 128) : EReal :=
  Ideal.div (x k d) (max (Ideal.sqrt (∑ e : Fin 128, x k e * x k e)) eps)

/-- The inner product of the normalised tokens `i` and `j`. -/
def gram (x : Fin 16 → Fin 128 → EReal) (i j : Fin 16) : EReal :=
  ∑ d : Fin 128, unit x i d * unit x j d

/-- The first layer before bias, over the 120 increasing pairs. -/
def prePairs (x : Fin 16 → Fin 128 → EReal) (W1 : Fin 120 → Fin 128 → EReal) (h : Fin 128) : EReal :=
  ∑ p : Fin 120, gram x (Pairs.row p) (Pairs.col p) * W1 p h

/-- The first layer before bias, over all ordered pairs against a 16 × 16 × 128 weight array. -/
def preFull (x : Fin 16 → Fin 128 → EReal) (Wf : Fin 16 → Fin 16 → Fin 128 → EReal) (h : Fin 128) : EReal :=
  ∑ i : Fin 16, ∑ j : Fin 16, gram x i j * Wf i j h

/-- Bias, rectifier, second layer, bias. -/
def head (pre b1 : Fin 128 → EReal) (W2 : Fin 128 → Fin 128 → EReal) (b2 : Fin 128 → EReal) (o : Fin 128) : EReal :=
  (∑ h : Fin 128, max (pre h + b1 h) 0 * W2 h o) + b2 o

/-- The sum over all ordered pairs against the zero-padded weight array is the sum over the increasing pairs. -/
theorem preFull_eq_prePairs (x : Fin 16 → Fin 128 → EReal) (W1 : Fin 120 → Fin 128 → EReal)
    (Wf : Fin 16 → Fin 16 → Fin 128 → EReal)
    (hhit : ∀ p h, Wf (Pairs.row p) (Pairs.col p) h = W1 p h)
    (hmiss : ∀ i j h, ¬ i < j → Wf i j h = 0) (h : Fin 128) :
    preFull x Wf h = prePairs x W1 h := by
  unfold preFull prePairs
  have h1 : (∑ i : Fin 16, ∑ j : Fin 16, gram x i j * Wf i j h)
      = ∑ ij : Fin 16 × Fin 16, gram x ij.1 ij.2 * Wf ij.1 ij.2 h :=
    (Fintype.sum_prod_type' (fun i j => gram x i j * Wf i j h)).symm
  have h2 : (∑ ij : Fin 16 × Fin 16, gram x ij.1 ij.2 * Wf ij.1 ij.2 h)
      = ∑ ij ∈ Finset.univ.image (fun p : Fin 120 => (Pairs.row p, Pairs.col p)), gram x ij.1 ij.2 * Wf ij.1 ij.2 h := by
    refine (Finset.sum_subset (Finset.subset_univ _) fun ij _ hn => ?_).symm
    have hlt : ¬ ij.1 < ij.2 := fun hlt => hn (by
      obtain ⟨p, hp⟩ := (Pairs.mem_range_iff ij.1 ij.2).2 hlt
      exact Finset.mem_image.2 ⟨p, Finset.mem_univ _, hp⟩)
    rw [hmiss _ _ _ hlt, mul_zero]
  rw [h1, h2, Finset.sum_image (fun p _ q _ hpq => Pairs.pair_injective hpq)]
  exact Finset.sum_congr rfl fun p _ => by rw [hhit]

end Cert.Spec

end
-- ==== Proof.LibLayout3.lean ====
/-
  Arrays of rank three read at an index, for the layout steps a row-normalising, row-correlating tile
  computation is made of: a middle unit axis dropped or added by a cast, a middle or trailing unit axis
  repeated by a broadcast, a trailing unit axis added by a cast, and the sum over the last axis.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Layout3

open Idealize.ShloMosaic Idealize.ShloMosaic.ValueIdx

variable {α : Type}

/-- An `[a, 1, c]` array cast to `[a, c]` reads, at `(i, j)`, the operand at `(i, 0, j)`. -/
theorem cast_a1c_ac {a c : ℕ} (x : (⟨3, ![a, 1, c]⟩ : Shape).Idx → α)
    (h : (⟨3, ![a, 1, c]⟩ : Shape).ShapeCasts ⟨2, ![a, c]⟩) (i : Fin a) (j : Fin c) :
    shapeCast ⟨2, ![a, c]⟩ x h (ix2 i j) = x (ix3 i (0 : Fin 1) j) :=
  shapeCast_apply x h _ _ (by
    rw [Shape.rowMajor_val_three, Shape.rowMajor_val_two]
    show (i.val * 1 + 0) * c + j.val = i.val * c + j.val
    rw [Nat.mul_one, Nat.add_zero])

/-- An `[a, c]` array cast to `[a, 1, c]` reads, at `(i, u, j)`, the operand at `(i, j)`. -/
theorem cast_ac_a1c {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b]` array cast to `[a, b, 1]` reads, at `(i, k, u)`, the operand at `(i, k)`. -/
theorem cast_ab_ab1 {a b : ℕ} (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An `[a, 1, c]` array broadcast to `[a, b, c]` reads, at `(i, k, j)`, the operand at `(i, 0, j)`. -/
theorem bcast_a1c_abc {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- An `[a, b, 1]` array broadcast to `[a, b, c]` reads, at `(i, k, j)`, the operand at `(i, k, 0)`. -/
theorem bcast_ab1_abc {a b c : ℕ} (v : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ v h (ix3 i k j) = v (ix3 i k (0 : Fin 1)) := by
  refine broadcastTo_apply v h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The index a sum over the last axis of an `[a, b, c]` array inserts at `(i, k)` and coordinate `d` is `(i, k, d)`. -/
theorem lift_last {a b c : ℕ} (h : Shape.Reduces ⟨3, ![a, b, c]⟩ [2] ⟨2, ![a, b]⟩) (i : Fin a) (k : Fin b) (d : Fin c) :
    h.lift (ix2 i k) d = ix3 i k d := by
  funext ax
  refine Fin.ext ?_
  match ax with
  | ⟨0, _⟩ => rfl
  | ⟨1, _⟩ => rfl
  | ⟨2, _⟩ => rfl

/-- A tile's sum over the last axis of an `[a, b, c]` array, at the exact reals, read at `(i, k)`: the sum over `d` of
    the array at `(i, k, d)`. -/
theorem sum_last {a b c : ℕ} (src : FVec Ideal ⟨3, ![a, b, c]⟩ .f32)
    (h : Shape.Reduces ⟨3, ![a, b, c]⟩ [2] ⟨2, ![a, b]⟩) (hφ : FKind.Formats .f32)
    (hacc : (0x00000000#32 : BitVec 32) = FKind.add.neutral .f32 hφ) (i : Fin a) (k : Fin b) :
    multiReduction .add [2] ⟨2, ![a, b]⟩ src 0x00000000#32 h hφ hacc (ix2 i k) = ∑ d : Fin c, src (ix3 i k d) :=
  (Ideal.multiReduction_add_single src 0x00000000#32 h hφ hacc (ix2 i k)).trans
    (Finset.sum_congr rfl fun d _ => congrArg src (lift_last h i k d))

/-- The host's sum over the last axis of an `[a, b, c]` array from the initial value `init`, at the exact reals, read
    at `(i, k)`. -/
theorem host_sum_last {a b c : ℕ} (x : (⟨3, ![a, b, c]⟩ : Shape).Idx → EReal)
    (h' : Shape.ReducesTo ⟨3, ![a, b, c]⟩ [2] ⟨2, ![a, b]⟩) (h : Shape.Reduces ⟨3, ![a, b, c]⟩ [2] ⟨2, ![a, b]⟩)
    (init : EReal) (i : Fin a) (k : Fin b) :
    Ideal.hostReduceAdd h' x init (ix2 i k) = init + ∑ d : Fin c, x (ix3 i k d) :=
  (Ideal.hostReduceAdd_single h' h x init (ix2 i k)).trans
    (congrArg (init + ·) (Finset.sum_congr rfl fun d _ => congrArg x (lift_last h i k d)))

end Cert.Layout3

end
-- ==== Proof.LibPlainDot.lean ====
/-
  A matrix product whose dimension numbers are the plain ones — rows by one contracted axis times that axis by
  columns, no batch axis — read at an output index (r, c): the sum over the contracted coordinate k of
  left (r, k) times right (k, c). Stated for any dimension record with those axis lists, so that a kernel's
  tile product and a host's whole product are both this one sum over `Fin K`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The contraction sum of a plain product is the sum over the one contracted coordinate. -/
theorem contr_sum (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have h1 : d.lhsContracting = [1] := by rw [← hd]
  have h2 : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ =>
      subst hd
      unfold DotDims.lhsIdx
      rw [dif_neg (by exact List.not_mem_nil), dif_pos (by exact List.mem_singleton.mpr rfl)]
      rfl
    | ⟨1, _⟩ => exact (d.lhsIdx_val_of_single h1 j _).trans hk)
  have er : d.rhsIdx j ((contrEquiv1 d K hr hs).symm k) = ix2 k (j 1) := funext fun a => Fin.ext (by
    match a with
    | ⟨0, _⟩ => exact (d.rhsIdx_val_of_single h2 j _).trans hk
    | ⟨1, _⟩ =>
      subst hd
      unfold DotDims.rhsIdx
      rw [dif_neg (by exact List.not_mem_nil), dif_pos (by exact List.mem_singleton.mpr rfl)]
      rfl)
  exact congrArg₂ (· * ·) (congrArg l el) (congrArg r er)

/-- A host product with plain dimension numbers, at the exact reals, read at an index. -/
theorem dotGeneral_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (contr_sum d h1 h2 h3 h4 h5 h6 l r j)

/-- A tile product into the zero accumulator with plain dimension numbers, at the exact reals, read at an index. -/
theorem matmul_zero_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 k (j 1)) :=
  (Ideal.matmul_constant_zero_apply d prec l r j).trans (contr_sum d h1 h2 h3 h4 h5 h6 l r j)

end Idealize.ShloMosaic.PlainDot

end
-- ==== Proof.KerPay.lean ====
/-
  The tile computation read at an index. For a tile of 1024 batch elements the body normalises every token
  vector, then for each token `i` forms the row `i` of every batch element's Gram matrix (a product with token `i`
  repeated, summed over the features) and adds that row times slab `i` of the 16 × 16 × 128 weight array to an
  accumulator that starts at zero; bias, rectifier, the second layer and its bias follow. Read at batch element `b`
  and output `o` this is `Spec.head` of `Spec.preFull` of that batch element's tokens: the sixteen accumulation
  steps are the sixteen terms of the outer sum, in order.
-/
import proofs.«181531_j20555713478745_2_alg».proof.Proof.Gen.KernelIdeal.Frame
import proofs.«181531_j20555713478745_2_alg».proof.Proof.Spec
import proofs.«181531_j20555713478745_2_alg».proof.Proof.LibLayout3
import proofs.«181531_j20555713478745_2_alg».proof.Proof.LibPlainDot
import Idealize.ShloMosaic.Lib.ValueLayout

noncomputable section

open scoped BigOperators

namespace Cert.KernelIdeal.Pay

open Cert.KernelIdeal Cert.KernelIdeal.Gen Idealize.ShloMosaic Idealize.ShloMosaic.ValueIdx

/-- A sum over sixteen terms, written out from the left starting at zero. -/
theorem sum16 (f : Fin 16 → EReal) : (∑ i : Fin 16, f i) = 0 + f 0 + f 1 + f 2 + f 3 + f 4 + f 5 + f 6 + f 7 + f 8 + f 9 + f 10 + f 11 + f 12 + f 13 + f 14 + f 15 := by
  simp only [Fin.sum_univ_castSucc, Fin.sum_univ_zero]
  rfl

/-- The normalised tile: every token vector over its clipped norm. -/
theorem unit_apply (v0 : Vec Ideal S1024x16x128 .f32) (b : Fin 1024) (k : Fin 16) (d : Fin 128) :
    k0_pay2 (F := Ideal) v0 (ix3 b k d) = Spec.unit (fun k d => v0 (ix3 b k d)) k d := by
  unfold k0_pay2
  dsimp only
  rw [divf_apply, Layout3.bcast_ab1_abc, maximumf_apply, broadcast_apply]
  show Ideal.div _ (max (Ideal.sqrt (shapeCast S1024x16x1 _ _ (ix3 b k (0 : Fin 1)))) _) = _
  rw [Layout3.cast_ab_ab1]
  unfold Spec.unit
  refine congrArg (fun t => Ideal.div (v0 (ix3 b k d)) (max (Ideal.sqrt t) Spec.eps)) ?_
  exact Layout3.sum_last (mulf v0 v0) _ _ _ b k

/-- Row `i` of every batch element's Gram matrix of the tile `u`: `u`'s token `i` repeated over the tokens, times `u`,
    summed over the features. -/
def gramRow (i : ℕ) (hs : S1024x16x128.Slices ![0, i, 0] S1024x1x128) (u : FVec Ideal S1024x16x128 .f32) :
    FVec Ideal S1024x16 .f32 :=
  multiReduction .add [2] S1024x16 (mulf (broadcastTo S1024x16x128 (shapeCast S1024x1x128 (shapeCast S1024x128
    (extractStridedSlice S1024x1x128 ![0, i, 0] u hs) shapeCasts_S1024x1x128_S1024x128) shapeCasts_S1024x128_S1024x1x128)
    broadcasts_S1024x1x128_S1024x16x128) u) 0x00000000#32 reduces_S1024x16x128_S1024x16 (.inl rfl) rfl

theorem gramRow_apply (i : ℕ) (hs : S1024x16x128.Slices ![0, i, 0] S1024x1x128) (u : FVec Ideal S1024x16x128 .f32)
    (iF : Fin 16) (hi : iF.val = i) (b : Fin 1024) (j : Fin 16) :
    gramRow i hs u (ix2 b j) = ∑ d : Fin 128, u (ix3 b iF d) * u (ix3 b j d) := by
  unfold gramRow
  refine (Layout3.sum_last _ _ _ _ b j).trans (Finset.sum_congr rfl fun d _ => ?_)
  rw [mulf_apply, Layout3.bcast_a1c_abc, Layout3.cast_ac_a1c, Layout3.cast_a1c_ac,
    slice3_axis1_apply i u hs b (0 : Fin 1) d iF (by rw [hi]; rfl)]

/-- One accumulation step: the accumulator plus a Gram row times one slab of the weight array. -/
def step (acc : FVec Ideal S1024x128 .f32) (row : FVec Ideal S1024x16 .f32) (w : Vec Ideal S1x16x128 .f32) :
    FVec Ideal S1024x128 .f32 :=
  addf acc (matmul dot_S1024x16_S16x128_S1024x128_1_0_0_1_n_n none row
    (shapeCast S16x128 w shapeCasts_S1x16x128_S16x128 : FVec Ideal S16x128 .f32) (constant S1024x128 .f32 0x00000000#32))

theorem step_apply (acc : FVec Ideal S1024x128 .f32) (row : FVec Ideal S1024x16 .f32) (w : Vec Ideal S1x16x128 .f32)
    (b : Fin 1024) (h : Fin 128) :
    step acc row w (ix2 b h) = acc (ix2 b h) + ∑ j : Fin 16, row (ix2 b j) * w (ix3 (0 : Fin 1) j h) := by
  unfold step
  rw [addf_apply]
  refine congrArg (acc (ix2 b h) + ·) ?_
  refine (PlainDot.matmul_zero_plain dot_S1024x16_S16x128_S1024x128_1_0_0_1_n_n rfl rfl rfl rfl rfl rfl none row _ (ix2 b h)).trans
    (Finset.sum_congr rfl fun j _ => ?_)
  show row (ix2 b j) * (shapeCast S16x128 w shapeCasts_S1x16x128_S16x128 : FVec Ideal S16x128 .f32) (ix2 j h) = _
  rw [shapeCast_1ab_ab_apply]

/-- The sixteen accumulation steps from zero, slab `i` of the weight array at step `i`. -/
def acc16 (u : FVec Ideal S1024x16x128 .f32) (w0 w1 w2 w3 w4 w5 w6 w7 w8 w9 w10 w11 w12 w13 w14 w15 : Vec Ideal S1x16x128 .f32) : FVec Ideal S1024x128 .f32 :=
  (step (step (step (step (step (step (step (step (step (step (step (step (step (step (step (step (broadcast S1024x128 (Scalar.ofBits (F := Ideal) .f32 0x00000000#32)) (gramRow 0 slices_S1024x16x128_o0_0_0_S1024x1x128 u) w0) (gramRow 1 slices_S1024x16x128_o0_1_0_S1024x1x128 u) w1) (gramRow 2 slices_S1024x16x128_o0_2_0_S1024x1x128 u) w2) (gramRow 3 slices_S1024x16x128_o0_3_0_S1024x1x128 u) w3) (gramRow 4 slices_S1024x16x128_o0_4_0_S1024x1x128 u) w4) (gramRow 5 slices_S1024x16x128_o0_5_0_S1024x1x128 u) w5) (gramRow 6 slices_S1024x16x128_o0_6_0_S1024x1x128 u) w6) (gramRow 7 slices_S1024x16x128_o0_7_0_S1024x1x128 u) w7) (gramRow 8 slices_S1024x16x128_o0_8_0_S1024x1x128 u) w8) (gramRow 9 slices_S1024x16x128_o0_9_0_S1024x1x128 u) w9) (gramRow 10 slices_S1024x16x128_o0_10_0_S1024x1x128 u) w10) (gramRow 11 slices_S1024x16x128_o0_11_0_S1024x1x128 u) w11) (gramRow 12 slices_S1024x16x128_o0_12_0_S1024x1x128 u) w12) (gramRow 13 slices_S1024x16x128_o0_13_0_S1024x1x128 u) w13) (gramRow 14 slices_S1024x16x128_o0_14_0_S1024x1x128 u) w14) (gramRow 15 slices_S1024x16x128_o0_15_0_S1024x1x128 u) w15)

/-- Bias, rectifier, the second layer and its bias on a tile. -/
def tail (a : FVec Ideal S1024x128 .f32) (x2 : Vec Ideal S1x128 .f32) (x3 : Vec Ideal S128x128 .f32) (x4 : Vec Ideal S1x128 .f32) :
    FVec Ideal S1024x128 .f32 :=
  addf (matmul (φ₂ := .f32) dot_S1024x128_S128x128_S1024x128_1_0_0_1_n_n none
      (maximumf (addf a (broadcastTo S1024x128 (shapeCast S1x128 x2 shapeCasts_S1x128_S1x128) broadcasts_S1x128_S1024x128))
        (broadcast S1024x128 (Scalar.ofBits (F := Ideal) .f32 0x00000000#32)))
      (x3 : FVec Ideal S128x128 .f32) (constant S1024x128 .f32 0x00000000#32))
    (broadcastTo S1024x128 (shapeCast S1x128 x4 shapeCasts_S1x128_S1x128) broadcasts_S1x128_S1024x128)

theorem tail_apply (a : FVec Ideal S1024x128 .f32) (x2 : Vec Ideal S1x128 .f32) (x3 : Vec Ideal S128x128 .f32)
    (x4 : Vec Ideal S1x128 .f32) (b : Fin 1024) (o : Fin 128) :
    tail a x2 x3 x4 (ix2 b o) = Spec.head (fun h => a (ix2 b h)) (fun h => x2 (ix2 (0 : Fin 1) h)) (fun h o => x3 (ix2 h o))
      (fun o => x4 (ix2 (0 : Fin 1) o)) o := by
  unfold tail Spec.head
  simp only [shapeCast_self]
  rw [addf_apply, broadcastTo_1b_ab_apply]
  refine congrArg (· + x4 (ix2 (0 : Fin 1) o)) ?_
  refine (PlainDot.matmul_zero_plain dot_S1024x128_S128x128_S1024x128_1_0_0_1_n_n rfl rfl rfl rfl rfl rfl none _ (x3 : FVec Ideal S128x128 .f32) (ix2 b o)).trans
    (Finset.sum_congr rfl fun h _ => ?_)
  show (maximumf (addf a (broadcastTo S1024x128 x2 broadcasts_S1x128_S1024x128))
    (broadcast S1024x128 (Scalar.ofBits (F := Ideal) .f32 0x00000000#32)) : FVec Ideal S1024x128 .f32) (ix2 b h) * x3 (ix2 h o) = _
  rw [maximumf_apply, addf_apply, broadcastTo_1b_ab_apply, broadcast_apply]
  show max _ (FloatOps.ofBits (F := Ideal) .f32 0x00000000#32) * _ = _
  rw [Ideal.ofBits_def, Ideal.ofBits_zero_f32]

end Cert.KernelIdeal.Pay

end
-- ==== Proof.KerBody.lean ====
/-
  The tile body as a whole, read at an index: what it stores for batch element `b` of the tile and output `o` is
  `Spec.head` of `Spec.preFull` of that batch element's tokens against the tile's copy of the weight arrays.
-/
import proofs.«181531_j20555713478745_2_alg».proof.Proof.KerPay

noncomputable section

open scoped BigOperators

namespace Cert.KernelIdeal.Pay

open Cert.KernelIdeal Cert.KernelIdeal.Gen Idealize.ShloMosaic Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-- Slab `i` of the 16 × 16 × 128 weight array, loaded as a 1 × 16 × 128 block, reads at `(0, j, h)` the array at `(i, j, h)`. -/
theorem slab_apply (i : ℕ) (inb : ∀ a, (![i, 0, 0] : Fin 3 → ℕ) a + S1x16x128.size a ≤ S16x16x128.size a)
    (x1 : Vec Ideal S16x16x128 .f32) (iF : Fin 16) (hi : iF.val = i) (u : Fin 1) (j : Fin 16) (h : Fin 128) :
    View.ld x1 (Rect.unit (s := S16x16x128) ![i, 0, 0] S1x16x128.size inb) (ix3 u j h) = x1 (ix3 iF j h) := by
  show x1 ((Rect.unit (s := S16x16x128) ![i, 0, 0] S1x16x128.size inb).emb (ix3 u j h)) = _
  refine congrArg x1 (funext fun a => Fin.ext ?_)
  have hu : u.val = 0 := by omega
  match a with
  | ⟨0, _⟩ => show i + 1 * u.val = iF.val; omega
  | ⟨1, _⟩ => show 0 + 1 * j.val = j.val; omega
  | ⟨2, _⟩ => show 0 + 1 * h.val = h.val; omega

/-- The body's stored value is the sixteen accumulation steps followed by the head of the network. -/
theorem pay_eq (v0 : Vec Ideal S1024x16x128 .f32) (w0 w1 w2 w3 w4 w5 w6 w7 w8 w9 w10 w11 w12 w13 w14 w15 : Vec Ideal S1x16x128 .f32)
    (x2 : Vec Ideal S1x128 .f32) (x3 : Vec Ideal S128x128 .f32) (x4 : Vec Ideal S1x128 .f32) :
    k0_pay1 (F := Ideal) (k0_pay2 v0) (k0_pay12 (k0_pay2 v0) (k0_pay9 (k0_pay2 v0) (k0_pay6 (k0_pay2 v0) (k0_pay3 v0 w0 w1) (k0_pay4 v0) (k0_pay5 w2) (constant S1024x128 .f32 0x00000000#32) w3 w4 w5) (k0_pay7 (k0_pay2 v0)) (k0_pay8 w6) (constant S1024x128 .f32 0x00000000#32) w7 w8 w9) (k0_pay10 (k0_pay2 v0)) (k0_pay11 w10) (constant S1024x128 .f32 0x00000000#32) w11 w12 w13) (k0_pay13 (k0_pay2 v0)) (k0_pay14 w14) (constant S1024x128 .f32 0x00000000#32) w15 x2 x3 x4
      = tail (acc16 (k0_pay2 v0) w0 w1 w2 w3 w4 w5 w6 w7 w8 w9 w10 w11 w12 w13 w14 w15) x2 x3 x4 := rfl

/-- The accumulator after the sixteen steps, at batch element `b` and hidden unit `h`: the sixteen terms, one per token
    `i`, each the sum over the tokens `j` of the Gram entry `(i, j)` times the weight array at `(i, j, h)`. -/
theorem acc16_apply (u : FVec Ideal S1024x16x128 .f32) (w0 w1 w2 w3 w4 w5 w6 w7 w8 w9 w10 w11 w12 w13 w14 w15 : Vec Ideal S1x16x128 .f32) (b : Fin 1024) (h : Fin 128) :
    acc16 u w0 w1 w2 w3 w4 w5 w6 w7 w8 w9 w10 w11 w12 w13 w14 w15 (ix2 b h) = 0 + (∑ j : Fin 16, (∑ d : Fin 128, u (ix3 b (0 : Fin 16) d) * u (ix3 b j d)) * w0 (ix3 (0 : Fin 1) j h))
      + (∑ j : Fin 16, (∑ d : Fin 128, u (ix3 b (1 : Fin 16) d) * u (ix3 b j d)) * w1 (ix3 (0 : Fin 1) j h))
      + (∑ j : Fin 16, (∑ d : Fin 128, u (ix3 b (2 : Fin 16) d) * u (ix3 b j d)) * w2 (ix3 (0 : Fin 1) j h))
      + (∑ j : Fin 16, (∑ d : Fin 128, u (ix3 b (3 : Fin 16) d) * u (ix3 b j d)) * w3 (ix3 (0 : Fin 1) j h))
      + (∑ j : Fin 16, (∑ d : Fin 128, u (ix3 b (4 : Fin 16) d) * u (ix3 b j d)) * w4 (ix3 (0 : Fin 1) j h))
      + (∑ j : Fin 16, (∑ d : Fin 128, u (ix3 b (5 : Fin 16) d) * u (ix3 b j d)) * w5 (ix3 (0 : Fin 1) j h))
      + (∑ j : Fin 16, (∑ d : Fin 128, u (ix3 b (6 : Fin 16) d) * u (ix3 b j d)) * w6 (ix3 (0 : Fin 1) j h))
      + (∑ j : Fin 16, (∑ d : Fin 128, u (ix3 b (7 : Fin 16) d) * u (ix3 b j d)) * w7 (ix3 (0 : Fin 1) j h))
      + (∑ j : Fin 16, (∑ d : Fin 128, u (ix3 b (8 : Fin 16) d) * u (ix3 b j d)) * w8 (ix3 (0 : Fin 1) j h))
      + (∑ j : Fin 16, (∑ d : Fin 128, u (ix3 b (9 : Fin 16) d) * u (ix3 b j d)) * w9 (ix3 (0 : Fin 1) j h))
      + (∑ j : Fin 16, (∑ d : Fin 128, u (ix3 b (10 : Fin 16) d) * u (ix3 b j d)) * w10 (ix3 (0 : Fin 1) j h))
      + (∑ j : Fin 16, (∑ d : Fin 128, u (ix3 b (11 : Fin 16) d) * u (ix3 b j d)) * w11 (ix3 (0 : Fin 1) j h))
      + (∑ j : Fin 16, (∑ d : Fin 128, u (ix3 b (12 : Fin 16) d) * u (ix3 b j d)) * w12 (ix3 (0 : Fin 1) j h))
      + (∑ j : Fin 16, (∑ d : Fin 128, u (ix3 b (13 : Fin 16) d) * u (ix3 b j d)) * w13 (ix3 (0 : Fin 1) j h))
      + (∑ j : Fin 16, (∑ d : Fin 128, u (ix3 b (14 : Fin 16) d) * u (ix3 b j d)) * w14 (ix3 (0 : Fin 1) j h))
      + (∑ j : Fin 16, (∑ d : Fin 128, u (ix3 b (15 : Fin 16) d) * u (ix3 b j d)) * w15 (ix3 (0 : Fin 1) j h)) := by
  unfold acc16
  simp only [step_apply, broadcast_apply]
  simp only [gramRow_apply 0 _ u (0 : Fin 16) rfl,
    gramRow_apply 1 _ u (1 : Fin 16) rfl,
    gramRow_apply 2 _ u (2 : Fin 16) rfl,
    gramRow_apply 3 _ u (3 : Fin 16) rfl,
    gramRow_apply 4 _ u (4 : Fin 16) rfl,
    gramRow_apply 5 _ u (5 : Fin 16) rfl,
    gramRow_apply 6 _ u (6 : Fin 16) rfl,
    gramRow_apply 7 _ u (7 : Fin 16) rfl,
    gramRow_apply 8 _ u (8 : Fin 16) rfl,
    gramRow_apply 9 _ u (9 : Fin 16) rfl,
    gramRow_apply 10 _ u (10 : Fin 16) rfl,
    gramRow_apply 11 _ u (11 : Fin 16) rfl,
    gramRow_apply 12 _ u (12 : Fin 16) rfl,
    gramRow_apply 13 _ u (13 : Fin 16) rfl,
    gramRow_apply 14 _ u (14 : Fin 16) rfl,
    gramRow_apply 15 _ u (15 : Fin 16) rfl]
  simp only [Ideal.ofBits_def, Ideal.ofBits_zero_f32]

end Cert.KernelIdeal.Pay

end
-- ==== Proof.KerOut.lean ====
/-
  What the tile body stores, read at an index: `Spec.head` of `Spec.preFull` of the batch element's tokens against
  the tile's copies of the weight arrays.
-/
import proofs.«181531_j20555713478745_2_alg».proof.Proof.KerBody

noncomputable section

open scoped BigOperators

namespace Cert.KernelIdeal.Pay

open Cert.KernelIdeal Cert.KernelIdeal.Gen Idealize.ShloMosaic Idealize.ShloMosaic.ValueIdx

/-- The head of the network depends on the pre-activation only through its values. -/
theorem head_congr (pre pre' b1 : Fin 128 → EReal) (W2 : Fin 128 → Fin 128 → EReal) (b2 : Fin 128 → EReal) (o : Fin 128)
    (h : ∀ k, pre k = pre' k) : Spec.head pre b1 W2 b2 o = Spec.head pre' b1 W2 b2 o := by
  rw [show pre = pre' from funext h]

/-- The body's store as the accumulation steps and the head, over the loaded blocks. -/
theorem out_eq (x0 : Vec Ideal S1024x16x128 .f32) (x1 : Vec Ideal S16x16x128 .f32) (x2 : Vec Ideal S1x128 .f32)
    (x3 : Vec Ideal S128x128 .f32) (x4 : Vec Ideal S1x128 .f32) :
    out0_5 (F := Ideal) x0 x1 x2 x3 x4
      = tail (acc16 (k0_pay2 x0) (View.ld x1 r0_1) (View.ld x1 r0_2) (View.ld x1 r0_3) (View.ld x1 r0_4) (View.ld x1 r0_5)
          (View.ld x1 r0_6) (View.ld x1 r0_7) (View.ld x1 r0_8) (View.ld x1 r0_9) (View.ld x1 r0_10) (View.ld x1 r0_11)
          (View.ld x1 r0_12) (View.ld x1 r0_13) (View.ld x1 r0_14) (View.ld x1 r0_15) (View.ld x1 r0_16)) x2 x3 x4 := by
  unfold out0_5
  rw [View.canon_unit_zero hz2]
  simp only [View.ld_unit_zero (S := S1x128) hz2, View.ld_unit_zero (S := S128x128) hz2,
    View.ld_unit_zero (S := S1024x16x128) hz3]
  exact pay_eq x0 _ _ _ _ _ _ _ _ _ _ _ _ _ _ _ _ x2 x3 x4

/-- The accumulator over the loaded slabs is the sum over all ordered pairs. -/
theorem acc_eq (x0 : Vec Ideal S1024x16x128 .f32) (x1 : Vec Ideal S16x16x128 .f32) (b : Fin 1024) (h : Fin 128) :
    acc16 (k0_pay2 x0) (View.ld x1 r0_1) (View.ld x1 r0_2) (View.ld x1 r0_3) (View.ld x1 r0_4) (View.ld x1 r0_5)
        (View.ld x1 r0_6) (View.ld x1 r0_7) (View.ld x1 r0_8) (View.ld x1 r0_9) (View.ld x1 r0_10) (View.ld x1 r0_11)
        (View.ld x1 r0_12) (View.ld x1 r0_13) (View.ld x1 r0_14) (View.ld x1 r0_15) (View.ld x1 r0_16) (ix2 b h)
      = Spec.preFull (fun k d => x0 (ix3 b k d)) (fun i j h => x1 (ix3 i j h)) h := by
  rw [acc16_apply]
  unfold Spec.preFull
  refine Eq.trans ?_ (sum16 _).symm
  simp only [unit_apply, slab_apply 0 _ x1 (0 : Fin 16) rfl,
    slab_apply 1 _ x1 (1 : Fin 16) rfl,
    slab_apply 2 _ x1 (2 : Fin 16) rfl,
    slab_apply 3 _ x1 (3 : Fin 16) rfl,
    slab_apply 4 _ x1 (4 : Fin 16) rfl,
    slab_apply 5 _ x1 (5 : Fin 16) rfl,
    slab_apply 6 _ x1 (6 : Fin 16) rfl,
    slab_apply 7 _ x1 (7 : Fin 16) rfl,
    slab_apply 8 _ x1 (8 : Fin 16) rfl,
    slab_apply 9 _ x1 (9 : Fin 16) rfl,
    slab_apply 10 _ x1 (10 : Fin 16) rfl,
    slab_apply 11 _ x1 (11 : Fin 16) rfl,
    slab_apply 12 _ x1 (12 : Fin 16) rfl,
    slab_apply 13 _ x1 (13 : Fin 16) rfl,
    slab_apply 14 _ x1 (14 : Fin 16) rfl,
    slab_apply 15 _ x1 (15 : Fin 16) rfl]
  rfl

/-- What the body stores, at batch element `b` of the tile and output `o`. -/
theorem out_apply (x0 : Vec Ideal S1024x16x128 .f32) (x1 : Vec Ideal S16x16x128 .f32) (x2 : Vec Ideal S1x128 .f32)
    (x3 : Vec Ideal S128x128 .f32) (x4 : Vec Ideal S1x128 .f32) (b : Fin 1024) (o : Fin 128) :
    out0_5 (F := Ideal) x0 x1 x2 x3 x4 (ix2 b o)
      = Spec.head (Spec.preFull (fun k d => x0 (ix3 b k d)) (fun i j h => x1 (ix3 i j h)))
          (fun h => x2 (ix2 (0 : Fin 1) h)) (fun h o => x3 (ix2 h o)) (fun o => x4 (ix2 (0 : Fin 1) o)) o := by
  rw [out_eq, tail_apply]
  exact head_congr _ _ _ _ _ o fun h => acc_eq x0 x1 b h

end Cert.KernelIdeal.Pay

end
-- ==== Proof.IdxKer.lean ====
/-
  The index table of the first program: two constant tables of 120 entries each — the first and the
  second token of every pair — pass through a wrap-around of negative entries that never applies
  (its mask is constantly false), are made into columns and laid side by side. The result is the
  common pair table.
-/
import proofs.«181531_j20555713478745_2_alg».proof.KernelIdeal
import proofs.«181531_j20555713478745_2_alg».proof.Proof.Pairs
import Idealize.ShloMosaic.Lib.Pipeline.Value
import Idealize.ShloMosaic.Lib.ValueIdx

noncomputable section

open Idealize.ShloMosaic Idealize.SL.Sem

namespace Cert.KernelIdeal.Idx

open Idealize.ShloMosaic.ValueIdx

variable [Facts]
open Facts₀ Facts

/-! ## The values, one per operation, in program order -/

/-- The table of first tokens. -/
def c : IVec S120 32 := fun i => lit0 (S120.rowMajor i)
/-- The constantly false mask. -/
def c_0 : IVec S120 1 := constantI S120 1 0#1
/-- The table of second tokens. -/
def c_1 : IVec S120 32 := fun i => lit1 (S120.rowMajor i)
/-- The constantly false mask, again. -/
def c_2 : IVec S120 1 := constantI S120 1 0#1
/-- The scalar 16. -/
def c_3 : IVec S_ 32 := constantI S_ 32 16#32
def v1 : IVec S120 32 := broadcastInDim S120 ![] bcast_S_S120 c_3
def v2 : IVec S120 32 := addi c v1
def v3 : IVec S120 32 := select c_0 v2 c
/-- The scalar 16, again. -/
def c_4 : IVec S_ 32 := constantI S_ 32 16#32
def v4 : IVec S120 32 := broadcastInDim S120 ![] bcast_S_S120 c_4
def v5 : IVec S120 32 := addi c_1 v4
def v6 : IVec S120 32 := select c_2 v5 c_1
def v7 : IVec S120x1 32 := broadcastInDim S120x1 ![0] bcast_S120_S120x1_0 v3
def v8 : IVec S120x1 32 := broadcastInDim S120x1 ![0] bcast_S120_S120x1_0 v6
def v9 : IVec S120x2 32 :=
  (fun a b => concatenate S120x2 1 [⟨S120x1, a⟩, ⟨S120x1, b⟩] concatenates_S120x1_S120x1_S120x2_d1) v7 v8

/-- The index table the first program scatters through. -/
def kerIdx : IVec S120x2 32 := v9

/-! ## Their values -/

/-- The first constant table is the list of first tokens. -/
theorem c_apply : ∀ p : Fin 120, c (ix1 p) = BitVec.ofNat 32 (Cert.Pairs.rowL.getD p.val 0) := by
  decide +kernel

/-- The second constant table is the list of second tokens. -/
theorem c_1_apply : ∀ p : Fin 120, c_1 (ix1 p) = BitVec.ofNat 32 (Cert.Pairs.colL.getD p.val 0) := by
  decide +kernel

/-- A select under the constantly false mask keeps its second branch. -/
theorem v3_eq : v3 = c := by
  funext i
  simp only [v3, c_0, select, constantI, select_zero]

theorem v6_eq : v6 = c_1 := by
  funext i
  simp only [v6, c_2, select, constantI, select_zero]

/-- A vector made into a column, read at row `p`. -/
theorem col_apply (x : IVec S120 32) (p : Fin 120) (q : Fin 1) :
    broadcastInDim S120x1 ![0] bcast_S120_S120x1_0 x (ix2 p q) = x (ix1 p) :=
  broadcastInDim_apply _ _ _ _ (ix1 p) (fun a => match a with | ⟨0, _⟩ => rfl)

theorem kerIdx_apply_zero (p : Fin 120) : kerIdx (ix2 p (0 : Fin 2)) = BitVec.ofNat 32 (Cert.Pairs.rowL.getD p.val 0) := by
  have h := concatenate_pair_apply_left (t := S120x2) (s₁ := S120x1) (s₂ := S120x1) 1 v7 v8
    concatenates_S120x1_S120x1_S120x2_d1 (ix2 p (0 : Fin 2)) rfl (ix2 p (0 : Fin 1))
    (fun b => match b with | ⟨0, _⟩ => rfl | ⟨1, _⟩ => rfl)
  refine h.trans ?_
  rw [v7, col_apply, v3_eq, c_apply]

theorem kerIdx_apply_one (p : Fin 120) : kerIdx (ix2 p (1 : Fin 2)) = BitVec.ofNat 32 (Cert.Pairs.colL.getD p.val 0) := by
  have h := concatenate_pair_apply_right (t := S120x2) (s₁ := S120x1) (s₂ := S120x1) 1 v7 v8
    concatenates_S120x1_S120x1_S120x2_d1 (ix2 p (1 : Fin 2)) rfl rfl (ix2 p (0 : Fin 1))
    (fun b => match b with | ⟨0, _⟩ => fun _ => rfl | ⟨1, _⟩ => fun hb => absurd rfl hb) rfl
  refine h.trans ?_
  rw [v8, col_apply, v6_eq, c_1_apply]

/-- Entry by entry, the first program's index table is the pair table. -/
theorem kerIdx_apply (p : Fin 120) (q : Fin 2) : kerIdx (ix2 p q) = Cert.Pairs.table (ix2 p q) :=
  match q with
  | ⟨0, _⟩ => (kerIdx_apply_zero p).trans rfl
  | ⟨1, _⟩ => (kerIdx_apply_one p).trans rfl

/-- The first program's index table is the pair table. -/
theorem kerIdx_eq : kerIdx = Cert.Pairs.table := by
  funext k
  rw [eq_ix2 k]
  exact kerIdx_apply _ _

end Cert.KernelIdeal.Idx

end
-- ==== Proof.LibScatterSet.lean ====
/-
  A scatter read at one element of its result.

  A scatter is a left fold over the update positions, in row-major order: each update that lands inside the
  operand replaces the element it lands on by the body applied to that element and the update. Two facts
  about one element `i'` of the result follow by induction on the list of positions:

  * if no update lands on `i'`, the result there is the operand's element, whatever the body;
  * if the body returns the update (the scatter SETS) and exactly one update lands on `i'`, the result
    there is that update.
-/
import Idealize.ShloMosaic.PureOps.ShapeOps

noncomputable section

open Idealize.ShloMosaic

namespace Idealize.ShloMosaic.ScatterSet

variable {s : Shape} {α : Type} {N : Nat}

/-- One step of a scatter's fold, with the landing function `L` (position to landing element, `none` when the
    update is dropped) and the update read by position `v` abstract: position `n` replaces the element it lands
    on by the body `f` of that element and the update. -/
def step (L : Fin N → Option s.Idx) (f : α → α → α) (v : Fin N → α) (r : s.Idx → α) (n : Fin N) : s.Idx → α :=
  match L n with
  | some i => fun i' => if i' = i then f (r i) (v n) else r i'
  | none => r

/-- A step whose update lands on `i`, read at any element. -/
theorem step_some (L : Fin N → Option s.Idx) (f : α → α → α) (v : Fin N → α) (r : s.Idx → α) (n : Fin N)
    (i : s.Idx) (h : L n = some i) (i' : s.Idx) :
    step L f v r n i' = if i' = i then f (r i) (v n) else r i' := by
  unfold step; rw [h]

/-- A step whose update is dropped changes nothing. -/
theorem step_none (L : Fin N → Option s.Idx) (f : α → α → α) (v : Fin N → α) (r : s.Idx → α) (n : Fin N)
    (h : L n = none) : step L f v r n = r := by
  unfold step; rw [h]

/-- A step that does not land on `i'` leaves the element `i'` as it was. -/
theorem step_miss (L : Fin N → Option s.Idx) (f : α → α → α) (v : Fin N → α) (r : s.Idx → α) (n : Fin N)
    (i' : s.Idx) (h : L n ≠ some i') : step L f v r n i' = r i' := by
  cases hL : L n with
  | none => rw [step_none L f v r n hL]
  | some i =>
    rw [step_some L f v r n i hL i', if_neg]
    intro he; exact h (by rw [hL, he])

/-- The fold over a list of positions none of which lands on `i'`: the element `i'` is the start value's. -/
theorem foldl_miss (L : Fin N → Option s.Idx) (f : α → α → α) (v : Fin N → α) (i' : s.Idx) :
    ∀ (l : List (Fin N)) (r : s.Idx → α), (∀ n ∈ l, L n ≠ some i') → l.foldl (step L f v) r i' = r i' := by
  intro l
  induction l with
  | nil => intro r _; rfl
  | cons n l ih =>
    intro r h
    rw [List.foldl_cons, ih _ (fun m hm => h m (List.mem_cons_of_mem _ hm))]
    exact step_miss L f v r n i' (h n List.mem_cons_self)

/-- The fold of a SETTING step over a list of distinct positions exactly one of which, `n`, lands on `i'`:
    the element `i'` is the update at `n`. -/
theorem foldl_hit (L : Fin N → Option s.Idx) (v : Fin N → α) (i' : s.Idx) (n : Fin N) (hL : L n = some i') :
    ∀ (l : List (Fin N)) (r : s.Idx → α), l.Nodup → n ∈ l → (∀ m ∈ l, L m = some i' → m = n) →
      l.foldl (step L (fun _ b => b) v) r i' = v n := by
  intro l
  induction l with
  | nil => intro r _ hn _; exact absurd hn List.not_mem_nil
  | cons m l ih =>
    intro r hnd hn huniq
    rw [List.foldl_cons]
    by_cases hmn : m = n
    · subst hmn
      have hm : m ∉ l := (List.nodup_cons.1 hnd).1
      rw [foldl_miss L _ v i' l _ (fun k hk hk' => hm (by
        have := huniq k (List.mem_cons_of_mem _ hk) hk'
        rw [← this]; exact hk))]
      rw [step_some L _ v r m i' hL i', if_pos rfl]
    · have hn' : n ∈ l := by
        rcases List.mem_cons.1 hn with h | h
        · exact absurd h.symm hmn
        · exact h
      exact ih _ (List.nodup_cons.1 hnd).2 hn' (fun k hk => huniq k (List.mem_cons_of_mem _ hk))

variable {si u : Shape} {w : Nat}

/-- A scatter is the fold of `step` over the update positions in row-major order, the landing function being
    the result index of the update at that position. -/
theorem scatter_eq_foldl (d : ScatterDims s si u) (f : α → α → α) (x : s.Idx → α) (idx : IVec si w) (upd : u.Idx → α) :
    Host.scatter d f x idx upd
      = (List.finRange u.numel).foldl
          (step (fun n => d.resultIdx? (u.rowMajor.symm n) idx) f (fun n => upd (u.rowMajor.symm n))) x := rfl

/-- A SETTING scatter read at an element that exactly one update lands on: the result there is that update. -/
theorem scatter_set_hit (d : ScatterDims s si u) (x : s.Idx → α) (idx : IVec si w) (upd : u.Idx → α)
    (j : u.Idx) (i' : s.Idx) (hj : d.resultIdx? j idx = some i')
    (huniq : ∀ j' : u.Idx, d.resultIdx? j' idx = some i' → j' = j) :
    Host.scatter d (fun _ b => b) x idx upd i' = upd j := by
  rw [scatter_eq_foldl]
  have h := foldl_hit (fun n => d.resultIdx? (u.rowMajor.symm n) idx) (fun n => upd (u.rowMajor.symm n)) i'
    (u.rowMajor j) (by show d.resultIdx? (u.rowMajor.symm (u.rowMajor j)) idx = some i'
                       rw [Equiv.symm_apply_apply]; exact hj)
    (List.finRange u.numel) x (List.nodup_finRange _) (List.mem_finRange _)
    (fun m _ hm => by
      have := huniq _ hm
      rw [← this, Equiv.apply_symm_apply])
  rw [h]
  show upd (u.rowMajor.symm (u.rowMajor j)) = upd j
  rw [Equiv.symm_apply_apply]

/-- A scatter, whatever its body, read at an element no update lands on: the result there is the operand's. -/
theorem scatter_miss (d : ScatterDims s si u) (f : α → α → α) (x : s.Idx → α) (idx : IVec si w) (upd : u.Idx → α)
    (i' : s.Idx) (hno : ∀ j : u.Idx, d.resultIdx? j idx ≠ some i') :
    Host.scatter d f x idx upd i' = x i' := by
  rw [scatter_eq_foldl]
  exact foldl_miss _ f _ i' _ x (fun n _ => hno _)

end Idealize.ShloMosaic.ScatterSet

end
-- ==== Proof.KerScatterIdx.lean ====
/-
  The weight scatter of the kernel's host code, read at one element.

  The host builds a zero-padded `16 × 16 × 128` array by scattering the `120 × 128` first-layer weights
  through the table of pairs: row `p` of the weights goes to the feature row at `(row p, col p)`. Update
  `(p, h)` lands on element `(row p, col p, h)`; the enumeration of pairs is injective and only reaches
  the strict upper triangle, so an element `(row p, col p, h)` receives exactly the weight `(p, h)` and an
  element `(i, j, h)` with `j ≤ i` keeps the operand's value.
-/
import proofs.«181531_j20555713478745_2_alg».proof.Proof.Gen.KernelIdeal
import proofs.«181531_j20555713478745_2_alg».proof.Proof.Pairs
import proofs.«181531_j20555713478745_2_alg».proof.Proof.LibScatterSet
import Idealize.ShloMosaic.Lib.ValueIdx

noncomputable section

open Idealize.ShloMosaic Idealize.SL.Sem
open Idealize.ShloMosaic.ValueIdx

namespace Cert.KernelIdeal.ScatterIdx

variable [Facts₀]

/-- Entry `(p, 0)` of the table, read as a signed integer, is the first token of pair `p`. -/
theorem table_row : ∀ p : Fin 120, (Cert.Pairs.table (ix2 p 0)).toInt = ((Cert.Pairs.row p).val : Int) := by decide
/-- Entry `(p, 1)` of the table, read as a signed integer, is the second token of pair `p`. -/
theorem table_col : ∀ p : Fin 120, (Cert.Pairs.table (ix2 p 1)).toInt = ((Cert.Pairs.col p).val : Int) := by decide

/-- The first operand axis is scattered. -/
theorem mem0 : (0 : Fin 3) ∈ scatter_S16x16x128_S120x2_S120x128_1_01_01_1.scatterDimsToOperandDims := by
  show (0 : Fin 3) ∈ ([0, 1] : List (Fin 3)); decide
/-- The second operand axis is scattered. -/
theorem mem1 : (1 : Fin 3) ∈ scatter_S16x16x128_S120x2_S120x128_1_01_01_1.scatterDimsToOperandDims := by
  show (1 : Fin 3) ∈ ([0, 1] : List (Fin 3)); decide

/-- The first operand axis is inserted: no window coordinate. -/
theorem window0 (p : Fin 120) (h : Fin 128) :
    scatter_S16x16x128_S120x2_S120x128_1_01_01_1.window (ix2 p h) 0 = 0 := rfl
/-- The second operand axis is inserted: no window coordinate. -/
theorem window1 (p : Fin 120) (h : Fin 128) :
    scatter_S16x16x128_S120x2_S120x128_1_01_01_1.window (ix2 p h) 1 = 0 := rfl
/-- The third operand axis carries the update's window coordinate. -/
theorem window2 (p : Fin 120) (h : Fin 128) :
    scatter_S16x16x128_S120x2_S120x128_1_01_01_1.window (ix2 p h) 2 = h.val := rfl

/-- The window of update `(p, h)` starts, on the first operand axis, at the first token of pair `p`. -/
theorem start0 (p : Fin 120) (h : Fin 128) :
    scatter_S16x16x128_S120x2_S120x128_1_01_01_1.start (ix2 p h) Cert.Pairs.table 0 = ((Cert.Pairs.row p).val : Int) := by
  unfold ScatterDims.start
  rw [dif_pos mem0]
  have hsi : scatter_S16x16x128_S120x2_S120x128_1_01_01_1.siIdx (ix2 p h)
      ⟨List.idxOf (0 : Fin 3) scatter_S16x16x128_S120x2_S120x128_1_01_01_1.scatterDimsToOperandDims,
        List.idxOf_lt_length_iff.2 mem0⟩ = ix2 p 0 := by
    funext b; refine Fin.ext ?_
    match b with
    | ⟨0, _⟩ => rfl
    | ⟨1, _⟩ => rfl
  rw [hsi]
  exact table_row p

/-- The window of update `(p, h)` starts, on the second operand axis, at the second token of pair `p`. -/
theorem start1 (p : Fin 120) (h : Fin 128) :
    scatter_S16x16x128_S120x2_S120x128_1_01_01_1.start (ix2 p h) Cert.Pairs.table 1 = ((Cert.Pairs.col p).val : Int) := by
  unfold ScatterDims.start
  rw [dif_pos mem1]
  have hsi : scatter_S16x16x128_S120x2_S120x128_1_01_01_1.siIdx (ix2 p h)
      ⟨List.idxOf (1 : Fin 3) scatter_S16x16x128_S120x2_S120x128_1_01_01_1.scatterDimsToOperandDims,
        List.idxOf_lt_length_iff.2 mem1⟩ = ix2 p 1 := by
    funext b; refine Fin.ext ?_
    match b with
    | ⟨0, _⟩ => rfl
    | ⟨1, _⟩ => rfl
  rw [hsi]
  exact table_col p

/-- The third operand axis is not scattered: the window starts at `0` there. -/
theorem start2 (p : Fin 120) (h : Fin 128) :
    scatter_S16x16x128_S120x2_S120x128_1_01_01_1.start (ix2 p h) Cert.Pairs.table 2 = 0 := rfl

/-- On every operand axis, start plus window coordinate of update `(p, h)` is the coordinate of `(row p, col p, h)`. -/
theorem start_add_window (p : Fin 120) (h : Fin 128) (a : Fin 3) :
    scatter_S16x16x128_S120x2_S120x128_1_01_01_1.start (ix2 p h) Cert.Pairs.table a
        + (scatter_S16x16x128_S120x2_S120x128_1_01_01_1.window (ix2 p h) a : Int)
      = ((ix3 (Cert.Pairs.row p) (Cert.Pairs.col p) h a).val : Int) := by
  match a with
  | ⟨0, _⟩ =>
    show scatter_S16x16x128_S120x2_S120x128_1_01_01_1.start (ix2 p h) Cert.Pairs.table 0
        + (scatter_S16x16x128_S120x2_S120x128_1_01_01_1.window (ix2 p h) 0 : Int) = ((Cert.Pairs.row p).val : Int)
    rw [start0, window0]; simp
  | ⟨1, _⟩ =>
    show scatter_S16x16x128_S120x2_S120x128_1_01_01_1.start (ix2 p h) Cert.Pairs.table 1
        + (scatter_S16x16x128_S120x2_S120x128_1_01_01_1.window (ix2 p h) 1 : Int) = ((Cert.Pairs.col p).val : Int)
    rw [start1, window1]; simp
  | ⟨2, _⟩ =>
    show scatter_S16x16x128_S120x2_S120x128_1_01_01_1.start (ix2 p h) Cert.Pairs.table 2
        + (scatter_S16x16x128_S120x2_S120x128_1_01_01_1.window (ix2 p h) 2 : Int) = (h.val : Int)
    rw [start2, window2]; simp

/-- Update `(p, h)` lands on element `(row p, col p, h)`. -/
theorem resultIdx_table (p : Fin 120) (h : Fin 128) :
    scatter_S16x16x128_S120x2_S120x128_1_01_01_1.resultIdx? (ix2 p h) Cert.Pairs.table
      = some (ix3 (Cert.Pairs.row p) (Cert.Pairs.col p) h) := by
  unfold ScatterDims.resultIdx?
  rw [dif_pos (fun a => by
    rw [start_add_window p h a]
    exact ⟨Int.natCast_nonneg _, by exact_mod_cast (ix3 (Cert.Pairs.row p) (Cert.Pairs.col p) h a).isLt⟩)]
  congr 1
  funext a
  refine Fin.ext ?_
  show (scatter_S16x16x128_S120x2_S120x128_1_01_01_1.start (ix2 p h) Cert.Pairs.table a
        + (scatter_S16x16x128_S120x2_S120x128_1_01_01_1.window (ix2 p h) a : Int)).toNat = _
  rw [start_add_window p h a, Int.toNat_natCast]

/-- Two updates that land on the same element are the same update. -/
theorem landing_injective (p p' : Fin 120) (h h' : Fin 128)
    (e : ix3 (Cert.Pairs.row p') (Cert.Pairs.col p') h' = ix3 (Cert.Pairs.row p) (Cert.Pairs.col p) h) :
    p' = p ∧ h' = h := by
  have h0 : Cert.Pairs.row p' = Cert.Pairs.row p := congrFun e 0
  have h1 : Cert.Pairs.col p' = Cert.Pairs.col p := congrFun e 1
  have h2 : h' = h := congrFun e 2
  exact ⟨Cert.Pairs.pair_injective (by show (Cert.Pairs.row p', Cert.Pairs.col p') = (Cert.Pairs.row p, Cert.Pairs.col p); rw [h0, h1]), h2⟩

variable {α : Type}

/-- The scattered array at `(row p, col p, h)` is the weight `(p, h)`. -/
theorem scatter_hit (x0 : S16x16x128.Idx → α) (W : S120x128.Idx → α) (p : Fin 120) (h : Fin 128) :
    Host.scatter scatter_S16x16x128_S120x2_S120x128_1_01_01_1 (fun _ b => b) x0 Cert.Pairs.table W
        (ix3 (Cert.Pairs.row p) (Cert.Pairs.col p) h) = W (ix2 p h) := by
  refine ScatterSet.scatter_set_hit _ x0 Cert.Pairs.table W (ix2 p h) _ (resultIdx_table p h) ?_
  intro j' hj'
  obtain ⟨p', h', rfl⟩ : ∃ (p' : Fin 120) (h' : Fin 128), j' = ix2 p' h' := ⟨j' 0, j' 1, eq_ix2 j'⟩
  rw [resultIdx_table p' h'] at hj'
  obtain ⟨rfl, rfl⟩ := landing_injective p p' h h' (Option.some.inj hj')
  rfl

/-- The scattered array at `(i, j, h)` with `j ≤ i` is the operand's element: no update lands there. -/
theorem scatter_miss (x0 : S16x16x128.Idx → α) (W : S120x128.Idx → α) (i j : Fin 16) (h : Fin 128) (hij : ¬ i < j) :
    Host.scatter scatter_S16x16x128_S120x2_S120x128_1_01_01_1 (fun _ b => b) x0 Cert.Pairs.table W (ix3 i j h)
      = x0 (ix3 i j h) := by
  refine ScatterSet.scatter_miss _ _ x0 Cert.Pairs.table W _ ?_
  intro j' hj'
  obtain ⟨p', h', rfl⟩ : ∃ (p' : Fin 120) (h' : Fin 128), j' = ix2 p' h' := ⟨j' 0, j' 1, eq_ix2 j'⟩
  rw [resultIdx_table p' h'] at hj'
  have e := Option.some.inj hj'
  have h0 : Cert.Pairs.row p' = i := congrFun e 0
  have h1 : Cert.Pairs.col p' = j := congrFun e 1
  exact hij (by rw [← h0, ← h1]; exact Cert.Pairs.row_lt_col p')

end Cert.KernelIdeal.ScatterIdx

end
-- ==== Proof.KerHost.lean ====
/-
  The arrays the tile computation is launched on, as the host operations before it leave them: the 16 × 16 × 128
  weight array is the scatter of the 120 × 128 weight matrix into zeros through the table of increasing pairs — row `p`
  at the position of pair `p`, zero at every position that is not a strictly increasing pair — and the two bias rows are
  the bias vectors with a leading unit axis.
-/
import proofs.«181531_j20555713478745_2_alg».proof.Proof.Gen.KernelIdeal.Frame
import proofs.«181531_j20555713478745_2_alg».proof.Proof.IdxKer
import proofs.«181531_j20555713478745_2_alg».proof.Proof.KerScatterIdx
import Idealize.ShloMosaic.Lib.StableHlo.Run
import Idealize.ShloMosaic.Lib.ValueLayout
import Idealize.ShloMosaic.PureOps.Ideal.Laws

noncomputable section

namespace Cert.KernelIdeal.HostVals

open Cert.KernelIdeal Cert.KernelIdeal.Gen Idealize.ShloMosaic Idealize.ShloMosaic.ValueIdx Idealize.ShloMosaic.TcCoe
  Idealize.SL.Sem Idealize.ShloMosaic.StableHlo

variable (m : (ℓ : Loc nD τ sig) → Buf (Elt Ideal) ℓ)

set_option maxHeartbeats 2000000 in
/-- The weight array the region finds: the weight matrix scattered into zeros through the index table. -/
theorem V_v10 (c : Dev nD) : (V m c main_v10 : S16x16x128.Idx → EReal)
    = Host.scatter scatter_S16x16x128_S120x2_S120x128_1_01_01_1 (fun _ b => b)
        (broadcastInDim S16x16x128 ![] bcast_S_S16x16x128 (constant (F := Ideal) S_ .f32 0x00000000#32)) Idx.kerIdx
        (m ((c : Thread nD τ).loc main_arg1) : S120x128.Idx → EReal) := by
  dsimp only [Gen.V, Gen.hostOps0]
  after_results_simp
  refine congrArg (fun idx : IVec S120x2 32 => Host.scatter scatter_S16x16x128_S120x2_S120x128_1_01_01_1 (fun _ b => b)
    (broadcastInDim S16x16x128 ![] bcast_S_S16x16x128 (constant (F := Ideal) S_ .f32 0x00000000#32)) idx
    (m ((c : Thread nD τ).loc main_arg1) : S120x128.Idx → EReal)) ?_
  unfold Idx.kerIdx Idx.v9 Idx.v8 Idx.v7 Idx.v6 Idx.v5 Idx.v4 Idx.c_4 Idx.v3 Idx.v2 Idx.v1 Idx.c_3 Idx.c_2 Idx.c_1 Idx.c_0 Idx.c
  rfl

/-- At the position of pair `p` the weight array holds row `p` of the weight matrix. -/
theorem W_hit (c : Dev nD) (p : Fin 120) (h : Fin 128) :
    (V m c main_v10 : S16x16x128.Idx → EReal) (ix3 (Pairs.row p) (Pairs.col p) h)
      = (m ((c : Thread nD τ).loc main_arg1) : S120x128.Idx → EReal) (ix2 p h) := by
  rw [V_v10, Idx.kerIdx_eq]
  exact ScatterIdx.scatter_hit _ _ p h

/-- At a position that is not a strictly increasing pair the weight array holds zero. -/
theorem W_miss (c : Dev nD) (i j : Fin 16) (h : Fin 128) (hij : ¬ i < j) :
    (V m c main_v10 : S16x16x128.Idx → EReal) (ix3 i j h) = (0 : EReal) := by
  rw [V_v10, Idx.kerIdx_eq, ScatterIdx.scatter_miss _ _ i j h hij]
  exact Ideal.ofBits_zero_f32

set_option maxHeartbeats 2000000 in
/-- The first bias row the region finds, read at `(0, h)`. -/
theorem b1_apply (c : Dev nD) (h : Fin 128) :
    (V m c main_v11 : S1x128.Idx → EReal) (ix2 (0 : Fin 1) h) = (m ((c : Thread nD τ).loc main_arg2) : S128.Idx → EReal) (ix1 h) := by
  have e : (V m c main_v11 : S1x128.Idx → EReal)
      = shapeCast S1x128 (m ((c : Thread nD τ).loc main_arg2) : S128.Idx → EReal) shapeCasts_S128_S1x128 := by
    dsimp only [Gen.V, Gen.hostOps0]
    after_results_simp
    rfl
  rw [e, shapeCast_a_1a_apply]

set_option maxHeartbeats 2000000 in
/-- The second bias row the region finds, read at `(0, o)`. -/
theorem b2_apply (c : Dev nD) (o : Fin 128) :
    (V m c main_v12 : S1x128.Idx → EReal) (ix2 (0 : Fin 1) o) = (m ((c : Thread nD τ).loc main_arg4) : S128.Idx → EReal) (ix1 o) := by
  have e : (V m c main_v12 : S1x128.Idx → EReal)
      = shapeCast S1x128 (m ((c : Thread nD τ).loc main_arg4) : S128.Idx → EReal) shapeCasts_S128_S1x128 := by
    dsimp only [Gen.V, Gen.hostOps0]
    after_results_simp
    rfl
  rw [e, shapeCast_a_1a_apply]

end Cert.KernelIdeal.HostVals

end
-- ==== Proof.Net.lean ====
/-
  The network on whole arrays: the output array of 65536 batch elements by 128 outputs as ONE function of the
  five argument arrays — at `(b, o)`, `Spec.head` of `Spec.prePairs` of batch element `b`'s sixteen token vectors.
-/
import Idealize.ShloMosaic.Lib.ValueIdx
import proofs.«181531_j20555713478745_2_alg».proof.Proof.Spec

noncomputable section

namespace Cert.Spec

open Idealize.ShloMosaic Idealize.ShloMosaic.ValueIdx

/-- The whole output array from the whole argument arrays. -/
def net (H : (⟨3, ![65536, 16, 128]⟩ : Shape).Idx → EReal) (W1 : (⟨2, ![120, 128]⟩ : Shape).Idx → EReal)
    (b1 : (⟨1, ![128]⟩ : Shape).Idx → EReal) (W2 : (⟨2, ![128, 128]⟩ : Shape).Idx → EReal)
    (b2 : (⟨1, ![128]⟩ : Shape).Idx → EReal) : (⟨2, ![65536, 128]⟩ : Shape).Idx → EReal :=
  fun i => head (prePairs (fun k d => H (ix3 (i 0) k d)) (fun p h => W1 (ix2 p h))) (fun h => b1 (ix1 h))
    (fun h o => W2 (ix2 h o)) (fun o => b2 (ix1 o)) (i 1)

theorem net_apply (H : (⟨3, ![65536, 16, 128]⟩ : Shape).Idx → EReal) (W1 : (⟨2, ![120, 128]⟩ : Shape).Idx → EReal)
    (b1 : (⟨1, ![128]⟩ : Shape).Idx → EReal) (W2 : (⟨2, ![128, 128]⟩ : Shape).Idx → EReal)
    (b2 : (⟨1, ![128]⟩ : Shape).Idx → EReal) (b : Fin 65536) (o : Fin 128) :
    net H W1 b1 W2 b2 (ix2 b o) = head (prePairs (fun k d => H (ix3 b k d)) (fun p h => W1 (ix2 p h))) (fun h => b1 (ix1 h))
      (fun h o => W2 (ix2 h o)) (fun o => b2 (ix1 o)) o := rfl

end Cert.Spec

end
-- ==== Proof.KerFinal.lean ====
/-
  From tiles to the array. The grid has 64 points; point `t` is given rows `1024 t … 1024 t + 1023` of the token array
  and the whole of the weight arrays, and writes rows `1024 t … 1024 t + 1023` of the output. What it writes is, index
  by index, the network on whole arrays (`Spec.net`) read through that block: the tile computation is `Spec.head` of
  `Spec.preFull` against the zero-padded weight array, which is `Spec.prePairs` against the weight matrix. The 64
  blocks cover the output array, so after the run it holds `Spec.net` of the argument arrays.
-/
import proofs.«181531_j20555713478745_2_alg».proof.Proof.Gen.KernelIdeal.Value
import proofs.«181531_j20555713478745_2_alg».proof.Proof.KerOut
import proofs.«181531_j20555713478745_2_alg».proof.Proof.KerHost
import proofs.«181531_j20555713478745_2_alg».proof.Proof.Net
import Idealize.ShloMosaic.Lib.Pipeline.Value

noncomputable section

namespace Cert.KernelIdeal.Final

open Cert.KernelIdeal Cert.KernelIdeal.Gen Idealize.ShloMosaic Idealize.ShloMosaic.ValueIdx Idealize.ShloMosaic.TcCoe
  Idealize.SL.Sem
open Idealize.ShloMosaic.Pipeline (Dat)

variable (m : (ℓ : Loc nD τ sig) → Buf (Elt Ideal) ℓ) (ρ : Dev nD → PrngReg)

/-- The index maps, decided over the grid: the token window and the output window move one block of 1024 rows per
    point, every other window stays at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The token block at point `t` is rows `1024 t …` of the token array. -/
theorem iblk0_apply (c : Dev nD) (t : Fin cfg0.N) (b : Fin 1024) (k : Fin 16) (d : Fin 128) (B : Fin 65536)
    (hB : B.val = t.val * 1024 + b.val) :
    (iblk m c 0 t : Vec Ideal S1024x16x128 .f32) (ix3 b k d)
      = (m ((c : Thread nD τ).loc main_arg0) : S65536x16x128.Idx → EReal) (ix3 B k d) := by
  obtain ⟨e0, e1, e2, -⟩ := idx_facts t
  unfold iblk
  rw [View.read_apply]
  show V m c main_arg0 _ = m (c.tc.loc main_arg0) _
  rw [V_main_arg0 m c]
  congr 1
  funext a
  apply Fin.ext
  match a with
  | ⟨0, _⟩ => show win0_0.index t 0 * 1024 + 1 * b.val = B.val; rw [e0, hB]; omega
  | ⟨1, _⟩ => show win0_0.index t 1 * 16 + 1 * k.val = k.val; rw [e1]; omega
  | ⟨2, _⟩ => show win0_0.index t 2 * 128 + 1 * d.val = d.val; rw [e2]; omega

/-- The weight-array block at any point is the whole weight array the region finds. -/
theorem iblk1_apply (c : Dev nD) (t : Fin cfg0.N) (i j : Fin 16) (h : Fin 128) :
    (iblk m c 1 t : Vec Ideal S16x16x128 .f32) (ix3 i j h) = (V m c main_v10 : S16x16x128.Idx → EReal) (ix3 i j h) := by
  obtain ⟨-, -, -, e0, e1, e2, -⟩ := idx_facts t
  unfold iblk
  rw [View.read_apply]
  show V m c main_v10 _ = V m c main_v10 _
  congr 1
  funext a
  apply Fin.ext
  match a with
  | ⟨0, _⟩ => show win0_1.index t 0 * 16 + 1 * i.val = i.val; rw [e0]; omega
  | ⟨1, _⟩ => show win0_1.index t 1 * 16 + 1 * j.val = j.val; rw [e1]; omega
  | ⟨2, _⟩ => show win0_1.index t 2 * 128 + 1 * h.val = h.val; rw [e2]; omega

/-- The first bias block at any point is the whole bias row the region finds. -/
theorem iblk2_apply (c : Dev nD) (t : Fin cfg0.N) (u : Fin 1) (h : Fin 128) :
    (iblk m c 2 t : Vec Ideal S1x128 .f32) (ix2 u h) = (V m c main_v11 : S1x128.Idx → EReal) (ix2 u h) := by
  obtain ⟨-, -, -, -, -, -, e0, e1, -⟩ := idx_facts t
  unfold iblk
  rw [View.read_apply]
  show V m c main_v11 _ = V m c main_v11 _
  congr 1
  funext a
  apply Fin.ext
  match a with
  | ⟨0, _⟩ => show win0_2.index t 0 * 1 + 1 * u.val = u.val; rw [e0]; omega
  | ⟨1, _⟩ => show win0_2.index t 1 * 128 + 1 * h.val = h.val; rw [e1]; omega

/-- The second-layer weight block at any point is the whole second-layer weight matrix. -/
theorem iblk3_apply (c : Dev nD) (t : Fin cfg0.N) (h o : Fin 128) :
    (iblk m c 3 t : Vec Ideal S128x128 .f32) (ix2 h o)
      = (m ((c : Thread nD τ).loc main_arg3) : S128x128.Idx → EReal) (ix2 h o) := by
  obtain ⟨-, -, -, -, -, -, -, -, e0, e1, -⟩ := idx_facts t
  unfold iblk
  rw [View.read_apply]
  show V m c main_arg3 _ = m (c.tc.loc main_arg3) _
  rw [V_main_arg3 m c]
  congr 1
  funext a
  apply Fin.ext
  match a with
  | ⟨0, _⟩ => show win0_3.index t 0 * 128 + 1 * h.val = h.val; rw [e0]; omega
  | ⟨1, _⟩ => show win0_3.index t 1 * 128 + 1 * o.val = o.val; rw [e1]; omega

/-- The second bias block at any point is the whole bias row the region finds. -/
theorem iblk4_apply (c : Dev nD) (t : Fin cfg0.N) (u : Fin 1) (o : Fin 128) :
    (iblk m c 4 t : Vec Ideal S1x128 .f32) (ix2 u o) = (V m c main_v12 : S1x128.Idx → EReal) (ix2 u o) := by
  obtain ⟨-, -, -, -, -, -, -, -, -, -, e0, e1, -⟩ := idx_facts t
  unfold iblk
  rw [View.read_apply]
  show V m c main_v12 _ = V m c main_v12 _
  congr 1
  funext a
  apply Fin.ext
  match a with
  | ⟨0, _⟩ => show win0_4.index t 0 * 1 + 1 * u.val = u.val; rw [e0]; omega
  | ⟨1, _⟩ => show win0_4.index t 1 * 128 + 1 * o.val = o.val; rw [e1]; omega

/-- One tile: blocks that are rows `1024 T …` of the token array, a weight array that is the weight matrix scattered
    into zeros, and the remaining arrays whole, give at `(b, o)` the network on whole arrays at `(1024 T + b, o)`. -/
theorem tile_eq (X0 : Vec Ideal S1024x16x128 .f32) (X1 : Vec Ideal S16x16x128 .f32) (X2 : Vec Ideal S1x128 .f32)
    (X3 : Vec Ideal S128x128 .f32) (X4 : Vec Ideal S1x128 .f32)
    (H : S65536x16x128.Idx → EReal) (W1 : S120x128.Idx → EReal) (b1 : S128.Idx → EReal) (W2 : S128x128.Idx → EReal)
    (b2 : S128.Idx → EReal) (b : Fin 1024) (o : Fin 128) (B : Fin 65536)
    (h0 : ∀ k d, X0 (ix3 b k d) = H (ix3 B k d))
    (hhit : ∀ p h, X1 (ix3 (Pairs.row p) (Pairs.col p) h) = W1 (ix2 p h))
    (hmiss : ∀ i j h, ¬ i < j → X1 (ix3 i j h) = 0)
    (h2 : ∀ h, X2 (ix2 (0 : Fin 1) h) = b1 (ix1 h)) (h3 : ∀ h o, X3 (ix2 h o) = W2 (ix2 h o))
    (h4 : ∀ o, X4 (ix2 (0 : Fin 1) o) = b2 (ix1 o)) :
    out0_5 (F := Ideal) X0 X1 X2 X3 X4 (ix2 b o) = Spec.net H W1 b1 W2 b2 (ix2 B o) := by
  rw [Pay.out_apply, Spec.net_apply]
  rw [show (fun k d => X0 (ix3 b k d)) = (fun k d => H (ix3 B k d)) from funext fun k => funext fun d => h0 k d,
    show (fun h => X2 (ix2 (0 : Fin 1) h)) = (fun h => b1 (ix1 h)) from funext h2,
    show (fun h o => X3 (ix2 h o)) = (fun h o => W2 (ix2 h o)) from funext fun h => funext fun o => h3 h o,
    show (fun o => X4 (ix2 (0 : Fin 1) o)) = (fun o => b2 (ix1 o)) from funext h4]
  exact Pay.head_congr _ _ _ _ _ o fun h =>
    Spec.preFull_eq_prePairs _ (fun p h => W1 (ix2 p h)) (fun i j h => X1 (ix3 i j h)) hhit hmiss h

/-- What point `t` writes back is block `t` of the network on whole arrays. -/
theorem flushed_eq (c : Dev nD) (t : Fin cfg0.N) :
    (dats m 0 c).flushed 5 t = ((cfg0.win 5).blk t).view.read (Elt Ideal) (Spec.net (m ((c : Thread nD τ).loc main_arg0) : S65536x16x128.Idx → EReal)
      (m ((c : Thread nD τ).loc main_arg1) : S120x128.Idx → EReal) (m ((c : Thread nD τ).loc main_arg2) : S128.Idx → EReal)
      (m ((c : Thread nD τ).loc main_arg3) : S128x128.Idx → EReal) (m ((c : Thread nD τ).loc main_arg4) : S128.Idx → EReal)) := by
  obtain ⟨-, -, -, -, -, -, -, -, -, -, -, -, e0, e1⟩ := idx_facts t
  have hN : cfg0.N = 64 := N_0
  have ht : t.val < 64 := by have := t.isLt; omega
  rw [Value.flushed5]
  funext y
  rw [View.read_apply]
  obtain ⟨b, o, rfl⟩ : ∃ (b : Fin 1024) (o : Fin 128), y = ix2 b o := ⟨y 0, y 1, eq_ix2 y⟩
  have hb : b.val < 1024 := b.isLt
  have hB : t.val * 1024 + b.val < 65536 := by omega
  have hemb : ((cfg0.win 5).blk t).view.emb (ix2 b o) = ix2 (⟨t.val * 1024 + b.val, hB⟩ : Fin 65536) o := by
    funext a
    apply Fin.ext
    match a with
    | ⟨0, _⟩ => show win0_5.index t 0 * 1024 + 1 * b.val = t.val * 1024 + b.val; rw [e0]; omega
    | ⟨1, _⟩ => show win0_5.index t 1 * 128 + 1 * o.val = o.val; rw [e1]; omega
  show out0_5 (F := Ideal) (iblk m c 0 t) (iblk m c 1 t) (iblk m c 2 t) (iblk m c 3 t) (iblk m c 4 t) (ix2 b o)
    = Spec.net (m ((c : Thread nD τ).loc main_arg0) : S65536x16x128.Idx → EReal)
      (m ((c : Thread nD τ).loc main_arg1) : S120x128.Idx → EReal) (m ((c : Thread nD τ).loc main_arg2) : S128.Idx → EReal)
      (m ((c : Thread nD τ).loc main_arg3) : S128x128.Idx → EReal) (m ((c : Thread nD τ).loc main_arg4) : S128.Idx → EReal) (((cfg0.win 5).blk t).view.emb (ix2 b o))
  rw [hemb]
  exact tile_eq (iblk m c 0 t) (iblk m c 1 t) (iblk m c 2 t) (iblk m c 3 t) (iblk m c 4 t)
    (m ((c : Thread nD τ).loc main_arg0) : S65536x16x128.Idx → EReal)
      (m ((c : Thread nD τ).loc main_arg1) : S120x128.Idx → EReal) (m ((c : Thread nD τ).loc main_arg2) : S128.Idx → EReal)
      (m ((c : Thread nD τ).loc main_arg3) : S128x128.Idx → EReal) (m ((c : Thread nD τ).loc main_arg4) : S128.Idx → EReal) b o ⟨t.val * 1024 + b.val, hB⟩
    (fun k d => iblk0_apply m c t b k d ⟨t.val * 1024 + b.val, hB⟩ rfl)
    (fun p h => (iblk1_apply m c t (Pairs.row p) (Pairs.col p) h).trans (HostVals.W_hit m c p h))
    (fun i j h hij => (iblk1_apply m c t i j h).trans (HostVals.W_miss m c i j h hij))
    (fun h => (iblk2_apply m c t (0 : Fin 1) h).trans (HostVals.b1_apply m c h))
    (fun h o => iblk3_apply m c t h o)
    (fun o => (iblk4_apply m c t (0 : Fin 1) o).trans (HostVals.b2_apply m c o))

/-- An index of the output array is in point `t`'s block iff each coordinate is in the block's range on its axis. -/
theorem mem_blk (t : Fin cfg0.N) (i : S65536x128.Idx) :
    i ∈ ((cfg0.win 5).blk t).view.set ↔ ∀ a : Fin 2, win0_5.index t a * S1024x128.size a ≤ (i a).val
      ∧ (i a).val < win0_5.index t a * S1024x128.size a + S1024x128.size a := by
  show i ∈ ((View.whole main_v13).slice (win0_5.rect t)).set ↔ _
  rw [View.set_slice_whole, Rect.mem_set_unit]
  exact Iff.rfl

/-- Every index of the output array is in some point's block: row `r` is in the block of point `r / 1024`. -/
theorem cover (i : S65536x128.Idx) :
    ∃ t : Fin cfg0.N, (cfg0.win 5).flush t = true ∧ i ∈ ((cfg0.win 5).blk t).view.set := by
  have hi0 : (i 0).val < 65536 := (i 0).isLt
  have hi1 : (i 1).val < 128 := (i 1).isLt
  have hN : cfg0.N = 64 := N_0
  obtain ⟨t, ht⟩ : ∃ t : Fin cfg0.N, t.val = (i 0).val / 1024 := ⟨⟨(i 0).val / 1024, by rw [hN]; omega⟩, rfl⟩
  obtain ⟨-, -, -, -, -, -, -, -, -, -, -, -, e0, e1⟩ := idx_facts t
  refine ⟨t, flush0_5 t, ?_⟩
  rw [mem_blk]
  intro a
  match a with
  | ⟨0, _⟩ =>
    show win0_5.index t 0 * 1024 ≤ (i 0).val ∧ (i 0).val < win0_5.index t 0 * 1024 + 1024
    rw [e0, ht]; omega
  | ⟨1, _⟩ =>
    show win0_5.index t 1 * 128 ≤ (i 1).val ∧ (i 1).val < win0_5.index t 1 * 128 + 128
    rw [e1]; omega

/-- The output array after the run is the network on whole arrays. -/
theorem final (c : Dev nD) : (dats m 0 c).arrAt 5 cfg0.N = Spec.net (m ((c : Thread nD τ).loc main_arg0) : S65536x16x128.Idx → EReal)
      (m ((c : Thread nD τ).loc main_arg1) : S120x128.Idx → EReal) (m ((c : Thread nD τ).loc main_arg2) : S128.Idx → EReal)
      (m ((c : Thread nD τ).loc main_arg3) : S128x128.Idx → EReal) (m ((c : Thread nD τ).loc main_arg4) : S128.Idx → EReal) :=
  (dats m 0 c).arrAt_eq_of_cover 5 _ (fun t _ => flushed_eq m c t) cover

/-- The run, read: the output array at the network of the argument arrays, the arguments unchanged. -/
theorem run : θ_run defs (onTc (τ := τ) (main (F := Ideal))) ⟨m, fun _ => 0, ρ⟩ fun r => ∀ c : Dev nD,
      r.2.mem ((c : Thread nD τ).loc main_v13) = Spec.net (m ((c : Thread nD τ).loc main_arg0) : S65536x16x128.Idx → EReal)
      (m ((c : Thread nD τ).loc main_arg1) : S120x128.Idx → EReal) (m ((c : Thread nD τ).loc main_arg2) : S128.Idx → EReal)
      (m ((c : Thread nD τ).loc main_arg3) : S128x128.Idx → EReal) (m ((c : Thread nD τ).loc main_arg4) : S128.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Final

end
-- ==== Proof.RefRun.lean ====
/-
  The run of the reference program. Its @main, with each call of an outlined function replaced by that
  function's body over the call's own buffers, is one straight line of 157 host operations (`ops`, in program
  order: `main_eq`). No buffer and no semaphore of the signature is scoped, and every operation touches
  TensorCore buffers only, so every weakly fair execution of the program from a memory with zero counters
  terminates, and in every final state each buffer holds the fold of the operations' results over the launch
  contents (`run_main`). No operation writes an argument buffer: the five arguments end as they began
  (`kept_arg0` … `kept_arg4`).
-/
import proofs.«181531_j20555713478745_2_alg».proof.ReferenceIdeal
import proofs.«181531_j20555713478745_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 157 operations in program order, each outlined function's operations in place of its call, over that call's buffers. -/
abbrev ops : List (HloOp τ sig (Elt F)) :=
  [ StableHlo.TRef.binary (.of main_arg0 : StableHlo.TRef sig ⟨S65536x16x128, .f32⟩) (.of main_arg0 : StableHlo.TRef sig ⟨S65536x16x128, .f32⟩) main_call0.v0 mulf,
    StableHlo.TRef.nullary main_call0.cst (constant S_ .f32 0x00000000#32),
    StableHlo.TRef.binary main_call0.v0 main_call0.cst main_call0.v1 (fun x v => Host.reduceAdd x v reducesTo_S65536x16x128_S65536x16_d2 h_S_),
    StableHlo.TRef.unary main_call0.v1 main_call0.v2 (broadcastInDim S65536x16x1 ![0, 1] bcast_S65536x16_S65536x16x1_0_1),
    StableHlo.TRef.unary main_call0.v2 main_call0.v3 Host.sqrt,
    StableHlo.nullary main_cst (constant S_ .f32 0x2B8CBCCC#32),
    StableHlo.unary main_cst main_v1 (broadcastInDim S65536x16x1 ![] bcast_S_S65536x16x1 : (⟨S_, .f32⟩ : BufTy).Contents (Elt F) → (⟨S65536x16x1, .f32⟩ : BufTy).Contents (Elt F)),
    StableHlo.binary main_v0 main_v1 main_v2 (maximumf : (⟨S65536x16x1, .f32⟩ : BufTy).Contents (Elt F) → (⟨S65536x16x1, .f32⟩ : BufTy).Contents (Elt F) → (⟨S65536x16x1, .f32⟩ : BufTy).Contents (Elt F)),
    StableHlo.unary main_v2 main_v3 (broadcastInDim S65536x16x128 ![0, 1, 2] bcast_S65536x16x1_S65536x16x128_0_1_2 : (⟨S65536x16x1, .f32⟩ : BufTy).Contents (Elt F) → (⟨S65536x16x128, .f32⟩ : BufTy).Contents (Elt F)),
    StableHlo.binary main_arg0 main_v3 main_v4 (Host.divf : (⟨S65536x16x128, .f32⟩ : BufTy).Contents (Elt F) → (⟨S65536x16x128, .f32⟩ : BufTy).Contents (Elt F) → (⟨S65536x16x128, .f32⟩ : BufTy).Contents (Elt F)),
    StableHlo.binary main_v4 main_v4 main_v5 ((fun l r => Host.dotGeneral dot_S65536x16x128_S65536x16x128_S65536x16x16_2_2_1_1_0_0 none l r) : (⟨S65536x16x128, .f32⟩ : BufTy).Contents (Elt F) → (⟨S65536x16x128, .f32⟩ : BufTy).Contents (Elt F) → (⟨S65536x16x16, .f32⟩ : BufTy).Contents (Elt F)),
    StableHlo.nullary main_cst_0 (constant S_ .f32 0x3F800000#32),
    StableHlo.unary main_cst_0 main_v6 (broadcastInDim S16x16 ![] bcast_S_S16x16 : (⟨S_, .f32⟩ : BufTy).Contents (Elt F) → (⟨S16x16, .f32⟩ : BufTy).Contents (Elt F)),
    StableHlo.TRef.nullary main_call1.v0 (iotaInDim S16x16 32 0),
    StableHlo.TRef.nullary main_call1.c (constantI S_ 32 0#32),
    StableHlo.TRef.unary main_call1.c main_call1.v1 (broadcastInDim S16x16 ![] bcast_S_S16x16),
    StableHlo.TRef.binary main_call1.v0 main_call1.v1 main_call1.v2 addi,
    StableHlo.TRef.nullary main_call1.v3 (iotaInDim S16x16 32 1),
    StableHlo.TRef.binary main_call1.v2 main_call1.v3 main_call1.v4 (cmpi .sge),
    StableHlo.TRef.nullary main_call1.cst (constant S_ .f32 0x00000000#32),
    StableHlo.TRef.unary main_call1.cst main_call1.v5 (broadcastInDim S16x16 ![] bcast_S_S16x16),
    StableHlo.TRef.ternary main_call1.v4 main_call1.v5 (.of main_v6 : StableHlo.TRef sig ⟨S16x16, .f32⟩) main_call1.v6 select,
    StableHlo.nullary main_cst_1 (constant S_ .f32 0x00000000#32),
    StableHlo.unary main_cst_1 main_v8 (broadcastInDim S16x16 ![] bcast_S_S16x16 : (⟨S_, .f32⟩ : BufTy).Contents (Elt F) → (⟨S16x16, .f32⟩ : BufTy).Contents (Elt F)),
    StableHlo.binary main_v7 main_v8 main_v9 (cmpf .une : (⟨S16x16, .f32⟩ : BufTy).Contents (Elt F) → (⟨S16x16, .f32⟩ : BufTy).Contents (Elt F) → (⟨S16x16, .i1⟩ : BufTy).Contents (Elt F)),
    StableHlo.TRef.reshape (.of main_v9 : StableHlo.TRef sig ⟨S16x16, .i1⟩) main_call2.v0 rfl shapeCasts_S16x16_S256,
    StableHlo.TRef.unary main_call2.v0 main_call2.v1 (extui 32 · natLt_1_32),
    StableHlo.TRef.nullary main_call2.call0.c (constantI S_ 32 0#32),
    StableHlo.TRef.unary main_call2.call0.c main_call2.call0.v0 (broadcastInDim S_ ![] bcast_S_S_),
    StableHlo.TRef.binary main_call2.v1 main_call2.call0.v0 main_call2.call0.v1 (fun x v => Host.reduceWindow IntOp.addi ![256] ![1] ![255] ![0] x v reduceWindows_S256_S256_w256s1p255_0 h_S_),
    StableHlo.nullary main_c (constantI S_ 32 0#32),
    StableHlo.unary main_c main_v11 (broadcastInDim S120 ![] bcast_S_S120 : (⟨S_, .i32⟩ : BufTy).Contents (Elt F) → (⟨S120, .i32⟩ : BufTy).Contents (Elt F)),
    StableHlo.nullary main_c_2 (constantI S_ 32 0#32),
    StableHlo.TRef.unary (.of main_c_2 : StableHlo.TRef sig ⟨S_, .i32⟩) main_call3.v0 id,
    StableHlo.TRef.unary main_call3.v0 main_call3.v1 (broadcastInDim S256 ![] bcast_S_S256),
    StableHlo.TRef.binary main_call3.v1 (.of main_v10 : StableHlo.TRef sig ⟨S256, .i32⟩) main_call3.v2 maxsi,
    StableHlo.nullary main_c_3 (constantI S_ 32 0#32),
    StableHlo.unary main_c_3 main_v13 (broadcastInDim S256 ![] bcast_S_S256 : (⟨S_, .i32⟩ : BufTy).Contents (Elt F) → (⟨S256, .i32⟩ : BufTy).Contents (Elt F)),
    StableHlo.binary main_v12 main_v13 main_v14 (cmpi .slt : (⟨S256, .i32⟩ : BufTy).Contents (Elt F) → (⟨S256, .i32⟩ : BufTy).Contents (Elt F) → (⟨S256, .i1⟩ : BufTy).Contents (Elt F)),
    StableHlo.nullary main_c_4 (constantI S_ 32 120#32),
    StableHlo.unary main_c_4 main_v15 (broadcastInDim S256 ![] bcast_S_S256 : (⟨S_, .i32⟩ : BufTy).Contents (Elt F) → (⟨S256, .i32⟩ : BufTy).Contents (Elt F)),
    StableHlo.binary main_v12 main_v15 main_v16 (addi : (⟨S256, .i32⟩ : BufTy).Contents (Elt F) → (⟨S256, .i32⟩ : BufTy).Contents (Elt F) → (⟨S256, .i32⟩ : BufTy).Contents (Elt F)),
    StableHlo.ternary main_v14 main_v16 main_v12 main_v17 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v17 main_v18 (broadcastInDim S256x1 ![0] bcast_S256_S256x1_0 : (⟨S256, .i32⟩ : BufTy).Contents (Elt F) → (⟨S256x1, .i32⟩ : BufTy).Contents (Elt F)),
    StableHlo.nullary main_c_5 (constantI S_ 32 1#32),
    StableHlo.unary main_c_5 main_v19 (broadcastInDim S256 ![] bcast_S_S256 : (⟨S_, .i32⟩ : BufTy).Contents (Elt F) → (⟨S256, .i32⟩ : BufTy).Contents (Elt F)),
    StableHlo.ternary main_v11 main_v18 main_v19 main_v20 ((fun x i u => Host.scatter scatter_S120_S256x1_S256_n_0_0_1 IntOp.addi x i u) : (⟨S120, .i32⟩ : BufTy).Contents (Elt F) → (⟨S256x1, .i32⟩ : BufTy).Contents (Elt F) → (⟨S256, .i32⟩ : BufTy).Contents (Elt F) → (⟨S120, .i32⟩ : BufTy).Contents (Elt F)),
    StableHlo.TRef.nullary main_call4.call0.c (constantI S_ 32 0#32),
    StableHlo.TRef.unary main_call4.call0.c main_call4.call0.v0 (broadcastInDim S_ ![] bcast_S_S_),
    StableHlo.TRef.binary (.of main_v20 : StableHlo.TRef sig ⟨S120, .i32⟩) main_call4.call0.v0 main_call4.call0.v1 (fun x v => Host.reduceWindow IntOp.addi ![120] ![1] ![119] ![0] x v reduceWindows_S120_S120_w120s1p119_0 h_S_),
    StableHlo.nullary main_c_6 (constantI S_ 32 16#32),
    StableHlo.TRef.unary (.of main_c_6 : StableHlo.TRef sig ⟨S_, .i32⟩) main_call5.v0 (broadcastInDim S120 ![] bcast_S_S120),
    StableHlo.TRef.binary (.of main_v21 : StableHlo.TRef sig ⟨S120, .i32⟩) main_call5.v0 main_call5.v1 Host.divsi,
    StableHlo.TRef.unary (.of main_v21 : StableHlo.TRef sig ⟨S120, .i32⟩) main_call5.v2 signi,
    StableHlo.TRef.unary (.of main_c_6 : StableHlo.TRef sig ⟨S_, .i32⟩) main_call5.v3 signi,
    StableHlo.TRef.unary main_call5.v3 main_call5.v4 (broadcastInDim S120 ![] bcast_S_S120),
    StableHlo.TRef.binary main_call5.v2 main_call5.v4 main_call5.v5 (cmpi .ne),
    StableHlo.TRef.unary (.of main_c_6 : StableHlo.TRef sig ⟨S_, .i32⟩) main_call5.v6 (broadcastInDim S120 ![] bcast_S_S120),
    StableHlo.TRef.binary (.of main_v21 : StableHlo.TRef sig ⟨S120, .i32⟩) main_call5.v6 main_call5.v7 Host.remsi,
    StableHlo.TRef.nullary main_call5.c (constantI S_ 32 0#32),
    StableHlo.TRef.unary main_call5.c main_call5.v8 (broadcastInDim S120 ![] bcast_S_S120),
    StableHlo.TRef.binary main_call5.v7 main_call5.v8 main_call5.v9 (cmpi .ne),
    StableHlo.TRef.binary main_call5.v5 main_call5.v9 main_call5.v10 andi,
    StableHlo.TRef.nullary main_call5.c_0 (constantI S_ 32 1#32),
    StableHlo.TRef.unary main_call5.c_0 main_call5.v11 (broadcastInDim S120 ![] bcast_S_S120),
    StableHlo.TRef.binary main_call5.v1 main_call5.v11 main_call5.v12 subi,
    StableHlo.TRef.ternary main_call5.v10 main_call5.v12 main_call5.v1 main_call5.call0.v0 select,
    StableHlo.nullary main_c_7 (constantI S_ 32 16#32),
    StableHlo.TRef.unary (.of main_c_7 : StableHlo.TRef sig ⟨S_, .i32⟩) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S120 ![] bcast_S_S120),
    StableHlo.TRef.binary (.of main_v22 : StableHlo.TRef sig ⟨S120, .i32⟩) main_call6.v3 main_call6.v4 Host.remsi,
    StableHlo.TRef.nullary main_call6.c_1 (constantI S_ 32 0#32),
    StableHlo.TRef.unary main_call6.c_1 main_call6.v5 (broadcastInDim S120 ![] bcast_S_S120),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S120 ![] bcast_S_S120),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S120 ![] bcast_S_S120),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S120 ![] bcast_S_S120),
    StableHlo.TRef.binary main_call6.v4 main_call6.v13 main_call6.v14 addi,
    StableHlo.TRef.ternary main_call6.v12 main_call6.v14 main_call6.v4 main_call6.v15 select,
    StableHlo.nullary main_c_8 (constantI S_ 32 1#32),
    StableHlo.TRef.unary (.of main_c_8 : StableHlo.TRef sig ⟨S_, .i32⟩) main_call7.v0 (broadcastInDim S120 ![] bcast_S_S120),
    StableHlo.TRef.binary (.of main_v21 : StableHlo.TRef sig ⟨S120, .i32⟩) main_call7.v0 main_call7.v1 Host.divsi,
    StableHlo.TRef.unary (.of main_v21 : StableHlo.TRef sig ⟨S120, .i32⟩) main_call7.v2 signi,
    StableHlo.TRef.unary (.of main_c_8 : StableHlo.TRef sig ⟨S_, .i32⟩) main_call7.v3 signi,
    StableHlo.TRef.unary main_call7.v3 main_call7.v4 (broadcastInDim S120 ![] bcast_S_S120),
    StableHlo.TRef.binary main_call7.v2 main_call7.v4 main_call7.v5 (cmpi .ne),
    StableHlo.TRef.unary (.of main_c_8 : StableHlo.TRef sig ⟨S_, .i32⟩) main_call7.v6 (broadcastInDim S120 ![] bcast_S_S120),
    StableHlo.TRef.binary (.of main_v21 : StableHlo.TRef sig ⟨S120, .i32⟩) main_call7.v6 main_call7.v7 Host.remsi,
    StableHlo.TRef.nullary main_call7.c (constantI S_ 32 0#32),
    StableHlo.TRef.unary main_call7.c main_call7.v8 (broadcastInDim S120 ![] bcast_S_S120),
    StableHlo.TRef.binary main_call7.v7 main_call7.v8 main_call7.v9 (cmpi .ne),
    StableHlo.TRef.binary main_call7.v5 main_call7.v9 main_call7.v10 andi,
    StableHlo.TRef.nullary main_call7.c_0 (constantI S_ 32 1#32),
    StableHlo.TRef.unary main_call7.c_0 main_call7.v11 (broadcastInDim S120 ![] bcast_S_S120),
    StableHlo.TRef.binary main_call7.v1 main_call7.v11 main_call7.v12 subi,
    StableHlo.TRef.ternary main_call7.v10 main_call7.v12 main_call7.v1 main_call7.call0.v0 select,
    StableHlo.nullary main_c_9 (constantI S_ 32 16#32),
    StableHlo.TRef.unary (.of main_c_9 : StableHlo.TRef sig ⟨S_, .i32⟩) main_call8.v0 id,
    StableHlo.TRef.nullary main_call8.c (constantI S_ 32 0#32),
    StableHlo.TRef.binary main_call8.v0 main_call8.c main_call8.v1 (cmpi .eq),
    StableHlo.TRef.nullary main_call8.c_0 (constantI S_ 32 1#32),
    StableHlo.TRef.ternary main_call8.v1 main_call8.c_0 main_call8.v0 main_call8.call0.v0 select,
    StableHlo.TRef.unary main_call8.call0.v0 main_call8.v3 (broadcastInDim S120 ![] bcast_S_S120),
    StableHlo.TRef.binary (.of main_v24 : StableHlo.TRef sig ⟨S120, .i32⟩) main_call8.v3 main_call8.v4 Host.remsi,
    StableHlo.TRef.nullary main_call8.c_1 (constantI S_ 32 0#32),
    StableHlo.TRef.unary main_call8.c_1 main_call8.v5 (broadcastInDim S120 ![] bcast_S_S120),
    StableHlo.TRef.binary main_call8.v4 main_call8.v5 main_call8.v6 (cmpi .ne),
    StableHlo.TRef.nullary main_call8.c_2 (constantI S_ 32 0#32),
    StableHlo.TRef.unary main_call8.c_2 main_call8.v7 (broadcastInDim S120 ![] bcast_S_S120),
    StableHlo.TRef.binary main_call8.v4 main_call8.v7 main_call8.v8 (cmpi .slt),
    StableHlo.TRef.nullary main_call8.c_3 (constantI S_ 32 0#32),
    StableHlo.TRef.binary main_call8.call0.v0 main_call8.c_3 main_call8.v9 (cmpi .slt),
    StableHlo.TRef.unary main_call8.v9 main_call8.v10 (broadcastInDim S120 ![] bcast_S_S120),
    StableHlo.TRef.binary main_call8.v8 main_call8.v10 main_call8.v11 (cmpi .ne),
    StableHlo.TRef.binary main_call8.v11 main_call8.v6 main_call8.v12 andi,
    StableHlo.TRef.unary main_call8.call0.v0 main_call8.v13 (broadcastInDim S120 ![] bcast_S_S120),
    StableHlo.TRef.binary main_call8.v4 main_call8.v13 main_call8.v14 addi,
    StableHlo.TRef.ternary main_call8.v12 main_call8.v14 main_call8.v4 main_call8.v15 select,
    StableHlo.nullary main_c_10 (constantI S_ 32 0#32),
    StableHlo.unary main_c_10 main_v26 (broadcastInDim S120 ![] bcast_S_S120 : (⟨S_, .i32⟩ : BufTy).Contents (Elt F) → (⟨S120, .i32⟩ : BufTy).Contents (Elt F)),
    StableHlo.binary main_v23 main_v26 main_v27 (cmpi .slt : (⟨S120, .i32⟩ : BufTy).Contents (Elt F) → (⟨S120, .i32⟩ : BufTy).Contents (Elt F) → (⟨S120, .i1⟩ : BufTy).Contents (Elt F)),
    StableHlo.nullary main_c_11 (constantI S_ 32 16#32),
    StableHlo.unary main_c_11 main_v28 (broadcastInDim S120 ![] bcast_S_S120 : (⟨S_, .i32⟩ : BufTy).Contents (Elt F) → (⟨S120, .i32⟩ : BufTy).Contents (Elt F)),
    StableHlo.binary main_v23 main_v28 main_v29 (addi : (⟨S120, .i32⟩ : BufTy).Contents (Elt F) → (⟨S120, .i32⟩ : BufTy).Contents (Elt F) → (⟨S120, .i32⟩ : BufTy).Contents (Elt F)),
    StableHlo.ternary main_v27 main_v29 main_v23 main_v30 (select : (⟨S120, .i1⟩ : BufTy).Contents (Elt F) → (⟨S120, .i32⟩ : BufTy).Contents (Elt F) → (⟨S120, .i32⟩ : BufTy).Contents (Elt F) → (⟨S120, .i32⟩ : BufTy).Contents (Elt F)),
    StableHlo.nullary main_c_12 (constantI S_ 32 0#32),
    StableHlo.unary main_c_12 main_v31 (broadcastInDim S120 ![] bcast_S_S120 : (⟨S_, .i32⟩ : BufTy).Contents (Elt F) → (⟨S120, .i32⟩ : BufTy).Contents (Elt F)),
    StableHlo.binary main_v25 main_v31 main_v32 (cmpi .slt : (⟨S120, .i32⟩ : BufTy).Contents (Elt F) → (⟨S120, .i32⟩ : BufTy).Contents (Elt F) → (⟨S120, .i1⟩ : BufTy).Contents (Elt F)),
    StableHlo.nullary main_c_13 (constantI S_ 32 16#32),
    StableHlo.unary main_c_13 main_v33 (broadcastInDim S120 ![] bcast_S_S120 : (⟨S_, .i32⟩ : BufTy).Contents (Elt F) → (⟨S120, .i32⟩ : BufTy).Contents (Elt F)),
    StableHlo.binary main_v25 main_v33 main_v34 (addi : (⟨S120, .i32⟩ : BufTy).Contents (Elt F) → (⟨S120, .i32⟩ : BufTy).Contents (Elt F) → (⟨S120, .i32⟩ : BufTy).Contents (Elt F)),
    StableHlo.ternary main_v32 main_v34 main_v25 main_v35 (select : (⟨S120, .i1⟩ : BufTy).Contents (Elt F) → (⟨S120, .i32⟩ : BufTy).Contents (Elt F) → (⟨S120, .i32⟩ : BufTy).Contents (Elt F) → (⟨S120, .i32⟩ : BufTy).Contents (Elt F)),
    StableHlo.unary main_v30 main_v36 (broadcastInDim S120x1 ![0] bcast_S120_S120x1_0 : (⟨S120, .i32⟩ : BufTy).Contents (Elt F) → (⟨S120x1, .i32⟩ : BufTy).Contents (Elt F)),
    StableHlo.unary main_v35 main_v37 (broadcastInDim S120x1 ![0] bcast_S120_S120x1_0 : (⟨S120, .i32⟩ : BufTy).Contents (Elt F) → (⟨S120x1, .i32⟩ : BufTy).Contents (Elt F)),
    StableHlo.binary main_v36 main_v37 main_v38 ((fun a b => concatenate S120x2 1 [⟨S120x1, a⟩, ⟨S120x1, b⟩] concatenates_S120x1_S120x1_S120x2_d1) : (⟨S120x1, .i32⟩ : BufTy).Contents (Elt F) → (⟨S120x1, .i32⟩ : BufTy).Contents (Elt F) → (⟨S120x2, .i32⟩ : BufTy).Contents (Elt F)),
    StableHlo.binary main_v5 main_v38 main_v39 ((fun x i => Host.gather gather_S65536x16x16_S120x2_S65536x120_0_12_n_n_12_1_6553611 x i) : (⟨S65536x16x16, .f32⟩ : BufTy).Contents (Elt F) → (⟨S120x2, .i32⟩ : BufTy).Contents (Elt F) → (⟨S65536x120, .f32⟩ : BufTy).Contents (Elt F)),
    StableHlo.binary main_v39 main_arg1 main_v40 ((fun l r => Host.dotGeneral dot_S65536x120_S120x128_S65536x128_1_0_0_1_n_n none l r) : (⟨S65536x120, .f32⟩ : BufTy).Contents (Elt F) → (⟨S120x128, .f32⟩ : BufTy).Contents (Elt F) → (⟨S65536x128, .f32⟩ : BufTy).Contents (Elt F)),
    StableHlo.unary main_arg2 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S65536x128 ![0, 1] bcast_S1x128_S65536x128_0_1 : (⟨S1x128, .f32⟩ : BufTy).Contents (Elt F) → (⟨S65536x128, .f32⟩ : BufTy).Contents (Elt F)),
    StableHlo.binary main_v40 main_v42 main_v43 (addf : (⟨S65536x128, .f32⟩ : BufTy).Contents (Elt F) → (⟨S65536x128, .f32⟩ : BufTy).Contents (Elt F) → (⟨S65536x128, .f32⟩ : BufTy).Contents (Elt F)),
    StableHlo.TRef.nullary main_call9.cst (constant S_ .f32 0x00000000#32),
    StableHlo.TRef.unary main_call9.cst main_call9.v0 (broadcastInDim S65536x128 ![] bcast_S_S65536x128),
    StableHlo.TRef.binary (.of main_v43 : StableHlo.TRef sig ⟨S65536x128, .f32⟩) main_call9.v0 main_call9.v1 maximumf,
    StableHlo.binary main_v44 main_arg3 main_v45 ((fun l r => Host.dotGeneral dot_S65536x128_S128x128_S65536x128_1_0_0_1_n_n none l r) : (⟨S65536x128, .f32⟩ : BufTy).Contents (Elt F) → (⟨S128x128, .f32⟩ : BufTy).Contents (Elt F) → (⟨S65536x128, .f32⟩ : BufTy).Contents (Elt F)),
    StableHlo.unary main_arg4 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S65536x128 ![0, 1] bcast_S1x128_S65536x128_0_1 : (⟨S1x128, .f32⟩ : BufTy).Contents (Elt F) → (⟨S65536x128, .f32⟩ : BufTy).Contents (Elt F)),
    StableHlo.binary main_v45 main_v47 main_v48 (addf : (⟨S65536x128, .f32⟩ : BufTy).Contents (Elt F) → (⟨S65536x128, .f32⟩ : BufTy).Contents (Elt F) → (⟨S65536x128, .f32⟩ : BufTy).Contents (Elt F)) ]

set_option maxRecDepth 8192 in
set_option maxHeartbeats 4000000 in
/-- @main is that straight line: the two windows and the outlined functions unfolded at their calls, both sides
    are one chain of operations once sequencing is reassociated. -/
theorem main_eq (c : Dev nD) : main (F := F) c = seq ops := by
  simp only [main, main_part0, main_part1, fn_norm.body, fn_triu.body, fn_cumsum_0.body, fn_cumsum.body, fn_clip.body, fn_cumsum_2.body, fn_cumsum_1.body, fn_where.body, fn_floor_divide.body, fn_where_3.body, fn_remainder.body, fn_relu.body, seq, bind_assoc, pure_bind]

/-- No buffer of the signature is scoped. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub ..,
    unary_bufs_sub .., binary_bufs_sub .., unary_bufs_sub .., binary_bufs_sub .., binary_bufs_sub .., nullary_bufs_sub ..,
    unary_bufs_sub .., nullary_bufs_sub .., nullary_bufs_sub .., unary_bufs_sub .., binary_bufs_sub .., nullary_bufs_sub ..,
    binary_bufs_sub .., nullary_bufs_sub .., unary_bufs_sub .., ternary_bufs_sub .., nullary_bufs_sub .., unary_bufs_sub ..,
    binary_bufs_sub .., reshape_bufs_sub .., unary_bufs_sub .., nullary_bufs_sub .., unary_bufs_sub .., binary_bufs_sub ..,
    nullary_bufs_sub .., unary_bufs_sub .., nullary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., nullary_bufs_sub ..,
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub ..⟩

/-- At the compiled mesh, for any float values, from any memory with zero counters: every weakly fair execution of
    @main on the TensorCores terminates, and every final state has each TensorCore buffer at the fold of the
    operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 8192 in
set_option maxHeartbeats 4000000 in
/-- No operation writes argument 0's buffer: it ends as it began. -/
theorem kept_arg0 (V : Valuation τ sig (Elt F)) :
    after ops V (main_arg0 : DevRef τ sig) = V (main_arg0 : DevRef τ sig) := by
  after_results_simp

set_option maxRecDepth 8192 in
set_option maxHeartbeats 4000000 in
/-- No operation writes argument 1's buffer: it ends as it began. -/
theorem kept_arg1 (V : Valuation τ sig (Elt F)) :
    after ops V (main_arg1 : DevRef τ sig) = V (main_arg1 : DevRef τ sig) := by
  after_results_simp

set_option maxRecDepth 8192 in
set_option maxHeartbeats 4000000 in
/-- No operation writes argument 2's buffer: it ends as it began. -/
theorem kept_arg2 (V : Valuation τ sig (Elt F)) :
    after ops V (main_arg2 : DevRef τ sig) = V (main_arg2 : DevRef τ sig) := by
  after_results_simp

set_option maxRecDepth 8192 in
set_option maxHeartbeats 4000000 in
/-- No operation writes argument 3's buffer: it ends as it began. -/
theorem kept_arg3 (V : Valuation τ sig (Elt F)) :
    after ops V (main_arg3 : DevRef τ sig) = V (main_arg3 : DevRef τ sig) := by
  after_results_simp

set_option maxRecDepth 8192 in
set_option maxHeartbeats 4000000 in
/-- No operation writes argument 4's buffer: it ends as it began. -/
theorem kept_arg4 (V : Valuation τ sig (Elt F)) :
    after ops V (main_arg4 : DevRef τ sig) = V (main_arg4 : DevRef τ sig) := by
  after_results_simp

end Cert.ReferenceIdeal.RefRun

end
-- ==== Proof.RefRead.lean ====
/-
  The reference program's result as one function of its arguments' contents and of the pair-index table.
  The program normalises each token vector of each batch element by its Euclidean norm clipped below (`unitv`),
  takes the Gram matrix of the normalised tokens of each batch element (`gramv`), reads off the entries the index
  table names (`feat`), and applies two affine layers with a rectifier between them (`hid`, `refOut`). The index
  table is itself computed by the program, by integer operations that read no argument; here it is an argument.
  `out_eq`: after the program's operations the result buffer holds `refOut` of the index-table buffer's final
  contents and of the five arguments' launch contents.
-/
import proofs.«181531_j20555713478745_2_alg».proof.Proof.RefRun
import Idealize.ShloMosaic.PureOps.Ideal

noncomputable section

namespace Cert.ReferenceIdeal.RefRead

open Cert.ReferenceIdeal Cert.ReferenceIdeal.Gen Cert.ReferenceIdeal.RefRun Idealize.ShloMosaic Idealize.ShloMosaic.TcCoe Idealize.SL.Sem Idealize.ShloMosaic.StableHlo

/-- Each token vector's Euclidean norm: the square root of the sum of its features' squares, as a trailing unit axis. -/
def nrm (x0 : FVec Ideal S65536x16x128 .f32) : FVec Ideal S65536x16x1 .f32 :=
  Host.sqrt (broadcastInDim S65536x16x1 ![0, 1] bcast_S65536x16_S65536x16x1_0_1
    (Host.reduceAdd (mulf x0 x0) (constant S_ .f32 0x00000000#32) reducesTo_S65536x16x128_S65536x16_d2 h_S_))

/-- The divisor of each feature: its token's norm clipped below at the constant, repeated along the feature axis. -/
def den (x0 : FVec Ideal S65536x16x128 .f32) : FVec Ideal S65536x16x128 .f32 :=
  broadcastInDim S65536x16x128 ![0, 1, 2] bcast_S65536x16x1_S65536x16x128_0_1_2
    (maximumf (nrm x0) (broadcastInDim S65536x16x1 ![] bcast_S_S65536x16x1 (constant S_ .f32 0x2B8CBCCC#32)))

/-- The normalised tokens. -/
def unitv (x0 : FVec Ideal S65536x16x128 .f32) : FVec Ideal S65536x16x128 .f32 :=
  Host.divf x0 (den x0)

/-- Per batch element, the inner products of its normalised tokens. -/
def gramv (x0 : FVec Ideal S65536x16x128 .f32) : FVec Ideal S65536x16x16 .f32 :=
  Host.dotGeneral dot_S65536x16x128_S65536x16x128_S65536x16x16_2_2_1_1_0_0 none (unitv x0) (unitv x0)

/-- Per batch element, the Gram entries the index table names, in the table's order. -/
def feat (idx : IVec S120x2 32) (x0 : FVec Ideal S65536x16x128 .f32) : FVec Ideal S65536x120 .f32 :=
  Host.gather gather_S65536x16x16_S120x2_S65536x120_0_12_n_n_12_1_6553611 (gramv x0) idx

/-- The first layer: the product with the weights, the bias, the rectifier. -/
def hid (idx : IVec S120x2 32) (x0 : FVec Ideal S65536x16x128 .f32) (x1 : FVec Ideal S120x128 .f32)
    (x2 : FVec Ideal S128 .f32) : FVec Ideal S65536x128 .f32 :=
  maximumf
    (addf (Host.dotGeneral dot_S65536x120_S120x128_S65536x128_1_0_0_1_n_n none (feat idx x0) x1)
      (broadcastInDim S65536x128 ![0, 1] bcast_S1x128_S65536x128_0_1 (broadcastInDim S1x128 ![1] bcast_S128_S1x128_1 x2)))
    (broadcastInDim S65536x128 ![] bcast_S_S65536x128 (constant S_ .f32 0x00000000#32))

/-- The program's result: the second layer's product with its weights, and its bias. -/
def refOut (idx : IVec S120x2 32) (x0 : FVec Ideal S65536x16x128 .f32) (x1 : FVec Ideal S120x128 .f32)
    (x2 : FVec Ideal S128 .f32) (x3 : FVec Ideal S128x128 .f32) (x4 : FVec Ideal S128 .f32) : FVec Ideal S65536x128 .f32 :=
  addf (Host.dotGeneral dot_S65536x128_S128x128_S65536x128_1_0_0_1_n_n none (hid idx x0 x1 x2) x3)
    (broadcastInDim S65536x128 ![0, 1] bcast_S1x128_S65536x128_0_1 (broadcastInDim S1x128 ![1] bcast_S128_S1x128_1 x4))

attribute [local irreducible] Host.gather Host.scatter Host.reduceWindow Host.reduce in
set_option maxRecDepth 8192 in
set_option maxHeartbeats 4000000 in
/-- The fold of the program's operations at the result buffer is `refOut` of the fold at the index-table buffer and
    of the arguments' contents: the fold unrolled, each operation's result read at its own buffer and passed over at
    every other, the two sides are the same composition of the same functions. -/
theorem out_eq (V : Valuation τ sig (Elt Ideal)) :
    after ops V (main_v48 : DevRef τ sig)
      = refOut (after ops V (main_v38 : DevRef τ sig)) (V (main_arg0 : DevRef τ sig)) (V (main_arg1 : DevRef τ sig))
          (V (main_arg2 : DevRef τ sig)) (V (main_arg3 : DevRef τ sig)) (V (main_arg4 : DevRef τ sig)) := by
  after_results_simp
  rfl

end Cert.ReferenceIdeal.RefRead

end
-- ==== Proof.RefGatherIdx.lean ====
/-
  The reference's gather of the Gram matrices through the table of pairs, read at one element.

  The reference reads a `65536 × 16 × 16` array (one `16 × 16` matrix per batch element) at the 120 pairs
  `(row p, col p)`: the gather's start index for result column `p` is row `p` of the table, its two
  components clamped into `[0, 15]` (where they already are), and the slice is the whole batch axis.
  So result element `(b, p)` is the operand's element `(b, row p, col p)`.
-/
import proofs.«181531_j20555713478745_2_alg».proof.Proof.Gen.ReferenceIdeal
import proofs.«181531_j20555713478745_2_alg».proof.Proof.Pairs
import Idealize.ShloMosaic.Lib.ValueIdx

noncomputable section

open Idealize.ShloMosaic Idealize.SL.Sem
open Idealize.ShloMosaic.ValueIdx

namespace Cert.ReferenceIdeal.GatherIdx

variable [Facts₀]

/-- Entry `(p, 0)` of the table, read signed and clamped into `[0, 15]`, is the first token of pair `p`. -/
theorem table_row : ∀ p : Fin 120, min (Cert.Pairs.table (ix2 p 0)).toInt.toNat 15 = (Cert.Pairs.row p).val := by decide
/-- Entry `(p, 1)` of the table, read signed and clamped into `[0, 15]`, is the second token of pair `p`. -/
theorem table_col : ∀ p : Fin 120, min (Cert.Pairs.table (ix2 p 1)).toInt.toNat 15 = (Cert.Pairs.col p).val := by decide

/-- The operand's second axis is indexed. -/
theorem mem1 : (1 : Fin 3) ∈ gather_S65536x16x16_S120x2_S65536x120_0_12_n_n_12_1_6553611.startIndexMap := by
  show (1 : Fin 3) ∈ ([1, 2] : List (Fin 3)); decide
/-- The operand's third axis is indexed. -/
theorem mem2 : (2 : Fin 3) ∈ gather_S65536x16x16_S120x2_S65536x120_0_12_n_n_12_1_6553611.startIndexMap := by
  show (2 : Fin 3) ∈ ([1, 2] : List (Fin 3)); decide

/-- The slice for result element `(b, p)` starts, on the operand's second axis, at the first token of pair `p`. -/
theorem start1 (b : Fin 65536) (p : Fin 120) :
    gather_S65536x16x16_S120x2_S65536x120_0_12_n_n_12_1_6553611.start (ix2 b p) Cert.Pairs.table 1
      = (Cert.Pairs.row p).val := by
  unfold GatherDims.start
  rw [dif_pos mem1]
  have hsi : gather_S65536x16x16_S120x2_S65536x120_0_12_n_n_12_1_6553611.siIdx (ix2 b p)
      ⟨List.idxOf (1 : Fin 3) gather_S65536x16x16_S120x2_S65536x120_0_12_n_n_12_1_6553611.startIndexMap,
        List.idxOf_lt_length_iff.2 mem1⟩ = ix2 p 0 := by
    funext c; refine Fin.ext ?_
    match c with
    | ⟨0, _⟩ => rfl
    | ⟨1, _⟩ => rfl
  rw [hsi]
  exact table_row p

/-- The slice for result element `(b, p)` starts, on the operand's third axis, at the second token of pair `p`. -/
theorem start2 (b : Fin 65536) (p : Fin 120) :
    gather_S65536x16x16_S120x2_S65536x120_0_12_n_n_12_1_6553611.start (ix2 b p) Cert.Pairs.table 2
      = (Cert.Pairs.col p).val := by
  unfold GatherDims.start
  rw [dif_pos mem2]
  have hsi : gather_S65536x16x16_S120x2_S65536x120_0_12_n_n_12_1_6553611.siIdx (ix2 b p)
      ⟨List.idxOf (2 : Fin 3) gather_S65536x16x16_S120x2_S65536x120_0_12_n_n_12_1_6553611.startIndexMap,
        List.idxOf_lt_length_iff.2 mem2⟩ = ix2 p 1 := by
    funext c; refine Fin.ext ?_
    match c with
    | ⟨0, _⟩ => rfl
    | ⟨1, _⟩ => rfl
  rw [hsi]
  exact table_col p

/-- The operand's first axis is not indexed: the slice starts at `0` there. -/
theorem start0 (b : Fin 65536) (p : Fin 120) :
    gather_S65536x16x16_S120x2_S65536x120_0_12_n_n_12_1_6553611.start (ix2 b p) Cert.Pairs.table 0 = 0 := rfl

/-- No operand axis is a batching axis. -/
theorem batchCoord_zero (b : Fin 65536) (p : Fin 120) (a : Fin 3) :
    gather_S65536x16x16_S120x2_S65536x120_0_12_n_n_12_1_6553611.batchCoord (ix2 b p) a = 0 :=
  GatherDims.batchCoord_eq_zero _ _ _ List.not_mem_nil

/-- The operand's first axis is the one kept axis: its offset coordinate is the result's first coordinate. -/
theorem offCoord0 (b : Fin 65536) (p : Fin 120) :
    gather_S65536x16x16_S120x2_S65536x120_0_12_n_n_12_1_6553611.offCoord (ix2 b p) 0 = b.val := rfl
/-- The operand's second axis is collapsed: no offset coordinate. -/
theorem offCoord1 (b : Fin 65536) (p : Fin 120) :
    gather_S65536x16x16_S120x2_S65536x120_0_12_n_n_12_1_6553611.offCoord (ix2 b p) 1 = 0 := rfl
/-- The operand's third axis is collapsed: no offset coordinate. -/
theorem offCoord2 (b : Fin 65536) (p : Fin 120) :
    gather_S65536x16x16_S120x2_S65536x120_0_12_n_n_12_1_6553611.offCoord (ix2 b p) 2 = 0 := rfl

variable {α : Type}

/-- The gathered array at `(b, p)` is the operand at `(b, row p, col p)`. -/
theorem gather_table (x : S65536x16x16.Idx → α) (b : Fin 65536) (p : Fin 120) :
    Host.gather gather_S65536x16x16_S120x2_S65536x120_0_12_n_n_12_1_6553611 x Cert.Pairs.table (ix2 b p)
      = x (ix3 b (Cert.Pairs.row p) (Cert.Pairs.col p)) := by
  unfold Host.gather
  congr 1
  funext a
  refine Fin.ext ?_
  show gather_S65536x16x16_S120x2_S65536x120_0_12_n_n_12_1_6553611.start (ix2 b p) Cert.Pairs.table a
      + gather_S65536x16x16_S120x2_S65536x120_0_12_n_n_12_1_6553611.batchCoord (ix2 b p) a
      + gather_S65536x16x16_S120x2_S65536x120_0_12_n_n_12_1_6553611.offCoord (ix2 b p) a
    = (ix3 b (Cert.Pairs.row p) (Cert.Pairs.col p) a).val
  rw [batchCoord_zero b p a, Nat.add_zero]
  match a with
  | ⟨0, _⟩ =>
    show gather_S65536x16x16_S120x2_S65536x120_0_12_n_n_12_1_6553611.start (ix2 b p) Cert.Pairs.table 0
      + gather_S65536x16x16_S120x2_S65536x120_0_12_n_n_12_1_6553611.offCoord (ix2 b p) 0 = b.val
    rw [start0, offCoord0, Nat.zero_add]
  | ⟨1, _⟩ =>
    show gather_S65536x16x16_S120x2_S65536x120_0_12_n_n_12_1_6553611.start (ix2 b p) Cert.Pairs.table 1
      + gather_S65536x16x16_S120x2_S65536x120_0_12_n_n_12_1_6553611.offCoord (ix2 b p) 1 = (Cert.Pairs.row p).val
    rw [start1, offCoord1, Nat.add_zero]
  | ⟨2, _⟩ =>
    show gather_S65536x16x16_S120x2_S65536x120_0_12_n_n_12_1_6553611.start (ix2 b p) Cert.Pairs.table 2
      + gather_S65536x16x16_S120x2_S65536x120_0_12_n_n_12_1_6553611.offCoord (ix2 b p) 2 = (Cert.Pairs.col p).val
    rw [start2, offCoord2, Nat.add_zero]

end Cert.ReferenceIdeal.GatherIdx

end
-- ==== Proof.LibBatchDot.lean ====
/-
  A batched matrix product — one batch axis, each operand's rows against the other's rows over a shared last
  axis — read at an output index (b, m, n): the sum over the contracted coordinate k of left (b, m, k) times
  right (b, n, k). Stated for any dimension record with those axis lists and any extents.
-/
import Idealize.ShloMosaic.PureOps.Ideal.Laws
import Idealize.ShloMosaic.Lib.ValueIdx

noncomputable section

open scoped BigOperators

namespace Idealize.ShloMosaic.BatchDot

open Idealize.ShloMosaic Idealize.ShloMosaic.ValueIdx

variable {B M N K : Nat}

/-- The contraction sum of a product batched over the first axis and contracted over the last axis of both
    operands is the sum over the one contracted coordinate. -/
theorem contr_sum (d : DotDims ⟨3, ![B, M, K]⟩ ⟨3, ![B, N, K]⟩ ⟨3, ![B, M, N]⟩)
    (h1 : d.lhsContracting = [2]) (h2 : d.rhsContracting = [2]) (h3 : d.lhsNonContracting = [1])
    (h4 : d.rhsNonContracting = [1]) (h5 : d.lhsBatch = [0]) (h6 : d.rhsBatch = [0])
    (l : (⟨3, ![B, M, K]⟩ : Shape).Idx → EReal) (r : (⟨3, ![B, N, K]⟩ : Shape).Idx → EReal)
    (j : (⟨3, ![B, M, N]⟩ : Shape).Idx) :
    ∑ k : d.contr.Idx, l (d.lhsIdx j k) * r (d.rhsIdx j k) = ∑ k : Fin K, l (ix3 (j 0) (j 1) k) * r (ix3 (j 0) (j 2) k) := by
  obtain ⟨lc, rc, ln, rn, lb, rb, wf⟩ := d
  dsimp only at h1 h2 h3 h4 h5 h6
  subst h1 h2 h3 h4 h5 h6
  generalize hd : (⟨[2], [2], [1], [1], [0], [0], wf⟩ : DotDims ⟨3, ![B, M, K]⟩ ⟨3, ![B, N, K]⟩ ⟨3, ![B, M, N]⟩) = d
  have h1 : d.lhsContracting = [2] := by rw [← hd]
  have h2 : d.rhsContracting = [2] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx j ((contrEquiv1 d K hr hs).symm k) = ix3 (j 0) (j 1) k := funext fun a => Fin.ext (by
    match a with
    | ⟨0, _⟩ =>
      subst hd
      unfold DotDims.lhsIdx
      rw [dif_pos (by exact List.mem_singleton.mpr rfl)]
      rfl
    | ⟨1, _⟩ =>
      subst hd
      unfold DotDims.lhsIdx
      rw [dif_neg (fun hm => Nat.one_ne_zero (congrArg Fin.val (List.mem_singleton.mp hm))), dif_pos (by exact List.mem_singleton.mpr rfl)]
      rfl
    | ⟨2, _⟩ => exact (d.lhsIdx_val_of_single h1 j _).trans hk)
  have er : d.rhsIdx j ((contrEquiv1 d K hr hs).symm k) = ix3 (j 0) (j 2) k := funext fun a => Fin.ext (by
    match a with
    | ⟨0, _⟩ =>
      subst hd
      unfold DotDims.rhsIdx
      rw [dif_pos (by exact List.mem_singleton.mpr rfl)]
      rfl
    | ⟨1, _⟩ =>
      subst hd
      unfold DotDims.rhsIdx
      rw [dif_neg (fun hm => Nat.one_ne_zero (congrArg Fin.val (List.mem_singleton.mp hm))), dif_pos (by exact List.mem_singleton.mpr rfl)]
      rfl
    | ⟨2, _⟩ => exact (d.rhsIdx_val_of_single h2 j _).trans hk)
  exact congrArg₂ (· * ·) (congrArg l el) (congrArg r er)

/-- A host product batched over the first axis and contracted over the last axis of both operands, at the
    exact reals, read at an index. -/
theorem dotGeneral_batch {φ₁ φ₂ : FTy} (d : DotDims ⟨3, ![B, M, K]⟩ ⟨3, ![B, N, K]⟩ ⟨3, ![B, M, N]⟩)
    (h1 : d.lhsContracting = [2]) (h2 : d.rhsContracting = [2]) (h3 : d.lhsNonContracting = [1])
    (h4 : d.rhsNonContracting = [1]) (h5 : d.lhsBatch = [0]) (h6 : d.rhsBatch = [0])
    (prec : Option ContractPrecision) (sched : HostSchedule)
    (l : FVec Ideal ⟨3, ![B, M, K]⟩ φ₁) (r : FVec Ideal ⟨3, ![B, N, K]⟩ φ₂) (j : (⟨3, ![B, M, N]⟩ : Shape).Idx) :
    FloatOps.dotGeneral d prec sched l r j = ∑ k : Fin K, l (ix3 (j 0) (j 1) k) * r (ix3 (j 0) (j 2) k) :=
  (Ideal.dotGeneral_apply d prec sched l r j).trans (contr_sum d h1 h2 h3 h4 h5 h6 l r j)

end Idealize.ShloMosaic.BatchDot

end
-- ==== Proof.RefValue.lean ====
/-
  The reference program's result, read one entry at a time, is the network of Spec.lean applied to the batch
  element. At batch element `b`: each token's norm is the square root of the sum of its features' squares
  (`nrm_apply`), each feature is divided by its token's norm clipped below (`den_apply`, `unitv_apply`), the
  batched product of the normalised tokens with themselves is the batch element's Gram matrix (`gramv_apply`),
  the gather through the pair table reads its entry at pair `p`'s two tokens (`feat_apply`), and the two affine
  layers with the rectifier between them are sums over the pairs and over the hidden units (`hid_apply`,
  `refOut_apply`). So the whole result array is the network's (`refOut_eq_net`).
-/
import proofs.«181531_j20555713478745_2_alg».proof.Proof.RefRead
import proofs.«181531_j20555713478745_2_alg».proof.Proof.RefGatherIdx
import proofs.«181531_j20555713478745_2_alg».proof.Proof.Spec
import proofs.«181531_j20555713478745_2_alg».proof.Proof.Net
import proofs.«181531_j20555713478745_2_alg».proof.Proof.LibLayout3
import proofs.«181531_j20555713478745_2_alg».proof.Proof.LibPlainDot
import proofs.«181531_j20555713478745_2_alg».proof.Proof.LibBatchDot

noncomputable section

open scoped BigOperators

namespace Cert.ReferenceIdeal.RefValue

open Cert.ReferenceIdeal Cert.ReferenceIdeal.Gen Cert.ReferenceIdeal.RefRead Idealize.ShloMosaic Idealize.ShloMosaic.ValueIdx

/-- A scalar constant repeated over a shape, read anywhere: the extended real its bit pattern denotes. -/
theorem splat_apply {t : Shape} (h : S_.BroadcastsInDim t ![]) (c : BitVec 32) (j : t.Idx) :
    broadcastInDim t ![] h (constant (F := Ideal) S_ .f32 c) j = Ideal.ofBits .f32 c := rfl

/-- A token's norm at batch element `b`, token `k`: the square root of the sum of the squares of its features. -/
theorem nrm_apply (x0 : FVec Ideal S65536x16x128 .f32) (b : Fin 65536) (k : Fin 16) (u : Fin 1) :
    nrm x0 (ix3 b k u) = Ideal.sqrt (∑ e : Fin 128, x0 (ix3 b k e) * x0 (ix3 b k e)) := by
  have hR : Shape.Reduces S65536x16x128 [2] S65536x16 := by decide
  unfold nrm Host.sqrt
  refine Eq.trans (Ideal.hostUnary_sqrt_def _) (congrArg Ideal.sqrt ?_)
  refine (broadcastInDim_apply _ _ _ (ix3 b k u) (ix2 b k) (fun a => by
    match a with
    | ⟨0, _⟩ => rfl
    | ⟨1, _⟩ => rfl)).trans ?_
  unfold Host.reduceAdd
  rw [Ideal.hostReduceAdd_def, constant_apply]
  refine (Cert.Layout3.host_sum_last (mulf x0 x0) reducesTo_S65536x16x128_S65536x16_d2 hR _ b k).trans ?_
  rw [Ideal.ofBits_zero_f32, zero_add]
  exact Finset.sum_congr rfl fun e _ => mulf_apply x0 x0 _

/-- A feature's divisor: its token's norm, clipped below at the constant. -/
theorem den_apply (x0 : FVec Ideal S65536x16x128 .f32) (b : Fin 65536) (k : Fin 16) (d : Fin 128) :
    den x0 (ix3 b k d) = max (Ideal.sqrt (∑ e : Fin 128, x0 (ix3 b k e) * x0 (ix3 b k e))) Cert.Spec.eps := by
  unfold den Cert.Spec.eps
  refine (broadcastInDim_apply _ _ _ (ix3 b k d) (ix3 b k (0 : Fin 1)) (fun a => by
    match a with
    | ⟨0, _⟩ => rfl
    | ⟨1, _⟩ => rfl
    | ⟨2, _⟩ => rfl)).trans ?_
  rw [maximumf_apply, nrm_apply, splat_apply]

/-- The normalised tokens of batch element `b` are the specification's, of that batch element's tokens. -/
theorem unitv_apply (x0 : FVec Ideal S65536x16x128 .f32) (b : Fin 65536) (k : Fin 16) (d : Fin 128) :
    unitv x0 (ix3 b k d) = Cert.Spec.unit (fun k d => x0 (ix3 b k d)) k d := by
  unfold unitv Host.divf Cert.Spec.unit
  refine Eq.trans (Ideal.hostDivf_def _ _) ?_
  rw [den_apply]

/-- The batched product at `(b, i, j)` is batch element `b`'s Gram entry of tokens `i` and `j`. -/
theorem gramv_apply (x0 : FVec Ideal S65536x16x128 .f32) (b : Fin 65536) (i j : Fin 16) :
    gramv x0 (ix3 b i j) = Cert.Spec.gram (fun k d => x0 (ix3 b k d)) i j := by
  unfold gramv
  refine (BatchDot.dotGeneral_batch dot_S65536x16x128_S65536x16x128_S65536x16x16_2_2_1_1_0_0 rfl rfl rfl rfl rfl rfl
    none .single (unitv x0) (unitv x0) (ix3 b i j)).trans ?_
  unfold Cert.Spec.gram
  refine Finset.sum_congr rfl fun d _ => ?_
  show unitv x0 (ix3 b i d) * unitv x0 (ix3 b j d) = _
  rw [unitv_apply, unitv_apply]

/-- The gathered feature of batch element `b` at pair `p` is the Gram entry of the pair's two tokens. -/
theorem feat_apply (x0 : FVec Ideal S65536x16x128 .f32) (b : Fin 65536) (p : Fin 120) :
    feat Cert.Pairs.table x0 (ix2 b p)
      = Cert.Spec.gram (fun k d => x0 (ix3 b k d)) (Cert.Pairs.row p) (Cert.Pairs.col p) :=
  (Cert.ReferenceIdeal.GatherIdx.gather_table (gramv x0) b p).trans (gramv_apply x0 b _ _)

/-- A bias vector repeated over the batch, read at `(b, h)`: its entry `h`. -/
theorem bias_apply (x : FVec Ideal S128 .f32) (b : Fin 65536) (h : Fin 128) :
    broadcastInDim S65536x128 ![0, 1] bcast_S1x128_S65536x128_0_1 (broadcastInDim S1x128 ![1] bcast_S128_S1x128_1 x) (ix2 b h)
      = x (ix1 h) := by
  refine (broadcastInDim_apply _ _ _ (ix2 b h) (ix2 (0 : Fin 1) h) (fun a => by
    match a with
    | ⟨0, _⟩ => rfl
    | ⟨1, _⟩ => rfl)).trans ?_
  exact broadcastInDim_apply _ _ _ (ix2 (0 : Fin 1) h) (ix1 h) (fun a => by
    match a with
    | ⟨0, _⟩ => rfl)

/-- The first layer at `(b, h)`: the sum over the pairs of Gram entry times weight, plus the bias, rectified. -/
theorem hid_apply (x0 : FVec Ideal S65536x16x128 .f32) (x1 : FVec Ideal S120x128 .f32) (x2 : FVec Ideal S128 .f32)
    (b : Fin 65536) (h : Fin 128) :
    hid Cert.Pairs.table x0 x1 x2 (ix2 b h)
      = max (Cert.Spec.prePairs (fun k d => x0 (ix3 b k d)) (fun p h => x1 (ix2 p h)) h + x2 (ix1 h)) 0 := by
  unfold hid
  rw [maximumf_apply, addf_apply, splat_apply, Ideal.ofBits_zero_f32, bias_apply]
  refine congrArg (max · 0) (congrArg (· + x2 (ix1 h)) ?_)
  refine (PlainDot.dotGeneral_plain dot_S65536x120_S120x128_S65536x128_1_0_0_1_n_n rfl rfl rfl rfl rfl rfl none .single
    (feat Cert.Pairs.table x0) x1 (ix2 b h)).trans ?_
  unfold Cert.Spec.prePairs
  refine Finset.sum_congr rfl fun p _ => ?_
  show feat Cert.Pairs.table x0 (ix2 b p) * x1 (ix2 p h) = _
  rw [feat_apply]

/-- The program's result at `(b, o)` is the specification's network applied to batch element `b`. -/
theorem refOut_apply (x0 : FVec Ideal S65536x16x128 .f32) (x1 : FVec Ideal S120x128 .f32) (x2 : FVec Ideal S128 .f32)
    (x3 : FVec Ideal S128x128 .f32) (x4 : FVec Ideal S128 .f32) (b : Fin 65536) (o : Fin 128) :
    refOut Cert.Pairs.table x0 x1 x2 x3 x4 (ix2 b o)
      = Cert.Spec.head (Cert.Spec.prePairs (fun k d => x0 (ix3 b k d)) (fun p h => x1 (ix2 p h)))
          (fun h => x2 (ix1 h)) (fun h o => x3 (ix2 h o)) (fun o => x4 (ix1 o)) o := by
  unfold refOut Cert.Spec.head
  rw [addf_apply, bias_apply]
  refine congrArg (· + x4 (ix1 o)) ?_
  refine (PlainDot.dotGeneral_plain dot_S65536x128_S128x128_S65536x128_1_0_0_1_n_n rfl rfl rfl rfl rfl rfl none .single
    (hid Cert.Pairs.table x0 x1 x2) x3 (ix2 b o)).trans ?_
  refine Finset.sum_congr rfl fun h _ => ?_
  show hid Cert.Pairs.table x0 x1 x2 (ix2 b h) * x3 (ix2 h o) = _
  rw [hid_apply]

/-- The program's whole result array is the network's. -/
theorem refOut_eq_net (x0 : FVec Ideal S65536x16x128 .f32) (x1 : FVec Ideal S120x128 .f32) (x2 : FVec Ideal S128 .f32)
    (x3 : FVec Ideal S128x128 .f32) (x4 : FVec Ideal S128 .f32) :
    refOut Cert.Pairs.table x0 x1 x2 x3 x4 = Cert.Spec.net x0 x1 x2 x3 x4 := by
  funext i
  obtain ⟨b, o, rfl⟩ : ∃ (b : Fin 65536) (o : Fin 128), i = ix2 b o := ⟨i 0, i 1, eq_ix2 i⟩
  rw [refOut_apply, Cert.Spec.net_apply]

end Cert.ReferenceIdeal.RefValue

end
-- ==== Proof.IdxRef.lean ====
/-
  The index table of the second program. It enumerates the positions of the strict upper triangle of a
  16 x 16 array in row-major order, by integer arithmetic on the flattened array of 256 entries:
  the mask `m k = 1` iff `k / 16 < k % 16`; its cumulative sum `c k` (how many positions up to `k` lie in
  the triangle); a count, for every `v < 120`, of the `k` with `c k = v`; the cumulative sum of the counts,
  which at `p` is the number of `k` with `c k ≤ p`, that is the flat position of the `(p + 1)`-st triangle
  entry; and that position's quotient and remainder by 16. The result is the common pair table.

  Each stage is identified with a closed form or a literal table. The two cumulative sums and the count are
  folds over all window positions, respectively all updates; each is first rewritten, step by step, into a
  fold over natural numbers, which is then evaluated.
-/
import proofs.«181531_j20555713478745_2_alg».proof.ReferenceIdeal
import proofs.«181531_j20555713478745_2_alg».proof.Proof.Pairs
import Idealize.ShloMosaic.Lib.Pipeline.Value
import Idealize.ShloMosaic.Lib.ValueIdx
import Idealize.ShloMosaic.Lib.IdealHost

noncomputable section

open Idealize.ShloMosaic Idealize.SL.Sem

namespace Cert.ReferenceIdeal.Idx

open Idealize.ShloMosaic.ValueIdx

/-! ## Closed forms of the stages -/

/-- The mask of the strict upper triangle at flat position `k`, as a 32-bit word. -/
def maskN (k : Nat) : BitVec 32 := if k / 16 < k % 16 then 1#32 else 0#32

/-- The number of triangle positions among the flat positions `0 … k`: the rows before row `k / 16` hold
    `15 + 14 + …` of them, and row `k / 16` holds those of its columns `k / 16 + 1 … k % 16`. -/
def cumN (k : Nat) : Nat := (k / 16) * (31 - k / 16) / 2 + (k % 16 - k / 16)

/-- For every `v < 120`, the number of flat positions `k` with `cumN k = v`. -/
def countsL : List Nat := [1, 1, 1, 1, 1, 1, 1, 1, 1, 1, 1, 1, 1, 1, 1, 3, 1, 1, 1, 1, 1, 1, 1, 1, 1, 1, 1, 1, 1, 4, 1, 1, 1, 1, 1, 1, 1, 1, 1, 1, 1, 1, 5, 1, 1, 1, 1, 1, 1, 1, 1, 1, 1, 1, 6, 1, 1, 1, 1, 1, 1, 1, 1, 1, 1, 7, 1, 1, 1, 1, 1, 1, 1, 1, 1, 8, 1, 1, 1, 1, 1, 1, 1, 1, 9, 1, 1, 1, 1, 1, 1, 1, 10, 1, 1, 1, 1, 1, 1, 11, 1, 1, 1, 1, 1, 12, 1, 1, 1, 1, 13, 1, 1, 1, 14, 1, 1, 15, 1, 16]

/-- The flat position of the `(p + 1)`-st triangle entry. -/
def flatL : List Nat := [1, 2, 3, 4, 5, 6, 7, 8, 9, 10, 11, 12, 13, 14, 15, 18, 19, 20, 21, 22, 23, 24, 25, 26, 27, 28, 29, 30, 31, 35, 36, 37, 38, 39, 40, 41, 42, 43, 44, 45, 46, 47, 52, 53, 54, 55, 56, 57, 58, 59, 60, 61, 62, 63, 69, 70, 71, 72, 73, 74, 75, 76, 77, 78, 79, 86, 87, 88, 89, 90, 91, 92, 93, 94, 95, 103, 104, 105, 106, 107, 108, 109, 110, 111, 120, 121, 122, 123, 124, 125, 126, 127, 137, 138, 139, 140, 141, 142, 143, 154, 155, 156, 157, 158, 159, 171, 172, 173, 174, 175, 188, 189, 190, 191, 205, 206, 207, 222, 223, 239]

/-- The sign of a word: `0`, `-1` or `1`. -/
def signS (x : BitVec 32) : BitVec 32 := if x = 0 then 0 else if x.msb then -1 else 1

/-- Division rounding down, from the division rounding to zero: one less when the signs differ and the
    division is not exact. -/
def floorDivS (x y : BitVec 32) : BitVec 32 :=
  Scalar.select (IntOp.andi (IntOp.cmpi .ne (signS x) (signS y)) (IntOp.cmpi .ne (IntOp.remsi .host x y) 0#32))
    (IntOp.subi (IntOp.divsi .host x y) 1#32) (IntOp.divsi .host x y)

/-- The divisor of a remainder, a zero divisor replaced by one. -/
def safeS (y : BitVec 32) : BitVec 32 := Scalar.select (IntOp.cmpi .eq y 0#32) 1#32 y

/-- The remainder with the divisor's sign, from the remainder with the dividend's sign. -/
def remS (x y : BitVec 32) : BitVec 32 :=
  Scalar.select
    (IntOp.andi (IntOp.cmpi .ne (IntOp.cmpi .slt (IntOp.remsi .host x (safeS y)) 0#32) (IntOp.cmpi .slt (safeS y) 0#32))
      (IntOp.cmpi .ne (IntOp.remsi .host x (safeS y)) 0#32))
    (IntOp.addi (IntOp.remsi .host x (safeS y)) (safeS y)) (IntOp.remsi .host x (safeS y))

/-- A negative index counted from the end of an axis of extent `n`. -/
def wrapS (n x : BitVec 32) : BitVec 32 := Scalar.select (IntOp.cmpi .slt x 0#32) (IntOp.addi x n) x

/-- A lower bound of zero. -/
def clipS (x : BitVec 32) : BitVec 32 := IntOp.maxsi 0#32 x

/-- The integer mask: `1` where the row index is below the column index. -/
def maskI : IVec S16x16 1 := fun i =>
  Scalar.select (cmpi .sge (addi (iotaInDim S16x16 32 0) (broadcastInDim S16x16 ![] (by decide) (constantI S_ 32 0#32)))
    (iotaInDim S16x16 32 1) i) 0#1 1#1

set_option maxRecDepth 100000 in
/-- The flattened mask, widened to 32 bits, position by position. -/
theorem mask_lit : ∀ k : Fin 256, extui 32 (shapeCast S256 maskI (by decide)) (by decide) (ix1 k) = maskN k.val := by
  decide +kernel

theorem symm256 : ∀ n : Fin (⟨1, ![256]⟩ : Shape).numel, (((⟨1, ![256]⟩ : Shape).rowMajor.symm n) 0).val = n.val := by decide +kernel

/-- A cumulative sum over 256 entries, written as a window of 256 positions over the array padded by 255 zeros in front,
    adds, at entry `k`, the entries whose position `k + n - 255` is not negative. -/
theorem cum256_fold (xN : Nat → BitVec 32) (h : S256.ReduceWindows (![256] : Fin 1 → Nat) ![1] ![255] ![0] S256) (hu : 0 < S_.numel) (k : Fin 256) :
    Host.reduceWindow (s := S256) (t := S256) (u := S_) IntOp.addi ![256] ![1] ![255] ![0] (fun i => xN (i 0).val) (fun _ => 0#32) h hu (ix1 k)
      = (List.finRange (⟨1, ![256]⟩ : Shape).numel).foldl (fun r n => r + (if 255 ≤ k.val + n.val then xN (k.val + n.val - 255) else 0#32)) 0#32 := by
  unfold Host.reduceWindow
  simp only []
  congr 1
  funext r n
  have hs := symm256 n
  have hn : n.val < 256 := n.isLt
  have hk : k.val < 256 := k.isLt
  show r + _ = r + _
  congr 1
  have e1 : ∀ a : Fin 1, (ix1 k (Fin.cast (rfl : S256.rank = S256.rank) a)).val * (![1] : Fin 1 → Nat) a
      + ((⟨1, ![256]⟩ : Shape).rowMajor.symm n a).val = k.val + n.val := by
    intro a
    match a with
    | ⟨0, _⟩ => show k.val * 1 + _ = _; rw [Nat.mul_one]; exact congrArg _ hs
  by_cases hc : 255 ≤ k.val + n.val
  · rw [if_pos hc, dif_pos]
    · exact congrArg xN (by rw [e1 0]; rfl)
    · intro a
      rw [e1 a]
      match a with
      | ⟨0, _⟩ => exact ⟨hc, by show k.val + n.val - 255 < 256; omega⟩
  · rw [if_neg hc, dif_neg]
    intro hall
    have h0 := (hall 0).1
    rw [e1 0] at h0
    exact hc h0

set_option maxRecDepth 100000 in
/-- The cumulative sum of the mask is the closed count. -/
theorem cum_cheap : ∀ k : Fin 256, (List.finRange (⟨1, ![256]⟩ : Shape).numel).foldl
    (fun r n => r + (if 255 ≤ k.val + n.val then maskN (k.val + n.val - 255) else 0#32)) 0#32 = BitVec.ofNat 32 (cumN k.val) := by
  decide +kernel

set_option maxRecDepth 100000 in
/-- The counts are not negative, so neither the lower bound nor the wrap-around changes them. -/
theorem wrap_lit : ∀ k : Fin 256, wrapS 120#32 (clipS (BitVec.ofNat 32 (cumN k.val))) = BitVec.ofNat 32 (cumN k.val) := by
  decide +kernel

/-- The scatter of the count: one index component per update, into the one axis of the operand. -/
def scat : ScatterDims S120 S256x1 S256 where
  updateWindowDims := []
  insertedWindowDims := [0]
  scatterDimsToOperandDims := [0]
  indexVectorDim := 1
  wf := by decide

/-- A scatter read at one entry: only the updates that land on the entry matter, so the fold over the updates can
    be run on that entry alone. -/
theorem scatter_apply_fold {α : Type} {s si u : Shape} {w : Nat} (d : ScatterDims s si u) (f : α → α → α)
    (x : s.Idx → α) (idx : IVec si w) (upd : u.Idx → α) (i' : s.Idx) :
    Host.scatter d f x idx upd i' =
      (List.finRange u.numel).foldl (fun acc n =>
        (d.resultIdx? (u.rowMajor.symm n) idx).elim acc
          (fun i => if i' = i then f acc (upd (u.rowMajor.symm n)) else acc)) (x i') := by
  unfold Host.scatter
  generalize List.finRange u.numel = l
  induction l generalizing x with
  | nil => rfl
  | cons n l ih =>
    rw [List.foldl_cons, List.foldl_cons, ih]
    congr 1
    cases hres : d.resultIdx? (u.rowMajor.symm n) idx with
    | none => rfl
    | some i =>
      show (if i' = i then f (x i) (upd (u.rowMajor.symm n)) else x i')
        = (if i' = i then f (x i') (upd (u.rowMajor.symm n)) else x i')
      by_cases e : i' = i
      · rw [if_pos e, if_pos e, e]
      · rw [if_neg e, if_neg e]

/-- Where update `n` lands when its scatter index is the count `cumN n`: on entry `cumN n` if that is below 120,
    nowhere otherwise. -/
def landsOn (n : Nat) : Option S120.Idx := if h : cumN n < 120 then some (ix1 ⟨cumN n, h⟩) else none

set_option maxRecDepth 100000 in
theorem resultIdx_lit : ∀ n : Fin S256.numel,
    scat.resultIdx? (S256.rowMajor.symm n) (fun i : S256x1.Idx => BitVec.ofNat 32 (cumN (i 0).val)) = landsOn n.val := by
  decide +kernel

set_option maxRecDepth 100000 in
/-- Counting, for entry `p`, the updates that land on it. -/
theorem counts_cheap : ∀ p : Fin 120, (List.finRange S256.numel).foldl
    (fun acc n => (landsOn n.val).elim acc (fun i => if ix1 p = i then IntOp.addi acc 1#32 else acc)) 0#32
      = BitVec.ofNat 32 (countsL.getD p.val 0) := by
  decide +kernel

theorem symm120 : ∀ n : Fin (⟨1, ![120]⟩ : Shape).numel, (((⟨1, ![120]⟩ : Shape).rowMajor.symm n) 0).val = n.val := by decide +kernel

/-- A cumulative sum over 120 entries, written as a window of 120 positions over the array padded by 119 zeros in front,
    adds, at entry `k`, the entries whose position `k + n - 119` is not negative. -/
theorem cum120_fold (xN : Nat → BitVec 32) (h : S120.ReduceWindows (![120] : Fin 1 → Nat) ![1] ![119] ![0] S120) (hu : 0 < S_.numel) (k : Fin 120) :
    Host.reduceWindow (s := S120) (t := S120) (u := S_) IntOp.addi ![120] ![1] ![119] ![0] (fun i => xN (i 0).val) (fun _ => 0#32) h hu (ix1 k)
      = (List.finRange (⟨1, ![120]⟩ : Shape).numel).foldl (fun r n => r + (if 119 ≤ k.val + n.val then xN (k.val + n.val - 119) else 0#32)) 0#32 := by
  unfold Host.reduceWindow
  simp only []
  congr 1
  funext r n
  have hs := symm120 n
  have hn : n.val < 120 := n.isLt
  have hk : k.val < 120 := k.isLt
  show r + _ = r + _
  congr 1
  have e1 : ∀ a : Fin 1, (ix1 k (Fin.cast (rfl : S120.rank = S120.rank) a)).val * (![1] : Fin 1 → Nat) a
      + ((⟨1, ![120]⟩ : Shape).rowMajor.symm n a).val = k.val + n.val := by
    intro a
    match a with
    | ⟨0, _⟩ => show k.val * 1 + _ = _; rw [Nat.mul_one]; exact congrArg _ hs
  by_cases hc : 119 ≤ k.val + n.val
  · rw [if_pos hc, dif_pos]
    · exact congrArg xN (by rw [e1 0]; rfl)
    · intro a
      rw [e1 a]
      match a with
      | ⟨0, _⟩ => exact ⟨hc, by show k.val + n.val - 119 < 120; omega⟩
  · rw [if_neg hc, dif_neg]
    intro hall
    have h0 := (hall 0).1
    rw [e1 0] at h0
    exact hc h0

set_option maxRecDepth 100000 in
/-- The cumulative sum of the counts is the table of flat positions. -/
theorem flat_cheap : ∀ k : Fin 120, (List.finRange (⟨1, ![120]⟩ : Shape).numel).foldl
    (fun r n => r + (if 119 ≤ k.val + n.val then (fun m => BitVec.ofNat 32 (countsL.getD m 0)) (k.val + n.val - 119) else 0#32)) 0#32
      = BitVec.ofNat 32 (flatL.getD k.val 0) := by
  decide +kernel

set_option maxRecDepth 100000 in
/-- The flat position's row: its quotient by 16, reduced modulo 16 and wrapped (neither changes it). -/
theorem row_lit : ∀ p : Fin 120, wrapS 16#32 (remS (floorDivS (BitVec.ofNat 32 (flatL.getD p.val 0)) 16#32) 16#32)
    = BitVec.ofNat 32 (Cert.Pairs.rowL.getD p.val 0) := by
  decide +kernel

set_option maxRecDepth 100000 in
/-- The flat position's column: its remainder modulo 16. -/
theorem col_lit : ∀ p : Fin 120, wrapS 16#32 (remS (floorDivS (BitVec.ofNat 32 (flatL.getD p.val 0)) 1#32) 16#32)
    = BitVec.ofNat 32 (Cert.Pairs.colL.getD p.val 0) := by
  decide +kernel

/-! ## The values, one per operation, in program order -/

variable [Facts]
open Facts₀ Facts

def cst_0 : FVec Ideal S_ .f32 := constant S_ .f32 0x3F800000#32
def v6 : FVec Ideal S16x16 .f32 := (broadcastInDim S16x16 ![] bcast_S_S16x16) cst_0
def call1_v0 : IVec S16x16 32 := iotaInDim S16x16 32 0
def call1_c : IVec S_ 32 := constantI S_ 32 0#32
def call1_v1 : IVec S16x16 32 := (broadcastInDim S16x16 ![] bcast_S_S16x16) call1_c
def call1_v2 : IVec S16x16 32 := addi call1_v0 call1_v1
def call1_v3 : IVec S16x16 32 := iotaInDim S16x16 32 1
def call1_v4 : IVec S16x16 1 := (cmpi .sge) call1_v2 call1_v3
def call1_cst : FVec Ideal S_ .f32 := constant S_ .f32 0x00000000#32
def call1_v5 : FVec Ideal S16x16 .f32 := (broadcastInDim S16x16 ![] bcast_S_S16x16) call1_cst
def v7 : FVec Ideal S16x16 .f32 := select call1_v4 call1_v5 v6
def cst_1 : FVec Ideal S_ .f32 := constant S_ .f32 0x00000000#32
def v8 : FVec Ideal S16x16 .f32 := (broadcastInDim S16x16 ![] bcast_S_S16x16) cst_1
def v9 : IVec S16x16 1 := (cmpf .une) v7 v8
def call2_v0 : IVec S256 1 := shapeCast S256 v9 shapeCasts_S16x16_S256
def call2_v1 : IVec S256 32 := (extui 32 · natLt_1_32) call2_v0
def call2_call0_c : IVec S_ 32 := constantI S_ 32 0#32
def call2_call0_v0 : IVec S_ 32 := (broadcastInDim S_ ![] bcast_S_S_) call2_call0_c
def v10 : IVec S256 32 := (fun x v => Host.reduceWindow IntOp.addi ![256] ![1] ![255] ![0] x v reduceWindows_S256_S256_w256s1p255_0 h_S_) call2_v1 call2_call0_v0
def c : IVec S_ 32 := constantI S_ 32 0#32
def v11 : IVec S120 32 := (broadcastInDim S120 ![] bcast_S_S120) c
def c_2 : IVec S_ 32 := constantI S_ 32 0#32
def call3_v0 : IVec S_ 32 := id c_2
def call3_v1 : IVec S256 32 := (broadcastInDim S256 ![] bcast_S_S256) call3_v0
def v12 : IVec S256 32 := maxsi call3_v1 v10
def c_3 : IVec S_ 32 := constantI S_ 32 0#32
def v13 : IVec S256 32 := (broadcastInDim S256 ![] bcast_S_S256) c_3
def v14 : IVec S256 1 := (cmpi .slt) v12 v13
def c_4 : IVec S_ 32 := constantI S_ 32 120#32
def v15 : IVec S256 32 := (broadcastInDim S256 ![] bcast_S_S256) c_4
def v16 : IVec S256 32 := addi v12 v15
def v17 : IVec S256 32 := select v14 v16 v12
def v18 : IVec S256x1 32 := (broadcastInDim S256x1 ![0] bcast_S256_S256x1_0) v17
def c_5 : IVec S_ 32 := constantI S_ 32 1#32
def v19 : IVec S256 32 := (broadcastInDim S256 ![] bcast_S_S256) c_5
def v20 : IVec S120 32 := (fun x i u => Host.scatter scatter_S120_S256x1_S256_n_0_0_1 IntOp.addi x i u) v11 v18 v19
def call4_call0_c : IVec S_ 32 := constantI S_ 32 0#32
def call4_call0_v0 : IVec S_ 32 := (broadcastInDim S_ ![] bcast_S_S_) call4_call0_c
def v21 : IVec S120 32 := (fun x v => Host.reduceWindow IntOp.addi ![120] ![1] ![119] ![0] x v reduceWindows_S120_S120_w120s1p119_0 h_S_) v20 call4_call0_v0
def c_6 : IVec S_ 32 := constantI S_ 32 16#32
def call5_v0 : IVec S120 32 := (broadcastInDim S120 ![] bcast_S_S120) c_6
def call5_v1 : IVec S120 32 := Host.divsi v21 call5_v0
def call5_v2 : IVec S120 32 := signi v21
def call5_v3 : IVec S_ 32 := signi c_6
def call5_v4 : IVec S120 32 := (broadcastInDim S120 ![] bcast_S_S120) call5_v3
def call5_v5 : IVec S120 1 := (cmpi .ne) call5_v2 call5_v4
def call5_v6 : IVec S120 32 := (broadcastInDim S120 ![] bcast_S_S120) c_6
def call5_v7 : IVec S120 32 := Host.remsi v21 call5_v6
def call5_c : IVec S_ 32 := constantI S_ 32 0#32
def call5_v8 : IVec S120 32 := (broadcastInDim S120 ![] bcast_S_S120) call5_c
def call5_v9 : IVec S120 1 := (cmpi .ne) call5_v7 call5_v8
def call5_v10 : IVec S120 1 := andi call5_v5 call5_v9
def call5_c_0 : IVec S_ 32 := constantI S_ 32 1#32
def call5_v11 : IVec S120 32 := (broadcastInDim S120 ![] bcast_S_S120) call5_c_0
def call5_v12 : IVec S120 32 := subi call5_v1 call5_v11
def v22 : IVec S120 32 := select call5_v10 call5_v12 call5_v1
def c_7 : IVec S_ 32 := constantI S_ 32 16#32
def call6_v0 : IVec S_ 32 := id c_7
def call6_c : IVec S_ 32 := constantI S_ 32 0#32
def call6_v1 : IVec S_ 1 := (cmpi .eq) call6_v0 call6_c
def call6_c_0 : IVec S_ 32 := constantI S_ 32 1#32
def call6_v2 : IVec S_ 32 := select call6_v1 call6_c_0 call6_v0
def call6_v3 : IVec S120 32 := (broadcastInDim S120 ![] bcast_S_S120) call6_v2
def call6_v4 : IVec S120 32 := Host.remsi v22 call6_v3
def call6_c_1 : IVec S_ 32 := constantI S_ 32 0#32
def call6_v5 : IVec S120 32 := (broadcastInDim S120 ![] bcast_S_S120) call6_c_1
def call6_v6 : IVec S120 1 := (cmpi .ne) call6_v4 call6_v5
def call6_c_2 : IVec S_ 32 := constantI S_ 32 0#32
def call6_v7 : IVec S120 32 := (broadcastInDim S120 ![] bcast_S_S120) call6_c_2
def call6_v8 : IVec S120 1 := (cmpi .slt) call6_v4 call6_v7
def call6_c_3 : IVec S_ 32 := constantI S_ 32 0#32
def call6_v9 : IVec S_ 1 := (cmpi .slt) call6_v2 call6_c_3
def call6_v10 : IVec S120 1 := (broadcastInDim S120 ![] bcast_S_S120) call6_v9
def call6_v11 : IVec S120 1 := (cmpi .ne) call6_v8 call6_v10
def call6_v12 : IVec S120 1 := andi call6_v11 call6_v6
def call6_v13 : IVec S120 32 := (broadcastInDim S120 ![] bcast_S_S120) call6_v2
def call6_v14 : IVec S120 32 := addi call6_v4 call6_v13
def v23 : IVec S120 32 := select call6_v12 call6_v14 call6_v4
def c_8 : IVec S_ 32 := constantI S_ 32 1#32
def call7_v0 : IVec S120 32 := (broadcastInDim S120 ![] bcast_S_S120) c_8
def call7_v1 : IVec S120 32 := Host.divsi v21 call7_v0
def call7_v2 : IVec S120 32 := signi v21
def call7_v3 : IVec S_ 32 := signi c_8
def call7_v4 : IVec S120 32 := (broadcastInDim S120 ![] bcast_S_S120) call7_v3
def call7_v5 : IVec S120 1 := (cmpi .ne) call7_v2 call7_v4
def call7_v6 : IVec S120 32 := (broadcastInDim S120 ![] bcast_S_S120) c_8
def call7_v7 : IVec S120 32 := Host.remsi v21 call7_v6
def call7_c : IVec S_ 32 := constantI S_ 32 0#32
def call7_v8 : IVec S120 32 := (broadcastInDim S120 ![] bcast_S_S120) call7_c
def call7_v9 : IVec S120 1 := (cmpi .ne) call7_v7 call7_v8
def call7_v10 : IVec S120 1 := andi call7_v5 call7_v9
def call7_c_0 : IVec S_ 32 := constantI S_ 32 1#32
def call7_v11 : IVec S120 32 := (broadcastInDim S120 ![] bcast_S_S120) call7_c_0
def call7_v12 : IVec S120 32 := subi call7_v1 call7_v11
def v24 : IVec S120 32 := select call7_v10 call7_v12 call7_v1
def c_9 : IVec S_ 32 := constantI S_ 32 16#32
def call8_v0 : IVec S_ 32 := id c_9
def call8_c : IVec S_ 32 := constantI S_ 32 0#32
def call8_v1 : IVec S_ 1 := (cmpi .eq) call8_v0 call8_c
def call8_c_0 : IVec S_ 32 := constantI S_ 32 1#32
def call8_v2 : IVec S_ 32 := select call8_v1 call8_c_0 call8_v0
def call8_v3 : IVec S120 32 := (broadcastInDim S120 ![] bcast_S_S120) call8_v2
def call8_v4 : IVec S120 32 := Host.remsi v24 call8_v3
def call8_c_1 : IVec S_ 32 := constantI S_ 32 0#32
def call8_v5 : IVec S120 32 := (broadcastInDim S120 ![] bcast_S_S120) call8_c_1
def call8_v6 : IVec S120 1 := (cmpi .ne) call8_v4 call8_v5
def call8_c_2 : IVec S_ 32 := constantI S_ 32 0#32
def call8_v7 : IVec S120 32 := (broadcastInDim S120 ![] bcast_S_S120) call8_c_2
def call8_v8 : IVec S120 1 := (cmpi .slt) call8_v4 call8_v7
def call8_c_3 : IVec S_ 32 := constantI S_ 32 0#32
def call8_v9 : IVec S_ 1 := (cmpi .slt) call8_v2 call8_c_3
def call8_v10 : IVec S120 1 := (broadcastInDim S120 ![] bcast_S_S120) call8_v9
def call8_v11 : IVec S120 1 := (cmpi .ne) call8_v8 call8_v10
def call8_v12 : IVec S120 1 := andi call8_v11 call8_v6
def call8_v13 : IVec S120 32 := (broadcastInDim S120 ![] bcast_S_S120) call8_v2
def call8_v14 : IVec S120 32 := addi call8_v4 call8_v13
def v25 : IVec S120 32 := select call8_v12 call8_v14 call8_v4
def c_10 : IVec S_ 32 := constantI S_ 32 0#32
def v26 : IVec S120 32 := (broadcastInDim S120 ![] bcast_S_S120) c_10
def v27 : IVec S120 1 := (cmpi .slt) v23 v26
def c_11 : IVec S_ 32 := constantI S_ 32 16#32
def v28 : IVec S120 32 := (broadcastInDim S120 ![] bcast_S_S120) c_11
def v29 : IVec S120 32 := addi v23 v28
def v30 : IVec S120 32 := select v27 v29 v23
def c_12 : IVec S_ 32 := constantI S_ 32 0#32
def v31 : IVec S120 32 := (broadcastInDim S120 ![] bcast_S_S120) c_12
def v32 : IVec S120 1 := (cmpi .slt) v25 v31
def c_13 : IVec S_ 32 := constantI S_ 32 16#32
def v33 : IVec S120 32 := (broadcastInDim S120 ![] bcast_S_S120) c_13
def v34 : IVec S120 32 := addi v25 v33
def v35 : IVec S120 32 := select v32 v34 v25
def v36 : IVec S120x1 32 := (broadcastInDim S120x1 ![0] bcast_S120_S120x1_0) v30
def v37 : IVec S120x1 32 := (broadcastInDim S120x1 ![0] bcast_S120_S120x1_0) v35
def v38 : IVec S120x2 32 := (fun a b => concatenate S120x2 1 [⟨S120x1, a⟩, ⟨S120x1, b⟩] concatenates_S120x1_S120x1_S120x2_d1) v36 v37

/-- The index table the second program gathers through. -/
def refIdx : IVec S120x2 32 := v38

/-! ## Their values -/

/-- The one step on extended reals: where the row index is at least the column index the ones are replaced by zeros,
    and the comparison with zero gives the integer mask back. -/
theorem v9_apply (i : S16x16.Idx) : v9 i = maskI i := by
  have h4 : Scalar.select (call1_v4 i) (0#1) (1#1) = maskI i := rfl
  rw [← h4]
  have h5 : call1_v5 i = (0 : EReal) := (broadcastInDim_scalar_apply _ _ _).trans Ideal.ofBits_zero_f32
  have h6 : v6 i = (1 : EReal) := (broadcastInDim_scalar_apply _ _ _).trans Ideal.ofBits_one_f32
  have h8 : v8 i = (0 : EReal) := (broadcastInDim_scalar_apply _ _ _).trans Ideal.ofBits_zero_f32
  show Ideal.cmp .une (Scalar.select (call1_v4 i) (call1_v5 i) (v6 i)) (v8 i) = Scalar.select (call1_v4 i) 0#1 1#1
  rw [h5, h6, h8]
  by_cases h : call1_v4 i = 1#1
  · rw [h, select_one, select_one]; simp [Ideal.cmp]
  · rw [eq_zero_of_ne_one h, select_zero, select_zero]; simp [Ideal.cmp]

theorem call2_v1_eq : call2_v1 = fun i => maskN (i 0).val := by
  funext i
  obtain ⟨k, rfl⟩ : ∃ k : Fin 256, i = ix1 k := ⟨i 0, eq_ix1 i⟩
  have h9 : v9 = maskI := funext v9_apply
  show extui 32 (shapeCast S256 v9 shapeCasts_S16x16_S256) natLt_1_32 (ix1 k) = _
  rw [h9]
  exact mask_lit k

theorem v10_apply (k : Fin 256) : v10 (ix1 k) = BitVec.ofNat 32 (cumN k.val) := by
  show Host.reduceWindow IntOp.addi ![256] ![1] ![255] ![0] call2_v1 call2_call0_v0
    reduceWindows_S256_S256_w256s1p255_0 h_S_ (ix1 k) = _
  rw [call2_v1_eq, show call2_call0_v0 = (fun _ => 0#32) from rfl, cum256_fold maskN]
  exact cum_cheap k

theorem v17_apply (k : Fin 256) : v17 (ix1 k) = BitVec.ofNat 32 (cumN k.val) := by
  have h : v17 (ix1 k) = wrapS 120#32 (clipS (v10 (ix1 k))) := rfl
  rw [h, v10_apply]
  exact wrap_lit k

theorem v18_eq : v18 = fun i => BitVec.ofNat 32 (cumN (i 0).val) := by
  funext i
  obtain ⟨a, b, rfl⟩ : ∃ (a : Fin 256) (b : Fin 1), i = ix2 a b := ⟨i 0, i 1, eq_ix2 i⟩
  have hb : v18 (ix2 a b) = v17 (ix1 a) :=
    broadcastInDim_apply _ _ _ _ (ix1 a) (fun c => match c with | ⟨0, _⟩ => rfl)
  rw [hb, v17_apply]

theorem v20_apply (p : Fin 120) : v20 (ix1 p) = BitVec.ofNat 32 (countsL.getD p.val 0) := by
  show Host.scatter scatter_S120_S256x1_S256_n_0_0_1 IntOp.addi v11 v18 v19 (ix1 p) = _
  rw [v18_eq, show v11 = (fun _ => 0#32) from rfl, show v19 = (fun _ => 1#32) from rfl,
    show scatter_S120_S256x1_S256_n_0_0_1 = scat from rfl, scatter_apply_fold]
  simp only [resultIdx_lit]
  exact counts_cheap p

theorem v20_eq : v20 = fun i => BitVec.ofNat 32 (countsL.getD (i 0).val 0) := by
  funext i
  obtain ⟨p, rfl⟩ : ∃ p : Fin 120, i = ix1 p := ⟨i 0, eq_ix1 i⟩
  exact v20_apply p

theorem v21_apply (p : Fin 120) : v21 (ix1 p) = BitVec.ofNat 32 (flatL.getD p.val 0) := by
  show Host.reduceWindow IntOp.addi ![120] ![1] ![119] ![0] v20 call4_call0_v0
    reduceWindows_S120_S120_w120s1p119_0 h_S_ (ix1 p) = _
  rw [v20_eq, show call4_call0_v0 = (fun _ => 0#32) from rfl,
    cum120_fold (fun m => BitVec.ofNat 32 (countsL.getD m 0))]
  exact flat_cheap p

theorem v30_apply (p : Fin 120) : v30 (ix1 p) = BitVec.ofNat 32 (Cert.Pairs.rowL.getD p.val 0) := by
  have h : v30 (ix1 p) = wrapS 16#32 (remS (floorDivS (v21 (ix1 p)) 16#32) 16#32) := rfl
  rw [h, v21_apply]
  exact row_lit p

theorem v35_apply (p : Fin 120) : v35 (ix1 p) = BitVec.ofNat 32 (Cert.Pairs.colL.getD p.val 0) := by
  have h : v35 (ix1 p) = wrapS 16#32 (remS (floorDivS (v21 (ix1 p)) 1#32) 16#32) := rfl
  rw [h, v21_apply]
  exact col_lit p

/-- A vector made into a column, read at row `p`. -/
theorem col_apply (x : IVec S120 32) (p : Fin 120) (q : Fin 1) :
    broadcastInDim S120x1 ![0] bcast_S120_S120x1_0 x (ix2 p q) = x (ix1 p) :=
  broadcastInDim_apply _ _ _ _ (ix1 p) (fun a => match a with | ⟨0, _⟩ => rfl)

theorem refIdx_apply_zero (p : Fin 120) :
    refIdx (ix2 p (0 : Fin 2)) = BitVec.ofNat 32 (Cert.Pairs.rowL.getD p.val 0) := by
  have h := concatenate_pair_apply_left (t := S120x2) (s₁ := S120x1) (s₂ := S120x1) 1 v36 v37
    concatenates_S120x1_S120x1_S120x2_d1 (ix2 p (0 : Fin 2)) rfl (ix2 p (0 : Fin 1))
    (fun b => match b with | ⟨0, _⟩ => rfl | ⟨1, _⟩ => rfl)
  refine h.trans ?_
  rw [v36, col_apply, v30_apply]

theorem refIdx_apply_one (p : Fin 120) :
    refIdx (ix2 p (1 : Fin 2)) = BitVec.ofNat 32 (Cert.Pairs.colL.getD p.val 0) := by
  have h := concatenate_pair_apply_right (t := S120x2) (s₁ := S120x1) (s₂ := S120x1) 1 v36 v37
    concatenates_S120x1_S120x1_S120x2_d1 (ix2 p (1 : Fin 2)) rfl rfl (ix2 p (0 : Fin 1))
    (fun b => match b with | ⟨0, _⟩ => fun _ => rfl | ⟨1, _⟩ => fun hb => absurd rfl hb) rfl
  refine h.trans ?_
  rw [v37, col_apply, v35_apply]

/-- Entry by entry, the second program's index table is the pair table. -/
theorem refIdx_apply (p : Fin 120) (q : Fin 2) : refIdx (ix2 p q) = Cert.Pairs.table (ix2 p q) :=
  match q with
  | ⟨0, _⟩ => (refIdx_apply_zero p).trans rfl
  | ⟨1, _⟩ => (refIdx_apply_one p).trans rfl

/-- The second program's index table is the pair table. -/
theorem refIdx_eq : refIdx = Cert.Pairs.table := by
  funext k
  rw [eq_ix2 k]
  exact refIdx_apply _ _

end Cert.ReferenceIdeal.Idx

end
-- ==== Proof.RefIdxGlue.lean ====
/-
  The buffer the second program's run leaves the index table in is the term of IdxRef. The run's fold of the host
  operations, read at a buffer, is the nest of the functions of the operations that feed it; the flat positions feed
  eighteen operations and the quotients ten more, so the nest is taken in nine consecutive pieces of the run, each read
  over an arbitrary state before it: a piece's result is then a function of the few earlier buffers it reads, which
  later pieces leave as they are.
-/
import proofs.«181531_j20555713478745_2_alg».proof.Proof.RefRun
import proofs.«181531_j20555713478745_2_alg».proof.Proof.IdxRef

noncomputable section

namespace Cert.ReferenceIdeal.IdxGlue

open Cert.ReferenceIdeal Cert.ReferenceIdeal.Gen Idealize.ShloMosaic Idealize.ShloMosaic.TcCoe Idealize.SL.Sem Idealize.ShloMosaic.StableHlo

/-- The state after a line of operations in two pieces is the state after the second piece from the state after the first. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => rw [List.cons_append, after_cons, after_cons, ih]

/-- Two columns laid side by side depend only on the columns. -/
theorem concat_congr (h : Shape.Concatenates [S120x1, S120x1] S120x2 1) {x x' y y' : IVec S120x1 32}
    (hx : x = x') (hy : y = y') :
    concatenate S120x2 1 [⟨S120x1, x⟩, ⟨S120x1, y⟩] h = concatenate S120x2 1 [⟨S120x1, x'⟩, ⟨S120x1, y'⟩] h := by
  rw [hx, hy]

section Pieces
variable {F : FTy → Type} [FloatOps F]

/-- Operations 1 to 25 of the run. -/
abbrev p0 : List (HloOp τ sig (Elt F)) :=
  [ StableHlo.TRef.binary (.of main_arg0 : StableHlo.TRef sig ⟨S65536x16x128, .f32⟩) (.of main_arg0 : StableHlo.TRef sig ⟨S65536x16x128, .f32⟩) main_call0.v0 mulf,
    StableHlo.TRef.nullary main_call0.cst (constant S_ .f32 0x00000000#32),
    StableHlo.TRef.binary main_call0.v0 main_call0.cst main_call0.v1 (fun x v => Host.reduceAdd x v reducesTo_S65536x16x128_S65536x16_d2 h_S_),
    StableHlo.TRef.unary main_call0.v1 main_call0.v2 (broadcastInDim S65536x16x1 ![0, 1] bcast_S65536x16_S65536x16x1_0_1),
    StableHlo.TRef.unary main_call0.v2 main_call0.v3 Host.sqrt,
    StableHlo.nullary main_cst (constant S_ .f32 0x2B8CBCCC#32),
    StableHlo.unary main_cst main_v1 (broadcastInDim S65536x16x1 ![] bcast_S_S65536x16x1 : (⟨S_, .f32⟩ : BufTy).Contents (Elt F) → (⟨S65536x16x1, .f32⟩ : BufTy).Contents (Elt F)),
    StableHlo.binary main_v0 main_v1 main_v2 (maximumf : (⟨S65536x16x1, .f32⟩ : BufTy).Contents (Elt F) → (⟨S65536x16x1, .f32⟩ : BufTy).Contents (Elt F) → (⟨S65536x16x1, .f32⟩ : BufTy).Contents (Elt F)),
    StableHlo.unary main_v2 main_v3 (broadcastInDim S65536x16x128 ![0, 1, 2] bcast_S65536x16x1_S65536x16x128_0_1_2 : (⟨S65536x16x1, .f32⟩ : BufTy).Contents (Elt F) → (⟨S65536x16x128, .f32⟩ : BufTy).Contents (Elt F)),
    StableHlo.binary main_arg0 main_v3 main_v4 (Host.divf : (⟨S65536x16x128, .f32⟩ : BufTy).Contents (Elt F) → (⟨S65536x16x128, .f32⟩ : BufTy).Contents (Elt F) → (⟨S65536x16x128, .f32⟩ : BufTy).Contents (Elt F)),
    StableHlo.binary main_v4 main_v4 main_v5 ((fun l r => Host.dotGeneral dot_S65536x16x128_S65536x16x128_S65536x16x16_2_2_1_1_0_0 none l r) : (⟨S65536x16x128, .f32⟩ : BufTy).Contents (Elt F) → (⟨S65536x16x128, .f32⟩ : BufTy).Contents (Elt F) → (⟨S65536x16x16, .f32⟩ : BufTy).Contents (Elt F)),
    StableHlo.nullary main_cst_0 (constant S_ .f32 0x3F800000#32),
    StableHlo.unary main_cst_0 main_v6 (broadcastInDim S16x16 ![] bcast_S_S16x16 : (⟨S_, .f32⟩ : BufTy).Contents (Elt F) → (⟨S16x16, .f32⟩ : BufTy).Contents (Elt F)),
    StableHlo.TRef.nullary main_call1.v0 (iotaInDim S16x16 32 0),
    StableHlo.TRef.nullary main_call1.c (constantI S_ 32 0#32),
    StableHlo.TRef.unary main_call1.c main_call1.v1 (broadcastInDim S16x16 ![] bcast_S_S16x16),
    StableHlo.TRef.binary main_call1.v0 main_call1.v1 main_call1.v2 addi,
    StableHlo.TRef.nullary main_call1.v3 (iotaInDim S16x16 32 1),
    StableHlo.TRef.binary main_call1.v2 main_call1.v3 main_call1.v4 (cmpi .sge),
    StableHlo.TRef.nullary main_call1.cst (constant S_ .f32 0x00000000#32),
    StableHlo.TRef.unary main_call1.cst main_call1.v5 (broadcastInDim S16x16 ![] bcast_S_S16x16),
    StableHlo.TRef.ternary main_call1.v4 main_call1.v5 (.of main_v6 : StableHlo.TRef sig ⟨S16x16, .f32⟩) main_call1.v6 select,
    StableHlo.nullary main_cst_1 (constant S_ .f32 0x00000000#32),
    StableHlo.unary main_cst_1 main_v8 (broadcastInDim S16x16 ![] bcast_S_S16x16 : (⟨S_, .f32⟩ : BufTy).Contents (Elt F) → (⟨S16x16, .f32⟩ : BufTy).Contents (Elt F)),
    StableHlo.binary main_v7 main_v8 main_v9 (cmpf .une : (⟨S16x16, .f32⟩ : BufTy).Contents (Elt F) → (⟨S16x16, .f32⟩ : BufTy).Contents (Elt F) → (⟨S16x16, .i1⟩ : BufTy).Contents (Elt F)) ]

/-- Operations 26 to 30 of the run. -/
abbrev p1 : List (HloOp τ sig (Elt F)) :=
  [ StableHlo.TRef.reshape (.of main_v9 : StableHlo.TRef sig ⟨S16x16, .i1⟩) main_call2.v0 rfl shapeCasts_S16x16_S256,
    StableHlo.TRef.unary main_call2.v0 main_call2.v1 (extui 32 · natLt_1_32),
    StableHlo.TRef.nullary main_call2.call0.c (constantI S_ 32 0#32),
    StableHlo.TRef.unary main_call2.call0.c main_call2.call0.v0 (broadcastInDim S_ ![] bcast_S_S_),
    StableHlo.TRef.binary main_call2.v1 main_call2.call0.v0 main_call2.call0.v1 (fun x v => Host.reduceWindow IntOp.addi ![256] ![1] ![255] ![0] x v reduceWindows_S256_S256_w256s1p255_0 h_S_) ]

/-- Operations 31 to 47 of the run. -/
abbrev p2 : List (HloOp τ sig (Elt F)) :=
  [ StableHlo.nullary main_c (constantI S_ 32 0#32),
    StableHlo.unary main_c main_v11 (broadcastInDim S120 ![] bcast_S_S120 : (⟨S_, .i32⟩ : BufTy).Contents (Elt F) → (⟨S120, .i32⟩ : BufTy).Contents (Elt F)),
    StableHlo.nullary main_c_2 (constantI S_ 32 0#32),
    StableHlo.TRef.unary (.of main_c_2 : StableHlo.TRef sig ⟨S_, .i32⟩) main_call3.v0 id,
    StableHlo.TRef.unary main_call3.v0 main_call3.v1 (broadcastInDim S256 ![] bcast_S_S256),
    StableHlo.TRef.binary main_call3.v1 (.of main_v10 : StableHlo.TRef sig ⟨S256, .i32⟩) main_call3.v2 maxsi,
    StableHlo.nullary main_c_3 (constantI S_ 32 0#32),
    StableHlo.unary main_c_3 main_v13 (broadcastInDim S256 ![] bcast_S_S256 : (⟨S_, .i32⟩ : BufTy).Contents (Elt F) → (⟨S256, .i32⟩ : BufTy).Contents (Elt F)),
    StableHlo.binary main_v12 main_v13 main_v14 (cmpi .slt : (⟨S256, .i32⟩ : BufTy).Contents (Elt F) → (⟨S256, .i32⟩ : BufTy).Contents (Elt F) → (⟨S256, .i1⟩ : BufTy).Contents (Elt F)),
    StableHlo.nullary main_c_4 (constantI S_ 32 120#32),
    StableHlo.unary main_c_4 main_v15 (broadcastInDim S256 ![] bcast_S_S256 : (⟨S_, .i32⟩ : BufTy).Contents (Elt F) → (⟨S256, .i32⟩ : BufTy).Contents (Elt F)),
    StableHlo.binary main_v12 main_v15 main_v16 (addi : (⟨S256, .i32⟩ : BufTy).Contents (Elt F) → (⟨S256, .i32⟩ : BufTy).Contents (Elt F) → (⟨S256, .i32⟩ : BufTy).Contents (Elt F)),
    StableHlo.ternary main_v14 main_v16 main_v12 main_v17 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v17 main_v18 (broadcastInDim S256x1 ![0] bcast_S256_S256x1_0 : (⟨S256, .i32⟩ : BufTy).Contents (Elt F) → (⟨S256x1, .i32⟩ : BufTy).Contents (Elt F)),
    StableHlo.nullary main_c_5 (constantI S_ 32 1#32),
    StableHlo.unary main_c_5 main_v19 (broadcastInDim S256 ![] bcast_S_S256 : (⟨S_, .i32⟩ : BufTy).Contents (Elt F) → (⟨S256, .i32⟩ : BufTy).Contents (Elt F)),
    StableHlo.ternary main_v11 main_v18 main_v19 main_v20 ((fun x i u => Host.scatter scatter_S120_S256x1_S256_n_0_0_1 IntOp.addi x i u) : (⟨S120, .i32⟩ : BufTy).Contents (Elt F) → (⟨S256x1, .i32⟩ : BufTy).Contents (Elt F) → (⟨S256, .i32⟩ : BufTy).Contents (Elt F) → (⟨S120, .i32⟩ : BufTy).Contents (Elt F)) ]

/-- Operations 48 to 50 of the run. -/
abbrev p3 : List (HloOp τ sig (Elt F)) :=
  [ StableHlo.TRef.nullary main_call4.call0.c (constantI S_ 32 0#32),
    StableHlo.TRef.unary main_call4.call0.c main_call4.call0.v0 (broadcastInDim S_ ![] bcast_S_S_),
    StableHlo.TRef.binary (.of main_v20 : StableHlo.TRef sig ⟨S120, .i32⟩) main_call4.call0.v0 main_call4.call0.v1 (fun x v => Host.reduceWindow IntOp.addi ![120] ![1] ![119] ![0] x v reduceWindows_S120_S120_w120s1p119_0 h_S_) ]

/-- Operations 51 to 67 of the run. -/
abbrev p4 : List (HloOp τ sig (Elt F)) :=
  [ StableHlo.nullary main_c_6 (constantI S_ 32 16#32),
    StableHlo.TRef.unary (.of main_c_6 : StableHlo.TRef sig ⟨S_, .i32⟩) main_call5.v0 (broadcastInDim S120 ![] bcast_S_S120),
    StableHlo.TRef.binary (.of main_v21 : StableHlo.TRef sig ⟨S120, .i32⟩) main_call5.v0 main_call5.v1 Host.divsi,
    StableHlo.TRef.unary (.of main_v21 : StableHlo.TRef sig ⟨S120, .i32⟩) main_call5.v2 signi,
    StableHlo.TRef.unary (.of main_c_6 : StableHlo.TRef sig ⟨S_, .i32⟩) main_call5.v3 signi,
    StableHlo.TRef.unary main_call5.v3 main_call5.v4 (broadcastInDim S120 ![] bcast_S_S120),
    StableHlo.TRef.binary main_call5.v2 main_call5.v4 main_call5.v5 (cmpi .ne),
    StableHlo.TRef.unary (.of main_c_6 : StableHlo.TRef sig ⟨S_, .i32⟩) main_call5.v6 (broadcastInDim S120 ![] bcast_S_S120),
    StableHlo.TRef.binary (.of main_v21 : StableHlo.TRef sig ⟨S120, .i32⟩) main_call5.v6 main_call5.v7 Host.remsi,
    StableHlo.TRef.nullary main_call5.c (constantI S_ 32 0#32),
    StableHlo.TRef.unary main_call5.c main_call5.v8 (broadcastInDim S120 ![] bcast_S_S120),
    StableHlo.TRef.binary main_call5.v7 main_call5.v8 main_call5.v9 (cmpi .ne),
    StableHlo.TRef.binary main_call5.v5 main_call5.v9 main_call5.v10 andi,
    StableHlo.TRef.nullary main_call5.c_0 (constantI S_ 32 1#32),
    StableHlo.TRef.unary main_call5.c_0 main_call5.v11 (broadcastInDim S120 ![] bcast_S_S120),
    StableHlo.TRef.binary main_call5.v1 main_call5.v11 main_call5.v12 subi,
    StableHlo.TRef.ternary main_call5.v10 main_call5.v12 main_call5.v1 main_call5.call0.v0 select ]

/-- Operations 68 to 89 of the run. -/
abbrev p5 : List (HloOp τ sig (Elt F)) :=
  [ StableHlo.nullary main_c_7 (constantI S_ 32 16#32),
    StableHlo.TRef.unary (.of main_c_7 : StableHlo.TRef sig ⟨S_, .i32⟩) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S120 ![] bcast_S_S120),
    StableHlo.TRef.binary (.of main_v22 : StableHlo.TRef sig ⟨S120, .i32⟩) main_call6.v3 main_call6.v4 Host.remsi,
    StableHlo.TRef.nullary main_call6.c_1 (constantI S_ 32 0#32),
    StableHlo.TRef.unary main_call6.c_1 main_call6.v5 (broadcastInDim S120 ![] bcast_S_S120),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S120 ![] bcast_S_S120),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S120 ![] bcast_S_S120),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S120 ![] bcast_S_S120),
    StableHlo.TRef.binary main_call6.v4 main_call6.v13 main_call6.v14 addi,
    StableHlo.TRef.ternary main_call6.v12 main_call6.v14 main_call6.v4 main_call6.v15 select ]

/-- Operations 90 to 106 of the run. -/
abbrev p6 : List (HloOp τ sig (Elt F)) :=
  [ StableHlo.nullary main_c_8 (constantI S_ 32 1#32),
    StableHlo.TRef.unary (.of main_c_8 : StableHlo.TRef sig ⟨S_, .i32⟩) main_call7.v0 (broadcastInDim S120 ![] bcast_S_S120),
    StableHlo.TRef.binary (.of main_v21 : StableHlo.TRef sig ⟨S120, .i32⟩) main_call7.v0 main_call7.v1 Host.divsi,
    StableHlo.TRef.unary (.of main_v21 : StableHlo.TRef sig ⟨S120, .i32⟩) main_call7.v2 signi,
    StableHlo.TRef.unary (.of main_c_8 : StableHlo.TRef sig ⟨S_, .i32⟩) main_call7.v3 signi,
    StableHlo.TRef.unary main_call7.v3 main_call7.v4 (broadcastInDim S120 ![] bcast_S_S120),
    StableHlo.TRef.binary main_call7.v2 main_call7.v4 main_call7.v5 (cmpi .ne),
    StableHlo.TRef.unary (.of main_c_8 : StableHlo.TRef sig ⟨S_, .i32⟩) main_call7.v6 (broadcastInDim S120 ![] bcast_S_S120),
    StableHlo.TRef.binary (.of main_v21 : StableHlo.TRef sig ⟨S120, .i32⟩) main_call7.v6 main_call7.v7 Host.remsi,
    StableHlo.TRef.nullary main_call7.c (constantI S_ 32 0#32),
    StableHlo.TRef.unary main_call7.c main_call7.v8 (broadcastInDim S120 ![] bcast_S_S120),
    StableHlo.TRef.binary main_call7.v7 main_call7.v8 main_call7.v9 (cmpi .ne),
    StableHlo.TRef.binary main_call7.v5 main_call7.v9 main_call7.v10 andi,
    StableHlo.TRef.nullary main_call7.c_0 (constantI S_ 32 1#32),
    StableHlo.TRef.unary main_call7.c_0 main_call7.v11 (broadcastInDim S120 ![] bcast_S_S120),
    StableHlo.TRef.binary main_call7.v1 main_call7.v11 main_call7.v12 subi,
    StableHlo.TRef.ternary main_call7.v10 main_call7.v12 main_call7.v1 main_call7.call0.v0 select ]

/-- Operations 107 to 128 of the run. -/
abbrev p7 : List (HloOp τ sig (Elt F)) :=
  [ StableHlo.nullary main_c_9 (constantI S_ 32 16#32),
    StableHlo.TRef.unary (.of main_c_9 : StableHlo.TRef sig ⟨S_, .i32⟩) main_call8.v0 id,
    StableHlo.TRef.nullary main_call8.c (constantI S_ 32 0#32),
    StableHlo.TRef.binary main_call8.v0 main_call8.c main_call8.v1 (cmpi .eq),
    StableHlo.TRef.nullary main_call8.c_0 (constantI S_ 32 1#32),
    StableHlo.TRef.ternary main_call8.v1 main_call8.c_0 main_call8.v0 main_call8.call0.v0 select,
    StableHlo.TRef.unary main_call8.call0.v0 main_call8.v3 (broadcastInDim S120 ![] bcast_S_S120),
    StableHlo.TRef.binary (.of main_v24 : StableHlo.TRef sig ⟨S120, .i32⟩) main_call8.v3 main_call8.v4 Host.remsi,
    StableHlo.TRef.nullary main_call8.c_1 (constantI S_ 32 0#32),
    StableHlo.TRef.unary main_call8.c_1 main_call8.v5 (broadcastInDim S120 ![] bcast_S_S120),
    StableHlo.TRef.binary main_call8.v4 main_call8.v5 main_call8.v6 (cmpi .ne),
    StableHlo.TRef.nullary main_call8.c_2 (constantI S_ 32 0#32),
    StableHlo.TRef.unary main_call8.c_2 main_call8.v7 (broadcastInDim S120 ![] bcast_S_S120),
    StableHlo.TRef.binary main_call8.v4 main_call8.v7 main_call8.v8 (cmpi .slt),
    StableHlo.TRef.nullary main_call8.c_3 (constantI S_ 32 0#32),
    StableHlo.TRef.binary main_call8.call0.v0 main_call8.c_3 main_call8.v9 (cmpi .slt),
    StableHlo.TRef.unary main_call8.v9 main_call8.v10 (broadcastInDim S120 ![] bcast_S_S120),
    StableHlo.TRef.binary main_call8.v8 main_call8.v10 main_call8.v11 (cmpi .ne),
    StableHlo.TRef.binary main_call8.v11 main_call8.v6 main_call8.v12 andi,
    StableHlo.TRef.unary main_call8.call0.v0 main_call8.v13 (broadcastInDim S120 ![] bcast_S_S120),
    StableHlo.TRef.binary main_call8.v4 main_call8.v13 main_call8.v14 addi,
    StableHlo.TRef.ternary main_call8.v12 main_call8.v14 main_call8.v4 main_call8.v15 select ]

/-- Operations 129 to 157 of the run. -/
abbrev p8 : List (HloOp τ sig (Elt F)) :=
  [ StableHlo.nullary main_c_10 (constantI S_ 32 0#32),
    StableHlo.unary main_c_10 main_v26 (broadcastInDim S120 ![] bcast_S_S120 : (⟨S_, .i32⟩ : BufTy).Contents (Elt F) → (⟨S120, .i32⟩ : BufTy).Contents (Elt F)),
    StableHlo.binary main_v23 main_v26 main_v27 (cmpi .slt : (⟨S120, .i32⟩ : BufTy).Contents (Elt F) → (⟨S120, .i32⟩ : BufTy).Contents (Elt F) → (⟨S120, .i1⟩ : BufTy).Contents (Elt F)),
    StableHlo.nullary main_c_11 (constantI S_ 32 16#32),
    StableHlo.unary main_c_11 main_v28 (broadcastInDim S120 ![] bcast_S_S120 : (⟨S_, .i32⟩ : BufTy).Contents (Elt F) → (⟨S120, .i32⟩ : BufTy).Contents (Elt F)),
    StableHlo.binary main_v23 main_v28 main_v29 (addi : (⟨S120, .i32⟩ : BufTy).Contents (Elt F) → (⟨S120, .i32⟩ : BufTy).Contents (Elt F) → (⟨S120, .i32⟩ : BufTy).Contents (Elt F)),
    StableHlo.ternary main_v27 main_v29 main_v23 main_v30 (select : (⟨S120, .i1⟩ : BufTy).Contents (Elt F) → (⟨S120, .i32⟩ : BufTy).Contents (Elt F) → (⟨S120, .i32⟩ : BufTy).Contents (Elt F) → (⟨S120, .i32⟩ : BufTy).Contents (Elt F)),
    StableHlo.nullary main_c_12 (constantI S_ 32 0#32),
    StableHlo.unary main_c_12 main_v31 (broadcastInDim S120 ![] bcast_S_S120 : (⟨S_, .i32⟩ : BufTy).Contents (Elt F) → (⟨S120, .i32⟩ : BufTy).Contents (Elt F)),
    StableHlo.binary main_v25 main_v31 main_v32 (cmpi .slt : (⟨S120, .i32⟩ : BufTy).Contents (Elt F) → (⟨S120, .i32⟩ : BufTy).Contents (Elt F) → (⟨S120, .i1⟩ : BufTy).Contents (Elt F)),
    StableHlo.nullary main_c_13 (constantI S_ 32 16#32),
    StableHlo.unary main_c_13 main_v33 (broadcastInDim S120 ![] bcast_S_S120 : (⟨S_, .i32⟩ : BufTy).Contents (Elt F) → (⟨S120, .i32⟩ : BufTy).Contents (Elt F)),
    StableHlo.binary main_v25 main_v33 main_v34 (addi : (⟨S120, .i32⟩ : BufTy).Contents (Elt F) → (⟨S120, .i32⟩ : BufTy).Contents (Elt F) → (⟨S120, .i32⟩ : BufTy).Contents (Elt F)),
    StableHlo.ternary main_v32 main_v34 main_v25 main_v35 (select : (⟨S120, .i1⟩ : BufTy).Contents (Elt F) → (⟨S120, .i32⟩ : BufTy).Contents (Elt F) → (⟨S120, .i32⟩ : BufTy).Contents (Elt F) → (⟨S120, .i32⟩ : BufTy).Contents (Elt F)),
    StableHlo.unary main_v30 main_v36 (broadcastInDim S120x1 ![0] bcast_S120_S120x1_0 : (⟨S120, .i32⟩ : BufTy).Contents (Elt F) → (⟨S120x1, .i32⟩ : BufTy).Contents (Elt F)),
    StableHlo.unary main_v35 main_v37 (broadcastInDim S120x1 ![0] bcast_S120_S120x1_0 : (⟨S120, .i32⟩ : BufTy).Contents (Elt F) → (⟨S120x1, .i32⟩ : BufTy).Contents (Elt F)),
    StableHlo.binary main_v36 main_v37 main_v38 ((fun a b => concatenate S120x2 1 [⟨S120x1, a⟩, ⟨S120x1, b⟩] concatenates_S120x1_S120x1_S120x2_d1) : (⟨S120x1, .i32⟩ : BufTy).Contents (Elt F) → (⟨S120x1, .i32⟩ : BufTy).Contents (Elt F) → (⟨S120x2, .i32⟩ : BufTy).Contents (Elt F)),
    StableHlo.binary main_v5 main_v38 main_v39 ((fun x i => Host.gather gather_S65536x16x16_S120x2_S65536x120_0_12_n_n_12_1_6553611 x i) : (⟨S65536x16x16, .f32⟩ : BufTy).Contents (Elt F) → (⟨S120x2, .i32⟩ : BufTy).Contents (Elt F) → (⟨S65536x120, .f32⟩ : BufTy).Contents (Elt F)),
    StableHlo.binary main_v39 main_arg1 main_v40 ((fun l r => Host.dotGeneral dot_S65536x120_S120x128_S65536x128_1_0_0_1_n_n none l r) : (⟨S65536x120, .f32⟩ : BufTy).Contents (Elt F) → (⟨S120x128, .f32⟩ : BufTy).Contents (Elt F) → (⟨S65536x128, .f32⟩ : BufTy).Contents (Elt F)),
    StableHlo.unary main_arg2 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S65536x128 ![0, 1] bcast_S1x128_S65536x128_0_1 : (⟨S1x128, .f32⟩ : BufTy).Contents (Elt F) → (⟨S65536x128, .f32⟩ : BufTy).Contents (Elt F)),
    StableHlo.binary main_v40 main_v42 main_v43 (addf : (⟨S65536x128, .f32⟩ : BufTy).Contents (Elt F) → (⟨S65536x128, .f32⟩ : BufTy).Contents (Elt F) → (⟨S65536x128, .f32⟩ : BufTy).Contents (Elt F)),
    StableHlo.TRef.nullary main_call9.cst (constant S_ .f32 0x00000000#32),
    StableHlo.TRef.unary main_call9.cst main_call9.v0 (broadcastInDim S65536x128 ![] bcast_S_S65536x128),
    StableHlo.TRef.binary (.of main_v43 : StableHlo.TRef sig ⟨S65536x128, .f32⟩) main_call9.v0 main_call9.v1 maximumf,
    StableHlo.binary main_v44 main_arg3 main_v45 ((fun l r => Host.dotGeneral dot_S65536x128_S128x128_S65536x128_1_0_0_1_n_n none l r) : (⟨S65536x128, .f32⟩ : BufTy).Contents (Elt F) → (⟨S128x128, .f32⟩ : BufTy).Contents (Elt F) → (⟨S65536x128, .f32⟩ : BufTy).Contents (Elt F)),
    StableHlo.unary main_arg4 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S65536x128 ![0, 1] bcast_S1x128_S65536x128_0_1 : (⟨S1x128, .f32⟩ : BufTy).Contents (Elt F) → (⟨S65536x128, .f32⟩ : BufTy).Contents (Elt F)),
    StableHlo.binary main_v45 main_v47 main_v48 (addf : (⟨S65536x128, .f32⟩ : BufTy).Contents (Elt F) → (⟨S65536x128, .f32⟩ : BufTy).Contents (Elt F) → (⟨S65536x128, .f32⟩ : BufTy).Contents (Elt F)) ]

set_option maxRecDepth 8192 in
/-- The run is the nine pieces in order. -/
theorem ops_split : RefRun.ops (F := F) = p0 ++ (p1 ++ (p2 ++ (p3 ++ (p4 ++ (p5 ++ (p6 ++ (p7 ++ p8))))))) := rfl

end Pieces

attribute [local irreducible] Host.reduceWindow Host.scatter Host.gather in
set_option maxRecDepth 8192 in
set_option maxHeartbeats 2000000 in
/-- Piece 1: the mask of the strict upper triangle, from constants only. The references of the outlined functions carry
    their types by transport along equations that hold by computation; these transports are removed first. -/
theorem g0 (W : Valuation τ sig (Elt Ideal)) :
    after (p0 (F := Ideal)) W (main_v9 : DevRef τ sig) = Idx.v9 := by
  after_results_simp
  simp only [TRef.toBuf, TRef.ofBuf, cast_eq]
  (simp only [
      Idx.v9, Idx.v8, Idx.cst_1, Idx.v7, Idx.call1_v5, Idx.call1_cst, Idx.call1_v4, Idx.call1_v3,
      Idx.call1_v2, Idx.call1_v1, Idx.call1_c, Idx.call1_v0, Idx.v6, Idx.cst_0]) <;> rfl

attribute [local irreducible] Host.reduceWindow Host.scatter Host.gather in
set_option maxRecDepth 8192 in
set_option maxHeartbeats 2000000 in
/-- Piece 2: the mask flattened, widened and summed cumulatively. -/
theorem g1 (W : Valuation τ sig (Elt Ideal)) (h : W (main_v9 : DevRef τ sig) = Idx.v9) :
    after (p1 (F := Ideal)) W (main_v10 : DevRef τ sig) = Idx.v10 := by
  after_results_simp
  simp only [TRef.toBuf, TRef.ofBuf, cast_eq, h]
  (simp only [
      Idx.v10, Idx.call2_call0_v0, Idx.call2_call0_c, Idx.call2_v1, Idx.call2_v0]) <;> rfl

attribute [local irreducible] Host.reduceWindow Host.scatter Host.gather in
set_option maxRecDepth 8192 in
set_option maxHeartbeats 2000000 in
/-- Piece 3: the counts of the cumulative sums' values. -/
theorem g2 (W : Valuation τ sig (Elt Ideal)) (h : W (main_v10 : DevRef τ sig) = Idx.v10) :
    after (p2 (F := Ideal)) W (main_v20 : DevRef τ sig) = Idx.v20 := by
  after_results_simp
  simp only [TRef.toBuf, TRef.ofBuf, cast_eq, h]
  (simp only [
      Idx.v20, Idx.v19, Idx.c_5, Idx.v18, Idx.v17, Idx.v16, Idx.v15, Idx.c_4, Idx.v14, Idx.v13, Idx.c_3,
      Idx.v12, Idx.call3_v1, Idx.call3_v0, Idx.c_2, Idx.v11, Idx.c]) <;> rfl

attribute [local irreducible] Host.reduceWindow Host.scatter Host.gather in
set_option maxRecDepth 8192 in
set_option maxHeartbeats 2000000 in
/-- Piece 4: the cumulative sum of the counts: the flat positions. -/
theorem g3 (W : Valuation τ sig (Elt Ideal)) (h : W (main_v20 : DevRef τ sig) = Idx.v20) :
    after (p3 (F := Ideal)) W (main_v21 : DevRef τ sig) = Idx.v21 := by
  after_results_simp
  simp only [TRef.toBuf, TRef.ofBuf, cast_eq, h]
  (simp only [
      Idx.v21, Idx.call4_call0_v0, Idx.call4_call0_c]) <;> rfl

attribute [local irreducible] Host.reduceWindow Host.scatter Host.gather in
set_option maxRecDepth 8192 in
set_option maxHeartbeats 2000000 in
/-- Piece 5: the quotients by 16 of the flat positions. -/
theorem g4 (W : Valuation τ sig (Elt Ideal)) (h : W (main_v21 : DevRef τ sig) = Idx.v21) :
    after (p4 (F := Ideal)) W (main_v22 : DevRef τ sig) = Idx.v22 := by
  after_results_simp
  simp only [TRef.toBuf, TRef.ofBuf, cast_eq, h]
  (simp only [
      Idx.v22, Idx.call5_v12, Idx.call5_v11, Idx.call5_c_0, Idx.call5_v10, Idx.call5_v9, Idx.call5_v8,
      Idx.call5_c, Idx.call5_v7, Idx.call5_v6, Idx.call5_v5, Idx.call5_v4, Idx.call5_v3, Idx.call5_v2,
      Idx.call5_v1, Idx.call5_v0, Idx.c_6]) <;> rfl

attribute [local irreducible] Host.reduceWindow Host.scatter Host.gather in
set_option maxRecDepth 8192 in
set_option maxHeartbeats 2000000 in
/-- Piece 6: their remainders by 16. -/
theorem g5 (W : Valuation τ sig (Elt Ideal)) (h : W (main_v22 : DevRef τ sig) = Idx.v22) :
    after (p5 (F := Ideal)) W (main_v23 : DevRef τ sig) = Idx.v23 := by
  after_results_simp
  simp only [TRef.toBuf, TRef.ofBuf, cast_eq, h]
  (simp only [
      Idx.v23, Idx.call6_v14, Idx.call6_v13, Idx.call6_v12, Idx.call6_v11, Idx.call6_v10, Idx.call6_v9,
      Idx.call6_c_3, Idx.call6_v8, Idx.call6_v7, Idx.call6_c_2, Idx.call6_v6, Idx.call6_v5, Idx.call6_c_1,
      Idx.call6_v4, Idx.call6_v3, Idx.call6_v2, Idx.call6_c_0, Idx.call6_v1, Idx.call6_c, Idx.call6_v0,
      Idx.c_7]) <;> rfl

attribute [local irreducible] Host.reduceWindow Host.scatter Host.gather in
set_option maxRecDepth 8192 in
set_option maxHeartbeats 2000000 in
/-- Piece 7: the quotients by 1 of the flat positions. -/
theorem g6 (W : Valuation τ sig (Elt Ideal)) (h : W (main_v21 : DevRef τ sig) = Idx.v21) :
    after (p6 (F := Ideal)) W (main_v24 : DevRef τ sig) = Idx.v24 := by
  after_results_simp
  simp only [TRef.toBuf, TRef.ofBuf, cast_eq, h]
  (simp only [
      Idx.v24, Idx.call7_v12, Idx.call7_v11, Idx.call7_c_0, Idx.call7_v10, Idx.call7_v9, Idx.call7_v8,
      Idx.call7_c, Idx.call7_v7, Idx.call7_v6, Idx.call7_v5, Idx.call7_v4, Idx.call7_v3, Idx.call7_v2,
      Idx.call7_v1, Idx.call7_v0, Idx.c_8]) <;> rfl

attribute [local irreducible] Host.reduceWindow Host.scatter Host.gather in
set_option maxRecDepth 8192 in
set_option maxHeartbeats 2000000 in
/-- Piece 8: their remainders by 16. -/
theorem g7 (W : Valuation τ sig (Elt Ideal)) (h : W (main_v24 : DevRef τ sig) = Idx.v24) :
    after (p7 (F := Ideal)) W (main_v25 : DevRef τ sig) = Idx.v25 := by
  after_results_simp
  simp only [TRef.toBuf, TRef.ofBuf, cast_eq, h]
  (simp only [
      Idx.v25, Idx.call8_v14, Idx.call8_v13, Idx.call8_v12, Idx.call8_v11, Idx.call8_v10, Idx.call8_v9,
      Idx.call8_c_3, Idx.call8_v8, Idx.call8_v7, Idx.call8_c_2, Idx.call8_v6, Idx.call8_v5, Idx.call8_c_1,
      Idx.call8_v4, Idx.call8_v3, Idx.call8_v2, Idx.call8_c_0, Idx.call8_v1, Idx.call8_c, Idx.call8_v0,
      Idx.c_9]) <;> rfl

attribute [local irreducible] Host.reduceWindow Host.scatter Host.gather in
set_option maxRecDepth 8192 in
set_option maxHeartbeats 2000000 in
/-- The last piece: the two remainders, wrapped, made into columns and laid side by side. -/
theorem g8 (W : Valuation τ sig (Elt Ideal)) (h23 : W (main_v23 : DevRef τ sig) = Idx.v23)
    (h25 : W (main_v25 : DevRef τ sig) = Idx.v25) : after (p8 (F := Ideal)) W (main_v38 : DevRef τ sig) = Idx.refIdx := by
  after_results_simp
  unfold Idx.refIdx Idx.v38
  refine concat_congr _ ?_ ?_
  · after_results_simp
    simp only [h23]
    (simp only [
      Idx.v36, Idx.v30, Idx.v29, Idx.v28, Idx.c_11, Idx.v27, Idx.v26, Idx.c_10]) <;> rfl
  · after_results_simp
    simp only [h25]
    (simp only [
      Idx.v37, Idx.v35, Idx.v34, Idx.v33, Idx.c_13, Idx.v32, Idx.v31, Idx.c_12]) <;> rfl

/-! Later pieces leave the buffers they only read as they are. -/

set_option maxRecDepth 8192 in
theorem k4 (W : Valuation τ sig (Elt Ideal)) : after (p4 (F := Ideal)) W (main_v21 : DevRef τ sig) = W (main_v21 : DevRef τ sig) := by
  after_results_simp
set_option maxRecDepth 8192 in
theorem k5 (W : Valuation τ sig (Elt Ideal)) : after (p5 (F := Ideal)) W (main_v21 : DevRef τ sig) = W (main_v21 : DevRef τ sig) := by
  after_results_simp
set_option maxRecDepth 8192 in
theorem k6 (W : Valuation τ sig (Elt Ideal)) : after (p6 (F := Ideal)) W (main_v23 : DevRef τ sig) = W (main_v23 : DevRef τ sig) := by
  after_results_simp
set_option maxRecDepth 8192 in
theorem k7 (W : Valuation τ sig (Elt Ideal)) : after (p7 (F := Ideal)) W (main_v23 : DevRef τ sig) = W (main_v23 : DevRef τ sig) := by
  after_results_simp

/-- The index buffer after the run is `Idx.refIdx`, whatever the launch contents. -/
theorem idx_glue (V : Valuation τ sig (Elt Ideal)) :
    after (RefRun.ops (F := Ideal)) V (main_v38 : DevRef τ sig) = Idx.refIdx := by
  rw [ops_split (F := Ideal), after_append, after_append, after_append, after_append, after_append, after_append,
    after_append, after_append]
  have e9 := g0 V
  have e10 := g1 _ e9
  have e20 := g2 _ e10
  have e21 := g3 _ e20
  have e22 := g4 _ e21
  have e21' := (k4 _).trans e21
  have e23 := g5 _ e22
  have e21'' := (k5 _).trans e21'
  have e24 := g6 _ e21''
  have e23' := (k6 _).trans e23
  have e25 := g7 _ e24
  have e23'' := (k7 _).trans e23'
  exact g8 _ e23'' e25

end Cert.ReferenceIdeal.IdxGlue

end
-- ==== Proof.RefFinal.lean ====
/-
  The reference's result, whole: after its host operations the result buffer holds the network on whole arrays
  (`Spec.net`) of the argument buffers. The operations compose to `refOut` of the index array and the arguments; the
  index array the program computes is the table of increasing pairs; and `refOut` through that table is `Spec.net`.
-/
import proofs.«181531_j20555713478745_2_alg».proof.Proof.RefRead
import proofs.«181531_j20555713478745_2_alg».proof.Proof.RefValue
import proofs.«181531_j20555713478745_2_alg».proof.Proof.IdxRef
import proofs.«181531_j20555713478745_2_alg».proof.Proof.RefIdxGlue
import proofs.«181531_j20555713478745_2_alg».proof.Proof.Net

noncomputable section

namespace Cert.ReferenceIdeal.RefFinal

open Cert.ReferenceIdeal Cert.ReferenceIdeal.Gen Idealize.ShloMosaic Idealize.ShloMosaic.TcCoe Idealize.SL.Sem
  Idealize.ShloMosaic.StableHlo

/-- The result buffer after the reference's operations is the network of the argument buffers. -/
theorem out_net (V : Valuation τ sig (Elt Ideal)) :
    after (RefRun.ops (F := Ideal)) V (main_v48 : DevRef τ sig)
      = Cert.Spec.net (V (main_arg0 : DevRef τ sig)) (V (main_arg1 : DevRef τ sig)) (V (main_arg2 : DevRef τ sig))
          (V (main_arg3 : DevRef τ sig)) (V (main_arg4 : DevRef τ sig)) := by
  rw [RefRead.out_eq, IdxGlue.idx_glue, Idx.refIdx_eq]
  exact RefValue.refOut_eq_net _ _ _ _ _

end Cert.ReferenceIdeal.RefFinal

end
-- ==== Proof.lean ====
/-
  The certificate: the kernel and its reference compute the same network on the extended reals.
  Per batch element the network normalises sixteen token vectors, takes the 120 inner products of distinct tokens,
  and feeds them to two dense layers. The reference gathers the 120 products out of the full 16 × 16 Gram matrix
  through the positions of the strict upper triangle, which it computes; the kernel multiplies the full Gram matrix,
  one row at a time, with a weight array in which the first layer's weight rows sit at those positions and zeros
  elsewhere. The two agree because a product with zero is zero on the extended reals, whatever the other factor, and a
  finite sum may be reordered and regrouped freely there; so the precondition is never opened. Both output arrays are
  shown to be one function, `Spec.net`, of the five argument arrays: the kernel's through its 64 tiles (the generated
  frame run, block by block), the reference's through its host operations read one at a time. The three frame claims are
  the generated frames of the two kernel programs and the reference's own run read at its arguments; the idealisation
  rewrote nothing, so what it must preserve is trivially true.
-/
import proofs.«181531_j20555713478745_2_alg».proof.Defs
import proofs.«181531_j20555713478745_2_alg».proof.Proof.Gen.Kernel
import proofs.«181531_j20555713478745_2_alg».proof.Proof.Gen.Kernel.Skeleton
import proofs.«181531_j20555713478745_2_alg».proof.Proof.Gen.Kernel.Launch
import proofs.«181531_j20555713478745_2_alg».proof.Proof.Gen.Kernel.Points
import proofs.«181531_j20555713478745_2_alg».proof.Proof.Gen.Kernel.Frame
import proofs.«181531_j20555713478745_2_alg».proof.Proof.Gen.KernelIdeal
import proofs.«181531_j20555713478745_2_alg».proof.Proof.Gen.KernelIdeal.Skeleton
import proofs.«181531_j20555713478745_2_alg».proof.Proof.Gen.KernelIdeal.Launch
import proofs.«181531_j20555713478745_2_alg».proof.Proof.Gen.KernelIdeal.Points
import proofs.«181531_j20555713478745_2_alg».proof.Proof.Gen.KernelIdeal.Frame
import proofs.«181531_j20555713478745_2_alg».proof.Proof.Gen.KernelIdeal.Value
import proofs.«181531_j20555713478745_2_alg».proof.Proof.Gen.ReferenceIdeal
import proofs.«181531_j20555713478745_2_alg».proof.Proof.Gen.Pre_finite_inputs
import proofs.«181531_j20555713478745_2_alg».proof.Proof.KerFinal
import proofs.«181531_j20555713478745_2_alg».proof.Proof.RefRun
import proofs.«181531_j20555713478745_2_alg».proof.Proof.RefFinal
import Idealize.ShloMosaic.Adequacy
import Idealize.ShloMosaic.Init

noncomputable section

namespace Cert.Proof

open Idealize.ShloMosaic Idealize.ShloMosaic.TcCoe Idealize.SL.Sem

/-- The word-level kernel runs and leaves its arguments unchanged: its generated frame. -/
theorem frame_k : Cert.frame_Kernel := fun m ρ _ => Cert.Kernel.Gen.frame m ρ

/-- The idealised kernel runs and leaves its arguments unchanged: its generated frame. -/
theorem frame_ki : Cert.frame_KernelIdeal := fun m ρ _ => Cert.KernelIdeal.Gen.frame m ρ

/-- The reference runs and leaves its arguments unchanged: its run, read at the argument buffers, which none of its
    operations writes. -/
theorem frame_ri : Cert.frame_ReferenceIdeal := by
  intro m ρ _
  exact (θ_run Cert.ReferenceIdeal.defs _ _).mono
    (fun _ h c => ⟨(h c Cert.ReferenceIdeal.main_arg0).trans (Cert.ReferenceIdeal.RefRun.kept_arg0 _),
      (h c Cert.ReferenceIdeal.main_arg1).trans (Cert.ReferenceIdeal.RefRun.kept_arg1 _),
      (h c Cert.ReferenceIdeal.main_arg2).trans (Cert.ReferenceIdeal.RefRun.kept_arg2 _),
      (h c Cert.ReferenceIdeal.main_arg3).trans (Cert.ReferenceIdeal.RefRun.kept_arg3 _),
      (h c Cert.ReferenceIdeal.main_arg4).trans (Cert.ReferenceIdeal.RefRun.kept_arg4 _)⟩)
    (Cert.ReferenceIdeal.RefRun.run_main (F := Ideal) m ρ)

/-- The idealisation rewrote no operation. -/
theorem preserves : Cert.preserves_Kernel_KernelIdeal := trivial

/-- Both programs' result arrays are the network of the argument arrays, and the arguments agree. -/
theorem algebraic : Cert.algebraic_KernelIdeal_ReferenceIdeal := by
  intro m ρ m' ρ' _ hagree
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Final.run m ρ, ?_⟩
  refine (θ_run Cert.ReferenceIdeal.defs _ _).mono
    (fun _ h c => ⟨((h c Cert.ReferenceIdeal.main_v48).trans (Cert.ReferenceIdeal.RefFinal.out_net _)).trans ?_,
      (h c Cert.ReferenceIdeal.main_arg0).trans (Cert.ReferenceIdeal.RefRun.kept_arg0 _),
      (h c Cert.ReferenceIdeal.main_arg1).trans (Cert.ReferenceIdeal.RefRun.kept_arg1 _),
      (h c Cert.ReferenceIdeal.main_arg2).trans (Cert.ReferenceIdeal.RefRun.kept_arg2 _),
      (h c Cert.ReferenceIdeal.main_arg3).trans (Cert.ReferenceIdeal.RefRun.kept_arg3 _),
      (h c Cert.ReferenceIdeal.main_arg4).trans (Cert.ReferenceIdeal.RefRun.kept_arg4 _)⟩)
    (Cert.ReferenceIdeal.RefRun.run_main (F := Ideal) m' ρ')
  show Cert.Spec.net (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
